-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S1024 : Shape := ⟨1, ![1024]⟩
abbrev S1024x1024x4 : Shape := ⟨3, ![1024, 1024, 4]⟩
abbrev S512x1024 : Shape := ⟨2, ![512, 1024]⟩
abbrev S512 : Shape := ⟨1, ![512]⟩
abbrev S512x1024x4 : Shape := ⟨3, ![512, 1024, 4]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1024x4 : S_.BroadcastsInDim S1024x1024x4 (![] : Fin 0 → Fin S1024x1024x4.rank)
  reducesTo_S1024x1024x4_S_d0_1_2 : S1024x1024x4.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x1024x4 : S_.BroadcastsInDim S512x1024x4 (![] : Fin 0 → Fin S512x1024x4.rank)
  reducesTo_S512x1024x4_S_d0_1_2 : S512x1024x4.ReducesTo [0, 1, 2] S_

variable [Facts]

def fn_part1 {F : FTy → Type} [FloatOps F] (main_arg4 : FVec F S512x1024 .f32) (main_arg5 : FVec F S512 .f32) (main_arg6 : FVec F S512x1024x4 .f32) (main_v13 : IVec S_ 1) (main_v16 : IVec S1024x1024x4 1) : IVec S_ 1 :=
  let main_c_5 : IVec S_ 1 := constantI S_ 1 1#1
  let main_v17 : IVec S_ 1 := (fun x v => Host.reduce IntOp.andi x v reducesTo_S1024x1024x4_S_d0_1_2 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024x4 .f32 := Host.absf main_arg6
  let main_cst_10 : FVec F S_ .f32 := constant S_ .f32 0x7F800000#32
  let main_v30 : FVec F S512x1024x4 .f32 := broadcastInDim S512x1024x4 ![] bcast_S_S512x1024x4 main_cst_10
  let main_v31 : IVec S512x1024x4 1 := cmpf .olt main_v29 main_v30
  let main_c_11 : IVec S_ 1 := constantI S_ 1 1#1
  let main_v32 : IVec S_ 1 := (fun x v => Host.reduce IntOp.andi x v reducesTo_S512x1024x4_S_d0_1_2 h_S_) main_v31 main_c_11
  let main_v33 : IVec S_ 1 := andi main_v28 main_v32
  main_v33

def fn {F : FTy → Type} [FloatOps F] (main_arg0 : FVec F S128x1024 .f32) (main_arg1 : FVec F S1024x1024 .f32) (main_arg2 : FVec F S1024 .f32) (main_arg3 : FVec F S1024x1024x4 .f32) (main_arg4 : FVec F S512x1024 .f32) (main_arg5 : FVec F S512 .f32) (main_arg6 : FVec F S512x1024x4 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024x4 .f32 := Host.absf main_arg3
  let main_cst_4 : FVec F S_ .f32 := constant S_ .f32 0x7F800000#32
  let main_v15 : FVec F S1024x1024x4 .f32 := broadcastInDim S1024x1024x4 ![] bcast_S_S1024x1024x4 main_cst_4
  let main_v16 : IVec S1024x1024x4 1 := cmpf .olt main_v14 main_v15
  fn_part1 (F := F) main_arg4 main_arg5 main_arg6 main_v13 main_v16
-- ==== Kernel.lean ====
abbrev S128x1024 : Shape := ⟨2, ![128, 1024]⟩
abbrev S1024x1024 : Shape := ⟨2, ![1024, 1024]⟩
abbrev S1024 : Shape := ⟨1, ![1024]⟩
abbrev S1024x1024x4 : Shape := ⟨3, ![1024, 1024, 4]⟩
abbrev S512x1024 : Shape := ⟨2, ![512, 1024]⟩
abbrev S512 : Shape := ⟨1, ![512]⟩
abbrev S512x1024x4 : Shape := ⟨3, ![512, 1024, 4]⟩
abbrev S4x1024x1024 : Shape := ⟨3, ![4, 1024, 1024]⟩
abbrev S4x512x1024 : Shape := ⟨3, ![4, 512, 1024]⟩
abbrev S1x1024 : Shape := ⟨2, ![1, 1024]⟩
abbrev S128x512 : Shape := ⟨2, ![128, 512]⟩
abbrev S1x128 : Shape := ⟨2, ![1, 128]⟩
abbrev S4x128x512 : Shape := ⟨3, ![4, 128, 512]⟩
abbrev S128x128 : Shape := ⟨2, ![128, 128]⟩
abbrev S16x512 : Shape := ⟨2, ![16, 512]⟩
abbrev S4x16x512 : Shape := ⟨3, ![4, 16, 512]⟩
abbrev S1x16x512 : Shape := ⟨3, ![1, 16, 512]⟩
abbrev S128x1x512 : Shape := ⟨3, ![128, 1, 512]⟩
abbrev S128x16x512 : Shape := ⟨3, ![128, 16, 512]⟩
abbrev S128x16 : Shape := ⟨2, ![128, 16]⟩
abbrev S1x512 : Shape := ⟨2, ![1, 512]⟩
abbrev S1x128x512 : Shape := ⟨3, ![1, 128, 512]⟩

abbrev nBuf : Space → Nat
  | .hbm => 13
  | .vmem => 22
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024, .f32⟩
  | .hbm, ⟨3, _⟩ => ⟨S1024x1024x4, .f32⟩
  | .hbm, ⟨4, _⟩ => ⟨S512x1024, .f32⟩
  | .hbm, ⟨5, _⟩ => ⟨S512, .f32⟩
  | .hbm, ⟨6, _⟩ => ⟨S512x1024x4, .f32⟩
  | .hbm, ⟨7, _⟩ => ⟨S4x1024x1024, .f32⟩
  | .hbm, ⟨8, _⟩ => ⟨S4x512x1024, .f32⟩
  | .hbm, ⟨9, _⟩ => ⟨S1x1024, .f32⟩
  | .hbm, ⟨10, _⟩ => ⟨S128x1024, .f32⟩
  | .hbm, ⟨11, _⟩ => ⟨S1x512, .f32⟩
  | .hbm, ⟨12, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x128, .f32⟩
  | .local _ .vmem, ⟨5, _⟩ => ⟨S1x128, .f32⟩
  | .local _ .vmem, ⟨6, _⟩ => ⟨S4x128x512, .f32⟩
  | .local _ .vmem, ⟨7, _⟩ => ⟨S4x128x512, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S1x128, .f32⟩
  | .local _ .vmem, ⟨16, _⟩ => ⟨S1x128, .f32⟩
  | .local _ .vmem, ⟨17, _⟩ => ⟨S4x128x512, .f32⟩
  | .local _ .vmem, ⟨18, _⟩ => ⟨S4x128x512, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v332 : BitVec 1 := Scalar.cmpi .eq arg1 c1_i32
  let v333 : BitVec 32 := Scalar.extui v332
  let c0_i32_106 : BitVec 32 := 0#32
  let v334 : BitVec 1 := Scalar.cmpi .ne v333 c0_i32_106
  v334

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 2], ![false, false]⟩

def k1_cond2 (i : grid1.Coords) : BitVec 1 :=
  let arg1 : BitVec 32 := BitVec.ofNat 32 (i 1).val
  let c1_i32 : BitVec 32 := 1#32
  let v42 : BitVec 1 := Scalar.cmpi .eq arg1 c1_i32
  let v43 : BitVec 32 := Scalar.extui v42
  let c0_i32_15 : BitVec 32 := 0#32
  let v44 : BitVec 1 := Scalar.cmpi .ne v43 c0_i32_15
  v44

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  transposes_S1024x1024x4_S4x1024x1024_2_0_1 : S1024x1024x4.Transposes [2, 0, 1] S4x1024x1024
  transposes_S512x1024x4_S4x512x1024_2_0_1 : S512x1024x4.Transposes [2, 0, 1] S4x512x1024
  shapeCasts_S1024_S1x1024 : S1024.ShapeCasts S1x1024
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x512_S128x512_0_0 : ∀ a, (![0, 0] : Fin 2 → Nat) a + S128x512.size a ≤ S128x512.size a
  h_S128x512 : 0 < S128x512.numel
  inb_S128x512_S16x512_0_0 : ∀ a, (![0, 0] : Fin 2 → Nat) a + S16x512.size a ≤ S128x512.size a
  h_S16x512 : 0 < S16x512.numel
  inb_S4x128x512_S4x16x512_0_0_0 : ∀ a, (![0, 0, 0] : Fin 3 → Nat) a + S4x16x512.size a ≤ S4x128x512.size a
  h_S4x16x512 : 0 < S4x16x512.numel
  shapeCasts_S4x16x512_S4x16x512 : S4x16x512.ShapeCasts S4x16x512
  reduces_S4x16x512_S16x512 : S4x16x512.Reduces [0] S16x512
  shapeCasts_S16x512_S1x16x512 : S16x512.ShapeCasts S1x16x512
  broadcasts_S1x16x512_S4x16x512 : S1x16x512.Broadcasts S4x16x512
  slices_S4x16x512_o0_0_0_S1x16x512 : S4x16x512.Slices ![0, 0, 0] S1x16x512
  shapeCasts_S1x16x512_S16x512 : S1x16x512.ShapeCasts S16x512
  slices_S4x16x512_o2_0_0_S1x16x512 : S4x16x512.Slices ![2, 0, 0] S1x16x512
  slices_S4x16x512_o3_0_0_S1x16x512 : S4x16x512.Slices ![3, 0, 0] S1x16x512
  shapeCasts_S128x512_S128x1x512 : S128x512.ShapeCasts S128x1x512
  broadcasts_S128x1x512_S128x16x512 : S128x1x512.Broadcasts S128x16x512
  broadcasts_S1x16x512_S128x16x512 : S1x16x512.Broadcasts S128x16x512
  reduces_S128x16x512_S128x16 : S128x16x512.Reduces [2] S128x16
  inb_S128x128_S128x16_0_0 : ∀ a, (![0, 0] : Fin 2 → Nat) a + S128x16.size a ≤ S128x128.size a
  h_S128x16 : 0 < S128x16.numel
  shapeCasts_S128x16_S128x16 : S128x16.ShapeCasts S128x16
  inb_S128x512_S16x512_16_0 : ∀ a, (![16, 0] : Fin 2 → Nat) a + S16x512.size a ≤ S128x512.size a
  inb_S4x128x512_S4x16x512_0_16_0 : ∀ a, (![0, 16, 0] : Fin 3 → Nat) a + S4x16x512.size a ≤ S4x128x512.size a
  inb_S128x128_S128x16_0_16 : ∀ a, (![0, 16] : Fin 2 → Nat) a + S128x16.size a ≤ S128x128.size a
  inb_S128x512_S16x512_32_0 : ∀ a, (![32, 0] : Fin 2 → Nat) a + S16x512.size a ≤ S128x512.size a
  inb_S4x128x512_S4x16x512_0_32_0 : ∀ a, (![0, 32, 0] : Fin 3 → Nat) a + S4x16x512.size a ≤ S4x128x512.size a
  inb_S128x128_S128x16_0_32 : ∀ a, (![0, 32] : Fin 2 → Nat) a + S128x16.size a ≤ S128x128.size a
  inb_S128x512_S16x512_48_0 : ∀ a, (![48, 0] : Fin 2 → Nat) a + S16x512.size a ≤ S128x512.size a
  inb_S4x128x512_S4x16x512_0_48_0 : ∀ a, (![0, 48, 0] : Fin 3 → Nat) a + S4x16x512.size a ≤ S4x128x512.size a
  inb_S128x128_S128x16_0_48 : ∀ a, (![0, 48] : Fin 2 → Nat) a + S128x16.size a ≤ S128x128.size a
  inb_S128x512_S16x512_64_0 : ∀ a, (![64, 0] : Fin 2 → Nat) a + S16x512.size a ≤ S128x512.size a
  inb_S4x128x512_S4x16x512_0_64_0 : ∀ a, (![0, 64, 0] : Fin 3 → Nat) a + S4x16x512.size a ≤ S4x128x512.size a
  inb_S128x128_S128x16_0_64 : ∀ a, (![0, 64] : Fin 2 → Nat) a + S128x16.size a ≤ S128x128.size a
  inb_S128x512_S16x512_80_0 : ∀ a, (![80, 0] : Fin 2 → Nat) a + S16x512.size a ≤ S128x512.size a
  inb_S4x128x512_S4x16x512_0_80_0 : ∀ a, (![0, 80, 0] : Fin 3 → Nat) a + S4x16x512.size a ≤ S4x128x512.size a
  inb_S128x128_S128x16_0_80 : ∀ a, (![0, 80] : Fin 2 → Nat) a + S128x16.size a ≤ S128x128.size a
  inb_S128x512_S16x512_96_0 : ∀ a, (![96, 0] : Fin 2 → Nat) a + S16x512.size a ≤ S128x512.size a
  inb_S4x128x512_S4x16x512_0_96_0 : ∀ a, (![0, 96, 0] : Fin 3 → Nat) a + S4x16x512.size a ≤ S4x128x512.size a
  inb_S128x128_S128x16_0_96 : ∀ a, (![0, 96] : Fin 2 → Nat) a + S128x16.size a ≤ S128x128.size a
  inb_S128x512_S16x512_112_0 : ∀ a, (![112, 0] : Fin 2 → Nat) a + S16x512.size a ≤ S128x512.size a
  inb_S4x128x512_S4x16x512_0_112_0 : ∀ a, (![0, 112, 0] : Fin 3 → Nat) a + S4x16x512.size a ≤ S4x128x512.size a
  inb_S128x128_S128x16_0_112 : ∀ a, (![0, 112] : Fin 2 → Nat) a + S128x16.size a ≤ S128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  shapeCasts_S512_S1x512 : S512.ShapeCasts S1x512
  inb_S4x128x512_S4x128x512_0_0_0 : ∀ a, (![0, 0, 0] : Fin 3 → Nat) a + S4x128x512.size a ≤ S4x128x512.size a
  h_S4x128x512 : 0 < S4x128x512.numel
  shapeCasts_S4x128x512_S4x128x512 : S4x128x512.ShapeCasts S4x128x512
  reduces_S4x128x512_S128x512 : S4x128x512.Reduces [0] S128x512
  shapeCasts_S128x512_S1x128x512 : S128x512.ShapeCasts S1x128x512
  broadcasts_S1x128x512_S4x128x512 : S1x128x512.Broadcasts S4x128x512
  slices_S4x128x512_o0_0_0_S1x128x512 : S4x128x512.Slices ![0, 0, 0] S1x128x512
  shapeCasts_S1x128x512_S128x512 : S1x128x512.ShapeCasts S128x512
  slices_S4x128x512_o2_0_0_S1x128x512 : S4x128x512.Slices ![2, 0, 0] S1x128x512
  slices_S4x128x512_o3_0_0_S1x128x512 : S4x128x512.Slices ![3, 0, 0] S1x128x512
  shapeCasts_S128x512_S128x512 : S128x512.ShapeCasts S128x512
  bitsLt_bf16_f32 : FTy.bits .bf16 < FTy.bits .f32
  dot_S128x512_S128x512_S128x128_1_1_0_0_n_n_wf : DotDims.WF S128x512 S128x512 S128x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x1024.size a
  hwx0_0 : ∀ i : grid0.Coords, EltTy.bits .f32 = 32 ∨ (Rect.block (s := S128x1024) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S1024x1024.size a
  hwx0_1 : ∀ i : grid0.Coords, EltTy.bits .f32 = 32 ∨ (Rect.block (s := S1024x1024) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x128x512.size a ≤ S4x1024x1024.size a
  hwx0_3 : ∀ i : grid0.Coords, EltTy.bits .f32 = 32 ∨ (Rect.block (s := S4x1024x1024) S4x128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x1024.size a
  hwx0_4 : ∀ i : grid0.Coords, EltTy.bits .f32 = 32 ∨ (Rect.block (s := S128x1024) S128x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S128x1024.size a
  hwx1_0 : ∀ i : grid1.Coords, EltTy.bits .f32 = 32 ∨ (Rect.block (s := S128x1024) S128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S512x1024.size a
  hwx1_1 : ∀ i : grid1.Coords, EltTy.bits .f32 = 32 ∨ (Rect.block (s := S512x1024) S128x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x512.size a
  hwx1_2 : ∀ i : grid1.Coords, EltTy.bits .f32 = 32 ∨ (Rect.block (s := S1x512) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x128x512.size a ≤ S4x512x1024.size a
  hwx1_3 : ∀ i : grid1.Coords, EltTy.bits .f32 = 32 ∨ (Rect.block (s := S4x512x1024) S4x128x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x512.size a
  hwx1_4 : ∀ i : grid1.Coords, EltTy.bits .f32 = 32 ∨ (Rect.block (s := S128x512) S128x128.size (cc1_transform_4 i) (hinb1_4 i)).WholeWords (EltTy.packing .f32)

variable [Facts₀]

def dot_S128x512_S128x512_S128x128_1_1_0_0_n_n : DotDims S128x512 S128x512 S128x128 where
  lhsContracting := [1]
  rhsContracting := [1]
  lhsNonContracting := [0]
  rhsNonContracting := [0]
  lhsBatch := []
  rhsBatch := []
  wf := dot_S128x512_S128x512_S128x128_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v3) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4x128x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S128x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x1024 : Shape := ⟨2, ![1024, 1024]⟩
abbrev S1024 : Shape := ⟨1, ![1024]⟩
abbrev S1024x1024x4 : Shape := ⟨3, ![1024, 1024, 4]⟩
abbrev S512x1024 : Shape := ⟨2, ![512, 1024]⟩
abbrev S512 : Shape := ⟨1, ![512]⟩
abbrev S512x1024x4 : Shape := ⟨3, ![512, 1024, 4]⟩
abbrev S_ : Shape := ⟨0, ![]⟩
abbrev S1024x1024x1 : Shape := ⟨3, ![1024, 1024, 1]⟩
abbrev S128x1x1024 : Shape := ⟨3, ![128, 1, 1024]⟩
abbrev S1x1024x1024 : Shape := ⟨3, ![1, 1024, 1024]⟩
abbrev S128x1024x1024 : Shape := ⟨3, ![128, 1024, 1024]⟩
abbrev S1x1024 : Shape := ⟨2, ![1, 1024]⟩
abbrev S512x1024x1 : Shape := ⟨3, ![512, 1024, 1]⟩
abbrev S1x512x1024 : Shape := ⟨3, ![1, 512, 1024]⟩
abbrev S128x512x1024 : Shape := ⟨3, ![128, 512, 1024]⟩
abbrev S128x512 : Shape := ⟨2, ![128, 512]⟩
abbrev S1x512 : Shape := ⟨2, ![1, 512]⟩

abbrev nBuf : Space → Nat
  | .hbm => 86
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024, .f32⟩
  | .hbm, ⟨3, _⟩ => ⟨S1024x1024x4, .f32⟩
  | .hbm, ⟨4, _⟩ => ⟨S512x1024, .f32⟩
  | .hbm, ⟨5, _⟩ => ⟨S512, .f32⟩
  | .hbm, ⟨6, _⟩ => ⟨S512x1024x4, .f32⟩
  | .hbm, ⟨7, _⟩ => ⟨S_, .f32⟩
  | .hbm, ⟨8, _⟩ => ⟨S1024x1024x4, .f32⟩
  | .hbm, ⟨9, _⟩ => ⟨S1024x1024x4, .f32⟩
  | .hbm, ⟨10, _⟩ => ⟨S_, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024x1, .f32⟩
  | .hbm, ⟨16, _⟩ => ⟨S1024x1024x4, .f32⟩
  | .hbm, ⟨17, _⟩ => ⟨S1024x1024x4, .f32⟩
  | .hbm, ⟨18, _⟩ => ⟨S1024x1024x4, .f32⟩
  | .hbm, ⟨19, _⟩ => ⟨S_, .f32⟩
  | .hbm, ⟨20, _⟩ => ⟨S1024x1024, .f32⟩
  | .hbm, ⟨21, _⟩ => ⟨S1024x1024x1, .f32⟩
  | .hbm, ⟨22, _⟩ => ⟨S1024x1024x4, .f32⟩
  | .hbm, ⟨23, _⟩ => ⟨S1024x1024x4, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024x1, .f32⟩
  | .hbm, ⟨29, _⟩ => ⟨S1024x1024x1, .f32⟩
  | .hbm, ⟨30, _⟩ => ⟨S1024x1024x1, .f32⟩
  | .hbm, ⟨31, _⟩ => ⟨S1024x1024x1, .f32⟩
  | .hbm, ⟨32, _⟩ => ⟨S1024x1024x4, .f32⟩
  | .hbm, ⟨33, _⟩ => ⟨S1024x1024x4, .f32⟩
  | .hbm, ⟨34, _⟩ => ⟨S_, .f32⟩
  | .hbm, ⟨35, _⟩ => ⟨S1024x1024, .f32⟩
  | .hbm, ⟨36, _⟩ => ⟨S128x1x1024, .f32⟩
  | .hbm, ⟨37, _⟩ => ⟨S1x1024x1024, .f32⟩
  | .hbm, ⟨38, _⟩ => ⟨S128x1024x1024, .f32⟩
  | .hbm, ⟨39, _⟩ => ⟨S128x1024x1024, .f32⟩
  | .hbm, ⟨40, _⟩ => ⟨S128x1024x1024, .f32⟩
  | .hbm, ⟨41, _⟩ => ⟨S128x1024x1024, .f32⟩
  | .hbm, ⟨42, _⟩ => ⟨S_, .f32⟩
  | .hbm, ⟨43, _⟩ => ⟨S128x1024, .f32⟩
  | .hbm, ⟨44, _⟩ => ⟨S1x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S512x1024x4, .f32⟩
  | .hbm, ⟨49, _⟩ => ⟨S512x1024x4, .f32⟩
  | .hbm, ⟨50, _⟩ => ⟨S_, .f32⟩
  | .hbm, ⟨51, _⟩ => ⟨S512x1024, .f32⟩
  | .hbm, ⟨52, _⟩ => ⟨S_, .f32⟩
  | .hbm, ⟨53, _⟩ => ⟨S512x1024, .f32⟩
  | .hbm, ⟨54, _⟩ => ⟨S512x1024, .f32⟩
  | .hbm, ⟨55, _⟩ => ⟨S512x1024x1, .f32⟩
  | .hbm, ⟨56, _⟩ => ⟨S512x1024x4, .f32⟩
  | .hbm, ⟨57, _⟩ => ⟨S512x1024x4, .f32⟩
  | .hbm, ⟨58, _⟩ => ⟨S512x1024x4, .f32⟩
  | .hbm, ⟨59, _⟩ => ⟨S_, .f32⟩
  | .hbm, ⟨60, _⟩ => ⟨S512x1024, .f32⟩
  | .hbm, ⟨61, _⟩ => ⟨S512x1024x1, .f32⟩
  | .hbm, ⟨62, _⟩ => ⟨S512x1024x4, .f32⟩
  | .hbm, ⟨63, _⟩ => ⟨S512x1024x4, .f32⟩
  | .hbm, ⟨64, _⟩ => ⟨S_, .f32⟩
  | .hbm, ⟨65, _⟩ => ⟨S512x1024, .f32⟩
  | .hbm, ⟨66, _⟩ => ⟨S512x1024, .f32⟩
  | .hbm, ⟨67, _⟩ => ⟨S512x1024, .f32⟩
  | .hbm, ⟨68, _⟩ => ⟨S512x1024x1, .f32⟩
  | .hbm, ⟨69, _⟩ => ⟨S512x1024x1, .f32⟩
  | .hbm, ⟨70, _⟩ => ⟨S512x1024x1, .f32⟩
  | .hbm, ⟨71, _⟩ => ⟨S512x1024x1, .f32⟩
  | .hbm, ⟨72, _⟩ => ⟨S512x1024x4, .f32⟩
  | .hbm, ⟨73, _⟩ => ⟨S512x1024x4, .f32⟩
  | .hbm, ⟨74, _⟩ => ⟨S_, .f32⟩
  | .hbm, ⟨75, _⟩ => ⟨S512x1024, .f32⟩
  | .hbm, ⟨76, _⟩ => ⟨S128x1x1024, .f32⟩
  | .hbm, ⟨77, _⟩ => ⟨S1x512x1024, .f32⟩
  | .hbm, ⟨78, _⟩ => ⟨S128x512x1024, .f32⟩
  | .hbm, ⟨79, _⟩ => ⟨S128x512x1024, .f32⟩
  | .hbm, ⟨80, _⟩ => ⟨S128x512x1024, .f32⟩
  | .hbm, ⟨81, _⟩ => ⟨S_, .f32⟩
  | .hbm, ⟨82, _⟩ => ⟨S128x512, .f32⟩
  | .hbm, ⟨83, _⟩ => ⟨S1x512, .f32⟩
  | .hbm, ⟨84, _⟩ => ⟨S128x512, .f32⟩
  | .hbm, ⟨85, _⟩ => ⟨S128x512, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]

class Facts₀ : Prop where
  bcast_S_S1024x1024x4 : S_.BroadcastsInDim S1024x1024x4 (![] : Fin 0 → Fin S1024x1024x4.rank)
  reducesTo_S1024x1024x4_S1024x1024_d2 : S1024x1024x4.ReducesTo [2] S1024x1024
  h_S_ : 0 < S_.numel
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  bcast_S1024x1024x1_S1024x1024x4_0_1_2 : S1024x1024x1.BroadcastsInDim S1024x1024x4 (![0, 1, 2] : Fin 3 → Fin S1024x1024x4.rank)
  concatenates_S1024x1024x1_S1024x1024x1_S1024x1024x1_S1024x1024x1_S1024x1024x4_d2 : Shape.Concatenates [S1024x1024x1, S1024x1024x1, S1024x1024x1, S1024x1024x1] S1024x1024x4 2
  bcast_S128x1024_S128x1x1024_0_2 : S128x1024.BroadcastsInDim S128x1x1024 (![0, 2] : Fin 2 → Fin S128x1x1024.rank)
  bcast_S1024x1024_S1x1024x1024_1_2 : S1024x1024.BroadcastsInDim S1x1024x1024 (![1, 2] : Fin 2 → Fin S1x1024x1024.rank)
  bcast_S128x1x1024_S128x1024x1024_0_1_2 : S128x1x1024.BroadcastsInDim S128x1024x1024 (![0, 1, 2] : Fin 3 → Fin S128x1024x1024.rank)
  bcast_S1x1024x1024_S128x1024x1024_0_1_2 : S1x1024x1024.BroadcastsInDim S128x1024x1024 (![0, 1, 2] : Fin 3 → Fin S128x1024x1024.rank)
  reducesTo_S128x1024x1024_S128x1024_d2 : S128x1024x1024.ReducesTo [2] S128x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S512x1024x4 : S_.BroadcastsInDim S512x1024x4 (![] : Fin 0 → Fin S512x1024x4.rank)
  reducesTo_S512x1024x4_S512x1024_d2 : S512x1024x4.ReducesTo [2] S512x1024
  bcast_S_S512x1024 : S_.BroadcastsInDim S512x1024 (![] : Fin 0 → Fin S512x1024.rank)
  bcast_S512x1024_S512x1024x1_0_1 : S512x1024.BroadcastsInDim S512x1024x1 (![0, 1] : Fin 2 → Fin S512x1024x1.rank)
  bcast_S512x1024x1_S512x1024x4_0_1_2 : S512x1024x1.BroadcastsInDim S512x1024x4 (![0, 1, 2] : Fin 3 → Fin S512x1024x4.rank)
  concatenates_S512x1024x1_S512x1024x1_S512x1024x1_S512x1024x1_S512x1024x4_d2 : Shape.Concatenates [S512x1024x1, S512x1024x1, S512x1024x1, S512x1024x1] S512x1024x4 2
  bcast_S512x1024_S1x512x1024_1_2 : S512x1024.BroadcastsInDim S1x512x1024 (![1, 2] : Fin 2 → Fin S1x512x1024.rank)
  bcast_S128x1x1024_S128x512x1024_0_1_2 : S128x1x1024.BroadcastsInDim S128x512x1024 (![0, 1, 2] : Fin 3 → Fin S128x512x1024.rank)
  bcast_S1x512x1024_S128x512x1024_0_1_2 : S1x512x1024.BroadcastsInDim S128x512x1024 (![0, 1, 2] : Fin 3 → Fin S128x512x1024.rank)
  reducesTo_S128x512x1024_S128x512_d2 : S128x512x1024.ReducesTo [2] S128x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)

variable [Facts₀]

class Facts : Prop extends Facts₀ where

variable [Facts]
-- ==== Proof.KbR0Shared.lean ====
/-
  Region 0 (the first layer's kernel) at any entry contents `V`: what is common to its two control cases.

  The grid is 8 × 2 with the reduction coordinate `i` fastest, so point `t` has `i = t % 2`. The body resets its
  accumulator when `i = 0` and adds the bias and stores the output block when `i = 1`: even points are the case
  "reset, no output" and odd points the case "no reset, output"; the other two combinations meet no point.
  Stated here: each window's block at a point, that an input window's buffer holds its block at every point,
  the two conditions in closed form, where the output window is idle, the memrefs the pipeline passes, and the
  invariant's scoped part with the accumulator singled out.
-/
import proofs.«132863_j44813688767075_2_alg».proof.Proof.Gen.Kernel.Launch
import proofs.«132863_j44813688767075_2_alg».proof.Proof.Gen.Kernel.Skeleton
import proofs.«132863_j44813688767075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or kept it from the point before (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or kept it from the point before (then the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or kept it from the point before (then the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or kept it from the point before (then the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, decided over the grid -/

/-- The reset's condition: the reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The output's condition: the reduction coordinate is 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the even points nothing is stored into the output window and its block is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At the odd points the output window is stored. -/
theorem liveAt0_4_B : ∀ t : Fin cfg0.N, ¬cond0_0 (grid0.coords t) → cond0_1 (grid0.coords t) → cfg0.idle 4 (grid0.coords t) = false := by decide +kernel

/-! ## The memrefs the pipeline passes -/

abbrev VO0_4 : View sig .tc .vmem S128x128 .f32 := (Memref.whole cc0_stg4_0 : Memref sig .tc .vmem S128x128 .f32).view
abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S128x128 .f32 := Memref.whole cc0_scratch0
abbrev VS0_0 : View sig .tc .vmem S128x128 .f32 := scM0_0.view

/-! ## The invariant's scoped part -/

/-- The scoped buffers other than region 0's staging buffers and accumulator (they are the second region's), each whole
    at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.Kernel.Hand

end
-- ==== Proof.KbR0RunA.lean ====
/-
  Region 0, the even points (the accumulator is reset, nothing is stored into the output window): the whole body
  run once on whole staging memrefs. The pieces the accumulator ends with are found by the run itself.
-/
import proofs.«132863_j44813688767075_2_alg».proof.Proof.KbR0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

set_option maxHeartbeats 4000000 in
/-- At an even point the body, on the four input windows' memrefs at their contents, the output window's at
    contents handed back untouched and the accumulator at anything, runs to the continuation with the inputs and
    the output as they were and the accumulator with its pieces written (last store first). -/
noncomputable def kernelRun0_A (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x512 .f32) (x1 : Vec F S128x512 .f32) (x2 : Vec F S1x128 .f32) (x3 : Vec F S4x128x512 .f32) :
    Σ' (L4 : List (View.Piece (Elt F) S128x128 .f32)), { LS0 : List (View.Piece (Elt F) S128x128 .f32) //
      ∀ (xi4 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__layer0_kernel i arg2 harg2 arg3 harg3 arg4 harg4 arg5 harg5 arg6 harg6 arg7 harg7) K } := by
  refine ⟨[], ?_, fun xi4 E K => ?run⟩
  case run =>
    simp only [cc0__layer0_kernel_eq_skeleton]; unfold cc0__layer0_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KbR0RunB.lean ====
/-
  Region 0, the odd points (no reset; the accumulator is read at what the point before left, and after the eight
  chunk updates the accumulator plus the bias row is stored into the output window): the whole body run once on whole
  staging memrefs. The pieces the output window and the accumulator end with are found by the run itself.
-/
import proofs.«132863_j44813688767075_2_alg».proof.Proof.KbR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

set_option maxHeartbeats 4000000 in
/-- At an odd point the body, on the four input windows' memrefs at their contents, the output window's at anything
    and the accumulator at `xs0`, runs to the continuation with the inputs as they were and the output window and the
    accumulator with their pieces written (last store first). -/
noncomputable def kernelRun0_B (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x512 .f32) (x1 : Vec F S128x512 .f32) (x2 : Vec F S1x128 .f32) (x3 : Vec F S4x128x512 .f32) (xs0 : Vec F S128x128 .f32) :
    Σ' (L4 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__layer0_kernel i arg2 harg2 arg3 harg3 arg4 harg4 arg5 harg5 arg6 harg6 arg7 harg7) K } := by
  refine ⟨?_, ?_, fun E K => ?run⟩
  case run =>
    simp only [cc0__layer0_kernel_eq_skeleton]; unfold cc0__layer0_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KbR0Frame.lean ====
/-
  Region 0 at any entry contents `V`: what the output window's buffer and the accumulator hold after each grid
  point, the pipeline's proof data, and the body obligation.

  At an even point the accumulator is zeroed and the eight 16-column slabs are each updated once, so its eight slab
  stores tile it; the output window is left alone. At an odd point the accumulator starts from what the even point
  before left, its eight slabs are updated again, and the output window is stored whole. The invariant between points
  owns the accumulator at exactly those contents (before the first point: at anything), beside the other scoped
  buffers and the generator register, none of which the body touches.
-/
import proofs.«132863_j44813688767075_2_alg».proof.Proof.KbR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## What each case leaves -/

/-- An even point stores nothing into the output window: a placeholder nothing consults. -/
def out0_A_4 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x512 .f32) (x1 : Vec F S128x512 .f32) (x2 : Vec F S1x128 .f32) (x3 : Vec F S4x128x512 .f32) : Vec F S128x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The accumulator's pieces at an even point cover it: its eight slabs tile it. -/
theorem scover0_A_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x512 .f32) (x1 : Vec F S128x512 .f32) (x2 : Vec F S1x128 .f32) (x3 : Vec F S4x128x512 .f32) (y : S128x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S128x16.size (by sl_kernel_rfl) y

/-- What an even point leaves in the accumulator. -/
def sout0_A_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x512 .f32) (x1 : Vec F S128x512 .f32) (x2 : Vec F S1x128 .f32) (x3 : Vec F S4x128x512 .f32) : Vec F S128x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- The output window's one store at an odd point covers it. -/
theorem cover0_B_4 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x512 .f32) (x1 : Vec F S128x512 .f32) (x2 : Vec F S1x128 .f32) (x3 : Vec F S4x128x512 .f32) (xs0 : Vec F S128x128 .f32) (y : S128x128.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S128x128.size (by sl_kernel_rfl) y

/-- What an odd point leaves in the output window's buffer. -/
def out0_B_4 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x512 .f32) (x1 : Vec F S128x512 .f32) (x2 : Vec F S1x128 .f32) (x3 : Vec F S4x128x512 .f32) (xs0 : Vec F S128x128 .f32) : Vec F S128x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The accumulator's pieces at an odd point cover it: its eight slabs tile it. -/
theorem scover0_B_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x512 .f32) (x1 : Vec F S128x512 .f32) (x2 : Vec F S1x128 .f32) (x3 : Vec F S4x128x512 .f32) (xs0 : Vec F S128x128 .f32) (y : S128x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S128x16.size (by sl_kernel_rfl) y

/-- What an odd point leaves in the accumulator. -/
def sout0_B_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x512 .f32) (x1 : Vec F S128x512 .f32) (x2 : Vec F S1x128 .f32) (x3 : Vec F S4x128x512 .f32) (xs0 : Vec F S128x128 .f32) : Vec F S128x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-! ## What the output window and the accumulator hold after each point -/

theorem condA0 (t : Fin cfg0.N) (h : t.val % 2 = 0) : cond0_0 (grid0.coords t) ∧ ¬cond0_1 (grid0.coords t) :=
  ⟨(hcond0_0 t).mpr h, fun h' => by have := (hcond0_1 t).mp h'; omega⟩
theorem condB0 (t : Fin cfg0.N) (h : ¬t.val % 2 = 0) : ¬cond0_0 (grid0.coords t) ∧ cond0_1 (grid0.coords t) :=
  ⟨fun h' => h ((hcond0_0 t).mp h'), (hcond0_1 t).mpr (by omega)⟩

/-- The pair (output window's buffer, accumulator) an even point `t` leaves. -/
def outA0 (c : Dev nD) (t : Fin cfg0.N) (h : t.val % 2 = 0) : Vec F S128x128 .f32 × Vec F S128x128 .f32 :=
  (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (condA0 t h).1 (condA0 t h).2 (iblk0 V c 0 t) (iblk0 V c 1 t) (iblk0 V c 2 t) (iblk0 V c 3 t),
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) (condA0 t h).1 (condA0 t h).2 (iblk0 V c 0 t) (iblk0 V c 1 t) (iblk0 V c 2 t) (iblk0 V c 3 t))

/-- The pair an odd point `t` leaves, the accumulator having come in at `xs0`. -/
def outB0 (c : Dev nD) (t : Fin cfg0.N) (h : ¬t.val % 2 = 0) (xs0 : Vec F S128x128 .f32) : Vec F S128x128 .f32 × Vec F S128x128 .f32 :=
  (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (condB0 t h).1 (condB0 t h).2 (iblk0 V c 0 t) (iblk0 V c 1 t) (iblk0 V c 2 t) (iblk0 V c 3 t) xs0,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (condB0 t h).1 (condB0 t h).2 (iblk0 V c 0 t) (iblk0 V c 1 t) (iblk0 V c 2 t) (iblk0 V c 3 t) xs0)

/-- The accumulation: after position `n`, by recursion on the position — an odd point takes the accumulator the
    point before left. -/
def outsAt0 (c : Dev nD) : (n : ℕ) → n < cfg0.N → Vec F S128x128 .f32 × Vec F S128x128 .f32
  | 0, hn => outA0 V c ⟨0, hn⟩ (Nat.zero_mod _)
  | n + 1, hn =>
    if h : (n + 1) % 2 = 0 then outA0 V c ⟨n + 1, hn⟩ h
    else outB0 V c ⟨n + 1, hn⟩ h (outsAt0 c n (Nat.lt_of_succ_lt hn)).2

theorem outsAt0_A (c : Dev nD) (t : Fin cfg0.N) (h : t.val % 2 = 0) :
    outsAt0 V c t.val t.isLt = outA0 V c t h := by
  obtain ⟨n, hn⟩ := t
  cases n with
  | zero => rfl
  | succ n => exact dif_pos h

theorem outsAt0_B (c : Dev nD) (t : Fin cfg0.N) (h : ¬t.val % 2 = 0) :
    outsAt0 V c t.val t.isLt = outB0 V c t h (outsAt0 V c (t.val - 1) (Nat.lt_of_le_of_lt (Nat.sub_le _ _) t.isLt)).2 := by
  obtain ⟨n, hn⟩ := t
  cases n with
  | zero => exact absurd (Nat.zero_mod _) h
  | succ n => exact dif_neg h

/-! ## The invariant between points -/

/-- Before the first point the class invariant (the accumulator at anything); after point `n` the accumulator at what
    that point left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

/-- The arrays as the region finds them; after the body each input's buffer at its block and the output's at what the
    accumulation says; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point: the inputs' memrefs hold their blocks; the point's parity says which case it is; the
    invariant hands the body the accumulator at what the point before left (at anything before the first point) and
    takes it back at this point's contents, which its eight slab stores cover. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  by_cases h0 : t.val % 2 = 0
  · rw [Dat.leavesExact_idle (dat0 V c) 4 t (idleAt0_4_A t (condA0 t h0).1 (condA0 t h0).2) (noFlush0_4_A t (condA0 t h0).1 (condA0 t h0).2)]
    rw [outsAt0_A V c t h0]
    unfold outA0 sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ (condA0 t h0).1 (condA0 t h0).2 (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ (condA0 t h0).1 (condA0 t h0).2 (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · rw [show (dat0 V c).leavesExact 4 t = owns (c : Thread nD τ) (ms0_4 t) fullShare ((dat0 V c).after 4 t) from by
      unfold Dat.leavesExact; rw [liveAt0_4_B t (condB0 t h0).1 (condB0 t h0).2], after0_4]
    rw [outsAt0_B V c t h0]
    unfold outB0 out0_B_4 sout0_B_0; (try dsimp only)
    have hz : t.val ≠ 0 := fun e => h0 (by rw [e])
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (condB0 t h0).1 (condB0 t h0).2 (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, Hoth⟩, Hg⟩
  isplitl [HS0 Hoth]
  · isplitl [HS0]
    · iexists _; iexact HS0
    iexact Hoth
  iexact Hg

end Cert.Kernel.Hand

end
-- ==== Proof.KbR1Shared.lean ====
import proofs.«132863_j44813688767075_2_alg».proof.Proof.Gen.Kernel.Launch
import proofs.«132863_j44813688767075_2_alg».proof.Proof.Gen.Kernel.Skeleton
import proofs.«132863_j44813688767075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's kernel (pipeline 1, grid 4 × 2) at the entry contents `V`: what its two cases share

The grid point `t = 2·o + i` works on output columns block `o` and contraction block `i`. At `i = 0` the
accumulator is zeroed and the first partial product added; at `i = 1` the second partial product is added and the
accumulator plus the bias row is stored into the output block. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents (`hA`) and whose body leaves the block in place (`hafter`): where the
    window is not fetched its block index has not moved since the point before, so the block kept is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents (`hA`) and whose body leaves the block in place (`hafter`): where the
    window is not fetched its block index has not moved since the point before, so the block kept is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents (`hA`) and whose body leaves the block in place (`hafter`): where the
    window is not fetched its block index has not moved since the point before, so the block kept is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents (`hA`) and whose body leaves the block in place (`hafter`): where the
    window is not fetched its block index has not moved since the point before, so the block kept is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- The first condition (the accumulator is zeroed): the contraction coordinate is 0. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second condition (the output block is stored): the contraction coordinate is 1. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the even points the output block is idle: nothing is stored into it, -/
theorem idleAt1_4_A : ∀ t : Fin cfg1.N, cond1_0 (grid1.coords t) → ¬cond1_1 (grid1.coords t) → cfg1.idle 4 (grid1.coords t) = true := by decide +kernel
/-- and it is not written back there. -/
theorem noFlush1_4_A : ∀ t : Fin cfg1.N, cond1_0 (grid1.coords t) → ¬cond1_1 (grid1.coords t) → (cfg1.win 4).flush t = false := by decide +kernel
/-- At the odd points the output block is live: it is stored whole. -/
theorem liveAt1_4_B : ∀ t : Fin cfg1.N, ¬cond1_0 (grid1.coords t) → cond1_1 (grid1.coords t) → cfg1.idle 4 (grid1.coords t) = false := by decide +kernel

/-! ## The memrefs the body is called with -/

/-- One staging buffer of the output window, through which its contents are stated (the choice does not matter). -/
abbrev VO1_4 : View sig .tc .vmem S128x128 .f32 := (Memref.whole cc1_stg4_0 : Memref sig .tc .vmem S128x128 .f32).view
/-- Each window's current staging memref at point `t`, and its wholeness. -/
abbrev ms1_0 (t : Fin cfg1.N) : Memref sig .tc .vmem S128x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x128x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S128x128 .f32 := Memref.whole cc1_scratch0
/-- The same as a view: what the accumulator holds is stated through it. -/
abbrev VS1_0 : View sig .tc .vmem S128x128 .f32 := scM1_0.view

/-- The other scoped buffers of the core (the first layer's staging buffers and accumulator), unopened. -/
abbrev others1 (c : Dev nD) : sProp 𝕄 :=
  Pipeline.scopedRestBut (Ix := Unit) (Name := ℕ) (U := UR sig nD τ) (Lvl := ℕ) (Val := Elt F) spec1 c [cc1_scratch0]

/-- The region's invariant with the accumulator as a memref owned at some contents, the other scoped buffers
    unopened, and the generator register at some state. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [scM1_0, owns_whole]; try rfl

end Cert.Kernel.Hand

end
-- ==== Proof.KbR1RunA.lean ====
import proofs.«132863_j44813688767075_2_alg».proof.Proof.KbR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's kernel at an even point (the accumulator is zeroed, the output block is not stored) -/

set_option maxHeartbeats 1000000 in
/-- What the body leaves in the accumulator, as pieces (last first), at a point where the contraction coordinate is 0,
    with the proof that on whole staging memrefs — the four inputs' at their contents, the output's at contents `xi4`
    handed back untouched, the accumulator at anything — the body runs to the continuation holding the inputs' and the
    output's as they were and the accumulator with its pieces written. The pieces are the witness the run finds. -/
noncomputable def kernelRun1_A (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x512 .f32) (x1 : Vec F S128x512 .f32) (x2 : Vec F S1x128 .f32) (x3 : Vec F S4x128x512 .f32) :
    Σ' (L4 : List (View.Piece (Elt F) S128x128 .f32)), { LS0 : List (View.Piece (Elt F) S128x128 .f32) //
      ∀ (xi4 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__layer1_kernel i arg2 harg2 arg3 harg3 arg4 harg4 arg5 harg5 arg6 harg6 arg7 harg7) K } := by
  refine ⟨[], ?_, fun xi4 E K => ?run⟩
  case run =>
    simp only [cc1__layer1_kernel_eq_skeleton]; unfold cc1__layer1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KbR1RunB.lean ====
import proofs.«132863_j44813688767075_2_alg».proof.Proof.KbR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's kernel at an odd point (the accumulator is carried, the output block is stored) -/

set_option maxHeartbeats 1000000 in
/-- What the body leaves in the output block's staging memref and in the accumulator, as pieces (last first), at a
    point where the contraction coordinate is 1, with the proof that on whole staging memrefs — the four inputs' at
    their contents, the output's at anything, the accumulator at the contents `xs0` the point before left — the body
    runs to the continuation holding the inputs' as they were and the output's and the accumulator with their pieces
    written. The pieces are the witness the run finds. -/
noncomputable def kernelRun1_B (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) :
    Σ' (L4 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__layer1_kernel i arg2 harg2 arg3 harg3 arg4 harg4 arg5 harg5 arg6 harg6 arg7 harg7) K } := by
  refine ⟨?_, ?_, fun E K => ?run⟩
  case run =>
    simp only [cc1__layer1_kernel_eq_skeleton]; unfold cc1__layer1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KbR1Frame.lean ====
import proofs.«132863_j44813688767075_2_alg».proof.Proof.KbR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's region at the entry contents `V`: what each point leaves, the proof data, the body obligation -/

/-! ## What each case leaves -/

/-- At an even point nothing is stored into the output block: no pieces — a placeholder (junk read back) that nothing
    consults, since at these points the block is neither written back nor read at the next point. -/
def out1_A_4 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x512 .f32) (x1 : Vec F S128x512 .f32) (x2 : Vec F S1x128 .f32) (x3 : Vec F S4x128x512 .f32) : Vec F S128x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- At an even point the pieces stored into the accumulator cover it. -/
theorem scover1_A_0 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x512 .f32) (x1 : Vec F S128x512 .f32) (x2 : Vec F S1x128 .f32) (x3 : Vec F S4x128x512 .f32) (y : S128x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S128x128.size (by sl_kernel_rfl) y

/-- What an even point leaves in the accumulator: its pieces read back over junk. -/
def sout1_A_0 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x512 .f32) (x1 : Vec F S128x512 .f32) (x2 : Vec F S1x128 .f32) (x3 : Vec F S4x128x512 .f32) : Vec F S128x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- At an odd point the one store into the output block covers it. -/
theorem cover1_B_4 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) (y : S128x128.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S128x128.size (by sl_kernel_rfl) y

/-- What an odd point leaves in the output block's staging buffer: its pieces read back over junk. -/
def out1_B_4 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) : Vec F S128x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- At an odd point the pieces stored into the accumulator cover it. -/
theorem scover1_B_0 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) (y : S128x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S128x128.size (by sl_kernel_rfl) y

/-- What an odd point leaves in the accumulator: its pieces read back over junk. -/
def sout1_B_0 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) : Vec F S128x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-! ## The two cases from the parity of the point -/

theorem c1A_0 (t : Fin cfg1.N) (h : t.val % 2 = 0) : cond1_0 (grid1.coords t) := (hcond1_0 t).mpr h
theorem c1A_1 (t : Fin cfg1.N) (h : t.val % 2 = 0) : ¬cond1_1 (grid1.coords t) := fun h' => by
  have h1 := (hcond1_1 t).mp h'; omega
theorem c1B_0 (t : Fin cfg1.N) (h : ¬t.val % 2 = 0) : ¬cond1_0 (grid1.coords t) := fun h' => h ((hcond1_0 t).mp h')
theorem c1B_1 (t : Fin cfg1.N) (h : ¬t.val % 2 = 0) : cond1_1 (grid1.coords t) := (hcond1_1 t).mpr (by omega)

/-! ## What the output block's buffer and the accumulator hold after each point -/

/-- THE ACCUMULATION. What the output block's staging buffer and the accumulator hold after the body at position `n`:
    at an even position the accumulator is zeroed and the first partial product added; at an odd position the second
    partial product is added to what the position before left, and the sum plus the bias row is stored. -/
def outsAt1 (c : Dev nD) : (n : ℕ) → n < cfg1.N → Vec F S128x128 .f32 × Vec F S128x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) (c1A_0 ⟨0, hn⟩ (Nat.zero_mod _)) (c1A_1 ⟨0, hn⟩ (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) (c1A_0 ⟨0, hn⟩ (Nat.zero_mod _)) (c1A_1 ⟨0, hn⟩ (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 2 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (c1A_0 ⟨n + 1, hn⟩ h0) (c1A_1 ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (c1A_0 ⟨n + 1, hn⟩ h0) (c1A_1 ⟨n + 1, hn⟩ h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (c1B_0 ⟨n + 1, hn⟩ h0) (c1B_1 ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (c1B_0 ⟨n + 1, hn⟩ h0) (c1B_1 ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at an even point. -/
theorem outsAt1_A (c : Dev nD) (t : Fin cfg1.N) (h0 : t.val % 2 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) (c1A_0 t h0) (c1A_1 t h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (c1A_0 t h0) (c1A_1 t h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at an odd point, over what the point before left. -/
theorem outsAt1_B (c : Dev nD) (t : Fin cfg1.N) (h0 : ¬t.val % 2 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (c1B_0 t h0) (c1B_1 t h0) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (c1B_0 t h0) (c1B_1 t h0) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- Before position `n`: before the first point what the launch hands the region; afterwards the accumulator at what
    the point before left in it, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The pipeline's proof data -/

/-- The proof data of the second layer's pipeline on core `c`: the arrays as the region finds them (`V`); after the
    body at point `t` each input's buffer at its block and the output's at `outsAt1`; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Each input's buffer is handed back at its block. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the parity of the point says which case it is in; the
    invariant hands the body the accumulator at what the point before left (at anything at the first point) and takes
    it back at this point's contents; at an even point the output block's buffer is handed back untouched, at an odd
    point it is taken back at what the one store left; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  by_cases h0 : t.val % 2 = 0
  · rw [Dat.leavesExact_idle (dat1 V c) 4 t (idleAt1_4_A t (c1A_0 t h0) (c1A_1 t h0)) (noFlush1_4_A t (c1A_0 t h0) (c1A_1 t h0))]
    rw [outsAt1_A V c t h0]
    unfold sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ (c1A_0 t h0) (c1A_1 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ (c1A_0 t h0) (c1A_1 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · rw [show (dat1 V c).leavesExact 4 t = owns (c : Thread nD τ) (ms1_4 t) fullShare ((dat1 V c).after 4 t) from by
      unfold Dat.leavesExact; rw [liveAt1_4_B t (c1B_0 t h0) (c1B_1 t h0)], after1_4]
    rw [outsAt1_B V c t h0]
    unfold out1_B_4 sout1_B_0; (try dsimp only)
    have hz : t.val ≠ 0 := fun h => h0 (by rw [h])
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (c1B_0 t h0) (c1B_1 t h0) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_B_0 c _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.Kernel.Hand

end
-- ==== Proof.KbRun.lean ====
/-
  The whole program's run: @main is three host operations, the first layer's region, one host operation, the second
  layer's region. The buffer contents at each boundary are folded from the launch memory: a stretch of host operations
  applies them; a region leaves its arrays at what its write-backs leave and every other buffer alone. Each region is
  entered from "every unscoped buffer at the boundary's contents" and left at the next boundary's. The run ends with every
  unscoped buffer at the last boundary's contents; read at the argument arrays that is the launch memory, and read at
  the result it is the second region's output array after all its write-backs.
-/
import proofs.«132863_j44813688767075_2_alg».proof.Proof.KbR0Frame
import proofs.«132863_j44813688767075_2_alg».proof.Proof.KbR1Frame
import proofs.«132863_j44813688767075_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations: the first region's entry. -/
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- After the second stretch: the second region's entry. -/
abbrev W3 : Dev nD → Valuation τ sig (Elt F) := fun c => StableHlo.after hostOps1 (W2 m ρ c)
abbrev Vr3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (Vr3 m ρ) c).arrAt w cfg1.N
theorem W4_arr (c : Dev nD) (w : Fin cfg1.W) :
    W4 m ρ c (Proc.devRef .tc (Pipeline.arrRef spec1 w)) = (dat1 (Vr3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vr4 : (c : Dev nD) → (b : Ref sig .tc) → Buf (Elt F) ((c : Thread nD τ).loc b) := fun c b => W4 m ρ c b
theorem hF1 (c : Dev nD) (w : Fin cfg1.W) : (dat1 (Vr3 m ρ) c).arrAt w cfg1.N = Vr4 m ρ c (Pipeline.arrRef spec1 w) :=
  (W4_arr m ρ c w).symm
theorem hrest1 (c : Dev nD) : ∀ b, b ∉ Finset.univ.image (Pipeline.arrRef spec1) → Vr4 m ρ c b = Vr3 m ρ c b :=
  fun b hb => W4_of_ne m ρ c b fun w e => hb (Finset.mem_image.mpr ⟨w, Finset.mem_univ _, e⟩)

/-! ## The arguments end as launched, and the result is the second region's output array -/

/-- `main_arg0` reaches the end as launched: no host operation writes it, and a region only reads it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (Vr1 m ρ) c).arrAt_in 0 rfl _).trans (A_eq0 (Vr1 m ρ) c 0))
    _ = W0 m ρ c (Proc.devRef .tc main_arg0) := StableHlo.after_of_writes_sub hostOps0 _ hostOps0_writes (by decide)
    _ = m ((c : Thread nD τ).loc main_arg0) := rfl

/-- `main_arg1` reaches the end as launched: no host operation writes it, and a region only reads it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (Vr1 m ρ) c).arrAt_in 1 rfl _).trans (A_eq0 (Vr1 m ρ) c 1))
    _ = W0 m ρ c (Proc.devRef .tc main_arg1) := StableHlo.after_of_writes_sub hostOps0 _ hostOps0_writes (by decide)
    _ = m ((c : Thread nD τ).loc main_arg1) := rfl

/-- `main_arg2` reaches the end as launched: no host operation writes it, and a region only reads it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` reaches the end as launched: no host operation writes it, and a region only reads it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` reaches the end as launched: no host operation writes it, and a region only reads it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat1 (Vr3 m ρ) c).arrAt_in 1 rfl _).trans (A_eq1 (Vr3 m ρ) c 1))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` reaches the end as launched: no host operation writes it, and a region only reads it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- `main_arg6` reaches the end as launched: no host operation writes it, and a region only reads it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- The result buffer at the end holds the second region's output array after all its write-backs. -/
theorem W4_main_v5 (c : Dev nD) : W4 m ρ c (Proc.devRef .tc main_v5) = (dat1 (Vr3 m ρ) c).arrAt 4 cfg1.N :=
  W4_arr m ρ c 4

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it and left with them
    at the contents after it. Its arrays are split out of the unscoped buffers and put back at what the write-backs
    leave; the generator register goes into the invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest (Ix := Unit) (Name := ℕ) (U := UR sig nD τ) (Lvl := ℕ) (Val := Elt F) spec0 c ∗ ∃ r, prngReg c r) ⊢ ((dat0 (Vr1 m ρ) c).Φ 0 : sProp 𝕄) := hin0 (Vr1 m ρ) c
    show _ ⊢ (dat0 (Vr1 m ρ) c).Φ 0
    iintro ⟨Hp, -, Hr⟩
    iapply h
    isplitl [Hr]; · iexact Hr
    iexact Hp
  hout c := by
    have h : ((dat0 (Vr1 m ρ) c).Φ (Fin.last cfg0.N) : sProp 𝕄) ⊢ iprop(Pipeline.scopedRest (Ix := Unit) (Name := ℕ) (U := UR sig nD τ) (Lvl := ℕ) (Val := Elt F) spec0 c ∗ ∃ r, prngReg c r) := hout0 (Vr1 m ρ) c
    rw [Pipeline.ownSems0_none]
    show (dat0 (Vr1 m ρ) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it and left with them
    at the contents after it. Its arrays are split out of the unscoped buffers and put back at what the write-backs
    leave; the generator register goes into the invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest (Ix := Unit) (Name := ℕ) (U := UR sig nD τ) (Lvl := ℕ) (Val := Elt F) spec1 c ∗ ∃ r, prngReg c r) ⊢ ((dat1 (Vr3 m ρ) c).Φ 0 : sProp 𝕄) := hin1 (Vr3 m ρ) c
    show _ ⊢ (dat1 (Vr3 m ρ) c).Φ 0
    iintro ⟨Hp, -, Hr⟩
    iapply h
    isplitl [Hr]; · iexact Hr
    iexact Hp
  hout c := by
    have h : ((dat1 (Vr3 m ρ) c).Φ (Fin.last cfg1.N) : sProp 𝕄) ⊢ iprop(Pipeline.scopedRest (Ix := Unit) (Name := ℕ) (U := UR sig nD τ) (Lvl := ℕ) (Val := Elt F) spec1 c ∗ ∃ r, prngReg c r) := hout1 (Vr3 m ρ) c
    rw [Pipeline.ownSems0_none]
    show (dat1 (Vr3 m ρ) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr3 m ρ c) (Vr4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_main m ρ)

/-- The run with the result named: the result buffer ends at the second region's output array after its write-backs,
    and every argument array as launched. -/
theorem run_value : θ_run defs (onTc (τ := τ) (main (F := F))) ⟨m, fun _ => 0, ρ⟩ (fun r => ∀ c : Dev nD,
      r.2.mem ((c.tc : Thread nD τ).loc main_v5) = (dat1 (Vr3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v5 (by decide))).trans (W4_main_v5 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_main m ρ)

end Cert.Kernel.Hand

end
-- ==== Proof.KiR0Shared.lean ====
/-
  Region 0 (the first layer's kernel) at any entry contents `V`: what is common to its two control cases.

  The grid is 8 × 2 with the reduction coordinate `i` fastest, so point `t` has `i = t % 2`. The body resets its
  accumulator when `i = 0` and adds the bias and stores the output block when `i = 1`: even points are the case
  "reset, no output" and odd points the case "no reset, output"; the other two combinations meet no point.
  Stated here: each window's block at a point, that an input window's buffer holds its block at every point,
  the two conditions in closed form, where the output window is idle, the memrefs the pipeline passes, and the
  invariant's scoped part with the accumulator singled out.
-/
import proofs.«132863_j44813688767075_2_alg».proof.Proof.Gen.KernelIdeal.Launch
import proofs.«132863_j44813688767075_2_alg».proof.Proof.Gen.KernelIdeal.Skeleton
import proofs.«132863_j44813688767075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or kept it from the point before (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or kept it from the point before (then the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or kept it from the point before (then the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or kept it from the point before (then the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, decided over the grid -/

/-- The reset's condition: the reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The output's condition: the reduction coordinate is 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the even points nothing is stored into the output window and its block is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At the odd points the output window is stored. -/
theorem liveAt0_4_B : ∀ t : Fin cfg0.N, ¬cond0_0 (grid0.coords t) → cond0_1 (grid0.coords t) → cfg0.idle 4 (grid0.coords t) = false := by decide +kernel

/-! ## The memrefs the pipeline passes -/

abbrev VO0_4 : View sig .tc .vmem S128x128 .f32 := (Memref.whole cc0_stg4_0 : Memref sig .tc .vmem S128x128 .f32).view
abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S128x128 .f32 := Memref.whole cc0_scratch0
abbrev VS0_0 : View sig .tc .vmem S128x128 .f32 := scM0_0.view

/-! ## The invariant's scoped part -/

/-- The scoped buffers other than region 0's staging buffers and accumulator (they are the second region's), each whole
    at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.KernelIdeal.Hand

end
-- ==== Proof.KiR0RunA.lean ====
/-
  Region 0, the even points (the accumulator is reset, nothing is stored into the output window): the whole body
  run once on whole staging memrefs. The pieces the accumulator ends with are found by the run itself.
-/
import proofs.«132863_j44813688767075_2_alg».proof.Proof.KiR0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

set_option maxHeartbeats 4000000 in
/-- At an even point the body, on the four input windows' memrefs at their contents, the output window's at
    contents handed back untouched and the accumulator at anything, runs to the continuation with the inputs and
    the output as they were and the accumulator with its pieces written (last store first). -/
noncomputable def kernelRun0_A (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x512 .f32) (x1 : Vec F S128x512 .f32) (x2 : Vec F S1x128 .f32) (x3 : Vec F S4x128x512 .f32) :
    Σ' (L4 : List (View.Piece (Elt F) S128x128 .f32)), { LS0 : List (View.Piece (Elt F) S128x128 .f32) //
      ∀ (xi4 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__layer0_kernel i arg2 harg2 arg3 harg3 arg4 harg4 arg5 harg5 arg6 harg6 arg7 harg7) K } := by
  refine ⟨[], ?_, fun xi4 E K => ?run⟩
  case run =>
    simp only [cc0__layer0_kernel_eq_skeleton]; unfold cc0__layer0_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KiR0RunB.lean ====
/-
  Region 0, the odd points (no reset; the accumulator is read at what the point before left, and after the eight
  chunk updates the accumulator plus the bias row is stored into the output window): the whole body run once on whole
  staging memrefs. The pieces the output window and the accumulator end with are found by the run itself.
-/
import proofs.«132863_j44813688767075_2_alg».proof.Proof.KiR0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

set_option maxHeartbeats 4000000 in
/-- At an odd point the body, on the four input windows' memrefs at their contents, the output window's at anything
    and the accumulator at `xs0`, runs to the continuation with the inputs as they were and the output window and the
    accumulator with their pieces written (last store first). -/
noncomputable def kernelRun0_B (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x512 .f32) (x1 : Vec F S128x512 .f32) (x2 : Vec F S1x128 .f32) (x3 : Vec F S4x128x512 .f32) (xs0 : Vec F S128x128 .f32) :
    Σ' (L4 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__layer0_kernel i arg2 harg2 arg3 harg3 arg4 harg4 arg5 harg5 arg6 harg6 arg7 harg7) K } := by
  refine ⟨?_, ?_, fun E K => ?run⟩
  case run =>
    simp only [cc0__layer0_kernel_eq_skeleton]; unfold cc0__layer0_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KiR0Frame.lean ====
/-
  Region 0 at any entry contents `V`: what the output window's buffer and the accumulator hold after each grid
  point, the pipeline's proof data, and the body obligation.

  At an even point the accumulator is zeroed and the eight 16-column slabs are each updated once, so its eight slab
  stores tile it; the output window is left alone. At an odd point the accumulator starts from what the even point
  before left, its eight slabs are updated again, and the output window is stored whole. The invariant between points
  owns the accumulator at exactly those contents (before the first point: at anything), beside the other scoped
  buffers and the generator register, none of which the body touches.
-/
import proofs.«132863_j44813688767075_2_alg».proof.Proof.KiR0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## What each case leaves -/

/-- An even point stores nothing into the output window: a placeholder nothing consults. -/
def out0_A_4 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x512 .f32) (x1 : Vec F S128x512 .f32) (x2 : Vec F S1x128 .f32) (x3 : Vec F S4x128x512 .f32) : Vec F S128x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The accumulator's pieces at an even point cover it: its eight slabs tile it. -/
theorem scover0_A_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x512 .f32) (x1 : Vec F S128x512 .f32) (x2 : Vec F S1x128 .f32) (x3 : Vec F S4x128x512 .f32) (y : S128x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S128x16.size (by sl_kernel_rfl) y

/-- What an even point leaves in the accumulator. -/
def sout0_A_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x512 .f32) (x1 : Vec F S128x512 .f32) (x2 : Vec F S1x128 .f32) (x3 : Vec F S4x128x512 .f32) : Vec F S128x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- The output window's one store at an odd point covers it. -/
theorem cover0_B_4 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x512 .f32) (x1 : Vec F S128x512 .f32) (x2 : Vec F S1x128 .f32) (x3 : Vec F S4x128x512 .f32) (xs0 : Vec F S128x128 .f32) (y : S128x128.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S128x128.size (by sl_kernel_rfl) y

/-- What an odd point leaves in the output window's buffer. -/
def out0_B_4 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x512 .f32) (x1 : Vec F S128x512 .f32) (x2 : Vec F S1x128 .f32) (x3 : Vec F S4x128x512 .f32) (xs0 : Vec F S128x128 .f32) : Vec F S128x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The accumulator's pieces at an odd point cover it: its eight slabs tile it. -/
theorem scover0_B_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x512 .f32) (x1 : Vec F S128x512 .f32) (x2 : Vec F S1x128 .f32) (x3 : Vec F S4x128x512 .f32) (xs0 : Vec F S128x128 .f32) (y : S128x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S128x16.size (by sl_kernel_rfl) y

/-- What an odd point leaves in the accumulator. -/
def sout0_B_0 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x512 .f32) (x1 : Vec F S128x512 .f32) (x2 : Vec F S1x128 .f32) (x3 : Vec F S4x128x512 .f32) (xs0 : Vec F S128x128 .f32) : Vec F S128x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-! ## What the output window and the accumulator hold after each point -/

theorem condA0 (t : Fin cfg0.N) (h : t.val % 2 = 0) : cond0_0 (grid0.coords t) ∧ ¬cond0_1 (grid0.coords t) :=
  ⟨(hcond0_0 t).mpr h, fun h' => by have := (hcond0_1 t).mp h'; omega⟩
theorem condB0 (t : Fin cfg0.N) (h : ¬t.val % 2 = 0) : ¬cond0_0 (grid0.coords t) ∧ cond0_1 (grid0.coords t) :=
  ⟨fun h' => h ((hcond0_0 t).mp h'), (hcond0_1 t).mpr (by omega)⟩

/-- The pair (output window's buffer, accumulator) an even point `t` leaves. -/
def outA0 (c : Dev nD) (t : Fin cfg0.N) (h : t.val % 2 = 0) : Vec F S128x128 .f32 × Vec F S128x128 .f32 :=
  (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (condA0 t h).1 (condA0 t h).2 (iblk0 V c 0 t) (iblk0 V c 1 t) (iblk0 V c 2 t) (iblk0 V c 3 t),
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) (condA0 t h).1 (condA0 t h).2 (iblk0 V c 0 t) (iblk0 V c 1 t) (iblk0 V c 2 t) (iblk0 V c 3 t))

/-- The pair an odd point `t` leaves, the accumulator having come in at `xs0`. -/
def outB0 (c : Dev nD) (t : Fin cfg0.N) (h : ¬t.val % 2 = 0) (xs0 : Vec F S128x128 .f32) : Vec F S128x128 .f32 × Vec F S128x128 .f32 :=
  (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (condB0 t h).1 (condB0 t h).2 (iblk0 V c 0 t) (iblk0 V c 1 t) (iblk0 V c 2 t) (iblk0 V c 3 t) xs0,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (condB0 t h).1 (condB0 t h).2 (iblk0 V c 0 t) (iblk0 V c 1 t) (iblk0 V c 2 t) (iblk0 V c 3 t) xs0)

/-- The accumulation: after position `n`, by recursion on the position — an odd point takes the accumulator the
    point before left. -/
def outsAt0 (c : Dev nD) : (n : ℕ) → n < cfg0.N → Vec F S128x128 .f32 × Vec F S128x128 .f32
  | 0, hn => outA0 V c ⟨0, hn⟩ (Nat.zero_mod _)
  | n + 1, hn =>
    if h : (n + 1) % 2 = 0 then outA0 V c ⟨n + 1, hn⟩ h
    else outB0 V c ⟨n + 1, hn⟩ h (outsAt0 c n (Nat.lt_of_succ_lt hn)).2

theorem outsAt0_A (c : Dev nD) (t : Fin cfg0.N) (h : t.val % 2 = 0) :
    outsAt0 V c t.val t.isLt = outA0 V c t h := by
  obtain ⟨n, hn⟩ := t
  cases n with
  | zero => rfl
  | succ n => exact dif_pos h

theorem outsAt0_B (c : Dev nD) (t : Fin cfg0.N) (h : ¬t.val % 2 = 0) :
    outsAt0 V c t.val t.isLt = outB0 V c t h (outsAt0 V c (t.val - 1) (Nat.lt_of_le_of_lt (Nat.sub_le _ _) t.isLt)).2 := by
  obtain ⟨n, hn⟩ := t
  cases n with
  | zero => exact absurd (Nat.zero_mod _) h
  | succ n => exact dif_neg h

/-! ## The invariant between points -/

/-- Before the first point the class invariant (the accumulator at anything); after point `n` the accumulator at what
    that point left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

/-- The arrays as the region finds them; after the body each input's buffer at its block and the output's at what the
    accumulation says; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point: the inputs' memrefs hold their blocks; the point's parity says which case it is; the
    invariant hands the body the accumulator at what the point before left (at anything before the first point) and
    takes it back at this point's contents, which its eight slab stores cover. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  by_cases h0 : t.val % 2 = 0
  · rw [Dat.leavesExact_idle (dat0 V c) 4 t (idleAt0_4_A t (condA0 t h0).1 (condA0 t h0).2) (noFlush0_4_A t (condA0 t h0).1 (condA0 t h0).2)]
    rw [outsAt0_A V c t h0]
    unfold outA0 sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ (condA0 t h0).1 (condA0 t h0).2 (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ (condA0 t h0).1 (condA0 t h0).2 (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · rw [show (dat0 V c).leavesExact 4 t = owns (c : Thread nD τ) (ms0_4 t) fullShare ((dat0 V c).after 4 t) from by
      unfold Dat.leavesExact; rw [liveAt0_4_B t (condB0 t h0).1 (condB0 t h0).2], after0_4]
    rw [outsAt0_B V c t h0]
    unfold outB0 out0_B_4 sout0_B_0; (try dsimp only)
    have hz : t.val ≠ 0 := fun e => h0 (by rw [e])
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (condB0 t h0).1 (condB0 t h0).2 (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, Hoth⟩, Hg⟩
  isplitl [HS0 Hoth]
  · isplitl [HS0]
    · iexists _; iexact HS0
    iexact Hoth
  iexact Hg

end Cert.KernelIdeal.Hand

end
-- ==== Proof.KiR1Shared.lean ====
import proofs.«132863_j44813688767075_2_alg».proof.Proof.Gen.KernelIdeal.Launch
import proofs.«132863_j44813688767075_2_alg».proof.Proof.Gen.KernelIdeal.Skeleton
import proofs.«132863_j44813688767075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's kernel (pipeline 1, grid 4 × 2) at the entry contents `V`: what its two cases share

The grid point `t = 2·o + i` works on output columns block `o` and contraction block `i`. At `i = 0` the
accumulator is zeroed and the first partial product added; at `i = 1` the second partial product is added and the
accumulator plus the bias row is stored into the output block. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents (`hA`) and whose body leaves the block in place (`hafter`): where the
    window is not fetched its block index has not moved since the point before, so the block kept is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents (`hA`) and whose body leaves the block in place (`hafter`): where the
    window is not fetched its block index has not moved since the point before, so the block kept is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents (`hA`) and whose body leaves the block in place (`hafter`): where the
    window is not fetched its block index has not moved since the point before, so the block kept is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents (`hA`) and whose body leaves the block in place (`hafter`): where the
    window is not fetched its block index has not moved since the point before, so the block kept is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- The first condition (the accumulator is zeroed): the contraction coordinate is 0. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second condition (the output block is stored): the contraction coordinate is 1. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the even points the output block is idle: nothing is stored into it, -/
theorem idleAt1_4_A : ∀ t : Fin cfg1.N, cond1_0 (grid1.coords t) → ¬cond1_1 (grid1.coords t) → cfg1.idle 4 (grid1.coords t) = true := by decide +kernel
/-- and it is not written back there. -/
theorem noFlush1_4_A : ∀ t : Fin cfg1.N, cond1_0 (grid1.coords t) → ¬cond1_1 (grid1.coords t) → (cfg1.win 4).flush t = false := by decide +kernel
/-- At the odd points the output block is live: it is stored whole. -/
theorem liveAt1_4_B : ∀ t : Fin cfg1.N, ¬cond1_0 (grid1.coords t) → cond1_1 (grid1.coords t) → cfg1.idle 4 (grid1.coords t) = false := by decide +kernel

/-! ## The memrefs the body is called with -/

/-- One staging buffer of the output window, through which its contents are stated (the choice does not matter). -/
abbrev VO1_4 : View sig .tc .vmem S128x128 .f32 := (Memref.whole cc1_stg4_0 : Memref sig .tc .vmem S128x128 .f32).view
/-- Each window's current staging memref at point `t`, and its wholeness. -/
abbrev ms1_0 (t : Fin cfg1.N) : Memref sig .tc .vmem S128x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x128x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S128x128 .f32 := Memref.whole cc1_scratch0
/-- The same as a view: what the accumulator holds is stated through it. -/
abbrev VS1_0 : View sig .tc .vmem S128x128 .f32 := scM1_0.view

/-- The other scoped buffers of the core (the first layer's staging buffers and accumulator), unopened. -/
abbrev others1 (c : Dev nD) : sProp 𝕄 :=
  Pipeline.scopedRestBut (Ix := Unit) (Name := ℕ) (U := UR sig nD τ) (Lvl := ℕ) (Val := Elt F) spec1 c [cc1_scratch0]

/-- The region's invariant with the accumulator as a memref owned at some contents, the other scoped buffers
    unopened, and the generator register at some state. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [scM1_0, owns_whole]; try rfl

end Cert.KernelIdeal.Hand

end
-- ==== Proof.KiR1RunA.lean ====
import proofs.«132863_j44813688767075_2_alg».proof.Proof.KiR1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's kernel at an even point (the accumulator is zeroed, the output block is not stored) -/

set_option maxHeartbeats 1000000 in
/-- What the body leaves in the accumulator, as pieces (last first), at a point where the contraction coordinate is 0,
    with the proof that on whole staging memrefs — the four inputs' at their contents, the output's at contents `xi4`
    handed back untouched, the accumulator at anything — the body runs to the continuation holding the inputs' and the
    output's as they were and the accumulator with its pieces written. The pieces are the witness the run finds. -/
noncomputable def kernelRun1_A (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x512 .f32) (x1 : Vec F S128x512 .f32) (x2 : Vec F S1x128 .f32) (x3 : Vec F S4x128x512 .f32) :
    Σ' (L4 : List (View.Piece (Elt F) S128x128 .f32)), { LS0 : List (View.Piece (Elt F) S128x128 .f32) //
      ∀ (xi4 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__layer1_kernel i arg2 harg2 arg3 harg3 arg4 harg4 arg5 harg5 arg6 harg6 arg7 harg7) K } := by
  refine ⟨[], ?_, fun xi4 E K => ?run⟩
  case run =>
    simp only [cc1__layer1_kernel_eq_skeleton]; unfold cc1__layer1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KiR1RunB.lean ====
import proofs.«132863_j44813688767075_2_alg».proof.Proof.KiR1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's kernel at an odd point (the accumulator is carried, the output block is stored) -/

set_option maxHeartbeats 1000000 in
/-- What the body leaves in the output block's staging memref and in the accumulator, as pieces (last first), at a
    point where the contraction coordinate is 1, with the proof that on whole staging memrefs — the four inputs' at
    their contents, the output's at anything, the accumulator at the contents `xs0` the point before left — the body
    runs to the continuation holding the inputs' as they were and the output's and the accumulator with their pieces
    written. The pieces are the witness the run finds. -/
noncomputable def kernelRun1_B (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) :
    Σ' (L4 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__layer1_kernel i arg2 harg2 arg3 harg3 arg4 harg4 arg5 harg5 arg6 harg6 arg7 harg7) K } := by
  refine ⟨?_, ?_, fun E K => ?run⟩
  case run =>
    simp only [cc1__layer1_kernel_eq_skeleton]; unfold cc1__layer1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KiR1Frame.lean ====
import proofs.«132863_j44813688767075_2_alg».proof.Proof.KiR1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's region at the entry contents `V`: what each point leaves, the proof data, the body obligation -/

/-! ## What each case leaves -/

/-- At an even point nothing is stored into the output block: no pieces — a placeholder (junk read back) that nothing
    consults, since at these points the block is neither written back nor read at the next point. -/
def out1_A_4 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x512 .f32) (x1 : Vec F S128x512 .f32) (x2 : Vec F S1x128 .f32) (x3 : Vec F S4x128x512 .f32) : Vec F S128x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- At an even point the pieces stored into the accumulator cover it. -/
theorem scover1_A_0 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x512 .f32) (x1 : Vec F S128x512 .f32) (x2 : Vec F S1x128 .f32) (x3 : Vec F S4x128x512 .f32) (y : S128x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S128x128.size (by sl_kernel_rfl) y

/-- What an even point leaves in the accumulator: its pieces read back over junk. -/
def sout1_A_0 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x512 .f32) (x1 : Vec F S128x512 .f32) (x2 : Vec F S1x128 .f32) (x3 : Vec F S4x128x512 .f32) : Vec F S128x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- At an odd point the one store into the output block covers it. -/
theorem cover1_B_4 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) (y : S128x128.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S128x128.size (by sl_kernel_rfl) y

/-- What an odd point leaves in the output block's staging buffer: its pieces read back over junk. -/
def out1_B_4 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) : Vec F S128x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- At an odd point the pieces stored into the accumulator cover it. -/
theorem scover1_B_0 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) (y : S128x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S128x128.size (by sl_kernel_rfl) y

/-- What an odd point leaves in the accumulator: its pieces read back over junk. -/
def sout1_B_0 (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) : Vec F S128x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-! ## The two cases from the parity of the point -/

theorem c1A_0 (t : Fin cfg1.N) (h : t.val % 2 = 0) : cond1_0 (grid1.coords t) := (hcond1_0 t).mpr h
theorem c1A_1 (t : Fin cfg1.N) (h : t.val % 2 = 0) : ¬cond1_1 (grid1.coords t) := fun h' => by
  have h1 := (hcond1_1 t).mp h'; omega
theorem c1B_0 (t : Fin cfg1.N) (h : ¬t.val % 2 = 0) : ¬cond1_0 (grid1.coords t) := fun h' => h ((hcond1_0 t).mp h')
theorem c1B_1 (t : Fin cfg1.N) (h : ¬t.val % 2 = 0) : cond1_1 (grid1.coords t) := (hcond1_1 t).mpr (by omega)

/-! ## What the output block's buffer and the accumulator hold after each point -/

/-- THE ACCUMULATION. What the output block's staging buffer and the accumulator hold after the body at position `n`:
    at an even position the accumulator is zeroed and the first partial product added; at an odd position the second
    partial product is added to what the position before left, and the sum plus the bias row is stored. -/
def outsAt1 (c : Dev nD) : (n : ℕ) → n < cfg1.N → Vec F S128x128 .f32 × Vec F S128x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) (c1A_0 ⟨0, hn⟩ (Nat.zero_mod _)) (c1A_1 ⟨0, hn⟩ (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) (c1A_0 ⟨0, hn⟩ (Nat.zero_mod _)) (c1A_1 ⟨0, hn⟩ (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 2 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (c1A_0 ⟨n + 1, hn⟩ h0) (c1A_1 ⟨n + 1, hn⟩ h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (c1A_0 ⟨n + 1, hn⟩ h0) (c1A_1 ⟨n + 1, hn⟩ h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (c1B_0 ⟨n + 1, hn⟩ h0) (c1B_1 ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (c1B_0 ⟨n + 1, hn⟩ h0) (c1B_1 ⟨n + 1, hn⟩ h0) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at an even point. -/
theorem outsAt1_A (c : Dev nD) (t : Fin cfg1.N) (h0 : t.val % 2 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) (c1A_0 t h0) (c1A_1 t h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (c1A_0 t h0) (c1A_1 t h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at an odd point, over what the point before left. -/
theorem outsAt1_B (c : Dev nD) (t : Fin cfg1.N) (h0 : ¬t.val % 2 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (c1B_0 t h0) (c1B_1 t h0) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (c1B_0 t h0) (c1B_1 t h0) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant -/

/-- Before position `n`: before the first point what the launch hands the region; afterwards the accumulator at what
    the point before left in it, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The pipeline's proof data -/

/-- The proof data of the second layer's pipeline on core `c`: the arrays as the region finds them (`V`); after the
    body at point `t` each input's buffer at its block and the output's at `outsAt1`; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Each input's buffer is handed back at its block. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the parity of the point says which case it is in; the
    invariant hands the body the accumulator at what the point before left (at anything at the first point) and takes
    it back at this point's contents; at an even point the output block's buffer is handed back untouched, at an odd
    point it is taken back at what the one store left; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  by_cases h0 : t.val % 2 = 0
  · rw [Dat.leavesExact_idle (dat1 V c) 4 t (idleAt1_4_A t (c1A_0 t h0) (c1A_1 t h0)) (noFlush1_4_A t (c1A_0 t h0) (c1A_1 t h0))]
    rw [outsAt1_A V c t h0]
    unfold sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ (c1A_0 t h0) (c1A_1 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ (c1A_0 t h0) (c1A_1 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · rw [show (dat1 V c).leavesExact 4 t = owns (c : Thread nD τ) (ms1_4 t) fullShare ((dat1 V c).after 4 t) from by
      unfold Dat.leavesExact; rw [liveAt1_4_B t (c1B_0 t h0) (c1B_1 t h0)], after1_4]
    rw [outsAt1_B V c t h0]
    unfold out1_B_4 sout1_B_0; (try dsimp only)
    have hz : t.val ≠ 0 := fun h => h0 (by rw [h])
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (c1B_0 t h0) (c1B_1 t h0) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_B_0 c _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.KernelIdeal.Hand

end
-- ==== Proof.KiRun.lean ====
/-
  The whole program's run: @main is three host operations, the first layer's region, one host operation, the second
  layer's region. The buffer contents at each boundary are folded from the launch memory: a stretch of host operations
  applies them; a region leaves its arrays at what its write-backs leave and every other buffer alone. Each region is
  entered from "every unscoped buffer at the boundary's contents" and left at the next boundary's. The run ends with every
  unscoped buffer at the last boundary's contents; read at the argument arrays that is the launch memory, and read at
  the result it is the second region's output array after all its write-backs.
-/
import proofs.«132863_j44813688767075_2_alg».proof.Proof.KiR0Frame
import proofs.«132863_j44813688767075_2_alg».proof.Proof.KiR1Frame
import proofs.«132863_j44813688767075_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations: the first region's entry. -/
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- After the second stretch: the second region's entry. -/
abbrev W3 : Dev nD → Valuation τ sig (Elt F) := fun c => StableHlo.after hostOps1 (W2 m ρ c)
abbrev Vr3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (Vr3 m ρ) c).arrAt w cfg1.N
theorem W4_arr (c : Dev nD) (w : Fin cfg1.W) :
    W4 m ρ c (Proc.devRef .tc (Pipeline.arrRef spec1 w)) = (dat1 (Vr3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vr4 : (c : Dev nD) → (b : Ref sig .tc) → Buf (Elt F) ((c : Thread nD τ).loc b) := fun c b => W4 m ρ c b
theorem hF1 (c : Dev nD) (w : Fin cfg1.W) : (dat1 (Vr3 m ρ) c).arrAt w cfg1.N = Vr4 m ρ c (Pipeline.arrRef spec1 w) :=
  (W4_arr m ρ c w).symm
theorem hrest1 (c : Dev nD) : ∀ b, b ∉ Finset.univ.image (Pipeline.arrRef spec1) → Vr4 m ρ c b = Vr3 m ρ c b :=
  fun b hb => W4_of_ne m ρ c b fun w e => hb (Finset.mem_image.mpr ⟨w, Finset.mem_univ _, e⟩)

/-! ## The arguments end as launched, and the result is the second region's output array -/

/-- `main_arg0` reaches the end as launched: no host operation writes it, and a region only reads it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (Vr1 m ρ) c).arrAt_in 0 rfl _).trans (A_eq0 (Vr1 m ρ) c 0))
    _ = W0 m ρ c (Proc.devRef .tc main_arg0) := StableHlo.after_of_writes_sub hostOps0 _ hostOps0_writes (by decide)
    _ = m ((c : Thread nD τ).loc main_arg0) := rfl

/-- `main_arg1` reaches the end as launched: no host operation writes it, and a region only reads it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (Vr1 m ρ) c).arrAt_in 1 rfl _).trans (A_eq0 (Vr1 m ρ) c 1))
    _ = W0 m ρ c (Proc.devRef .tc main_arg1) := StableHlo.after_of_writes_sub hostOps0 _ hostOps0_writes (by decide)
    _ = m ((c : Thread nD τ).loc main_arg1) := rfl

/-- `main_arg2` reaches the end as launched: no host operation writes it, and a region only reads it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` reaches the end as launched: no host operation writes it, and a region only reads it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` reaches the end as launched: no host operation writes it, and a region only reads it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat1 (Vr3 m ρ) c).arrAt_in 1 rfl _).trans (A_eq1 (Vr3 m ρ) c 1))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` reaches the end as launched: no host operation writes it, and a region only reads it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- `main_arg6` reaches the end as launched: no host operation writes it, and a region only reads it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- The result buffer at the end holds the second region's output array after all its write-backs. -/
theorem W4_main_v5 (c : Dev nD) : W4 m ρ c (Proc.devRef .tc main_v5) = (dat1 (Vr3 m ρ) c).arrAt 4 cfg1.N :=
  W4_arr m ρ c 4

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it and left with them
    at the contents after it. Its arrays are split out of the unscoped buffers and put back at what the write-backs
    leave; the generator register goes into the invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest (Ix := Unit) (Name := ℕ) (U := UR sig nD τ) (Lvl := ℕ) (Val := Elt F) spec0 c ∗ ∃ r, prngReg c r) ⊢ ((dat0 (Vr1 m ρ) c).Φ 0 : sProp 𝕄) := hin0 (Vr1 m ρ) c
    show _ ⊢ (dat0 (Vr1 m ρ) c).Φ 0
    iintro ⟨Hp, -, Hr⟩
    iapply h
    isplitl [Hr]; · iexact Hr
    iexact Hp
  hout c := by
    have h : ((dat0 (Vr1 m ρ) c).Φ (Fin.last cfg0.N) : sProp 𝕄) ⊢ iprop(Pipeline.scopedRest (Ix := Unit) (Name := ℕ) (U := UR sig nD τ) (Lvl := ℕ) (Val := Elt F) spec0 c ∗ ∃ r, prngReg c r) := hout0 (Vr1 m ρ) c
    rw [Pipeline.ownSems0_none]
    show (dat0 (Vr1 m ρ) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it and left with them
    at the contents after it. Its arrays are split out of the unscoped buffers and put back at what the write-backs
    leave; the generator register goes into the invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest (Ix := Unit) (Name := ℕ) (U := UR sig nD τ) (Lvl := ℕ) (Val := Elt F) spec1 c ∗ ∃ r, prngReg c r) ⊢ ((dat1 (Vr3 m ρ) c).Φ 0 : sProp 𝕄) := hin1 (Vr3 m ρ) c
    show _ ⊢ (dat1 (Vr3 m ρ) c).Φ 0
    iintro ⟨Hp, -, Hr⟩
    iapply h
    isplitl [Hr]; · iexact Hr
    iexact Hp
  hout c := by
    have h : ((dat1 (Vr3 m ρ) c).Φ (Fin.last cfg1.N) : sProp 𝕄) ⊢ iprop(Pipeline.scopedRest (Ix := Unit) (Name := ℕ) (U := UR sig nD τ) (Lvl := ℕ) (Val := Elt F) spec1 c ∗ ∃ r, prngReg c r) := hout1 (Vr3 m ρ) c
    rw [Pipeline.ownSems0_none]
    show (dat1 (Vr3 m ρ) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr3 m ρ c) (Vr4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_main m ρ)

/-- The run with the result named: the result buffer ends at the second region's output array after its write-backs,
    and every argument array as launched. -/
theorem run_value : θ_run defs (onTc (τ := τ) (main (F := F))) ⟨m, fun _ => 0, ρ⟩ (fun r => ∀ c : Dev nD,
      r.2.mem ((c.tc : Thread nD τ).loc main_v5) = (dat1 (Vr3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v5 (by decide))).trans (W4_main_v5 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_main m ρ)

end Cert.KernelIdeal.Hand

end
-- ==== Proof.KiHost.lean ====
/-
  What the regions' arrays hold when each region is entered, traced back to the launch memory (at the extended
  reals). Before the first region the host transposes the two logit arrays to put the atom axis first and reshapes the
  first bias vector to a row; the inputs and weights are untouched. Between the regions the host reshapes the second
  bias vector; the first region has only written its own output array, which is the second region's input.
-/
import proofs.«132863_j44813688767075_2_alg».proof.Proof.KiRun
import Idealize.ShloMosaic.Lib.Pipeline.Value
import Idealize.ShloMosaic.Lib.ValueIdx
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## The first region's entry -/

theorem Vr1_arg0 (c : Dev nD) : Vr1 m ρ c main_arg0 = m ((c : Thread nD τ).loc main_arg0) :=
  StableHlo.after_of_writes_sub hostOps0 _ hostOps0_writes (by decide)
theorem Vr1_arg1 (c : Dev nD) : Vr1 m ρ c main_arg1 = m ((c : Thread nD τ).loc main_arg1) :=
  StableHlo.after_of_writes_sub hostOps0 _ hostOps0_writes (by decide)

/-- The transposed first logits: atom `k` of weight `(o, i)`. -/
theorem Vr1_v0_apply (c : Dev nD) (k : Fin 4) (o i : Fin 1024) :
    (Vr1 m ρ c main_v0 : Vec Ideal S4x1024x1024 .f32) (ix3 k o i) = (m ((c : Thread nD τ).loc main_arg3) : Vec Ideal S1024x1024x4 .f32) (ix3 o i k) := by
  have e : (Vr1 m ρ c main_v0 : Vec Ideal S4x1024x1024 .f32)
      = transpose S4x1024x1024 [2, 0, 1] (m ((c : Thread nD τ).loc main_arg3) : Vec Ideal S1024x1024x4 .f32) transposes_S1024x1024x4_S4x1024x1024_2_0_1 := by
    show StableHlo.after hostOps0 (W0 m ρ c) (Proc.devRef .tc main_v0) = _
    after_results <;> rfl
  rw [e]
  exact transpose_apply _ _ _ _ (ix3 o i k) (fun b => by match b with | ⟨0, _⟩ => rfl | ⟨1, _⟩ => rfl | ⟨2, _⟩ => rfl)

/-- The first bias vector as a row. -/
theorem Vr1_v2_apply (c : Dev nD) (o : Fin 1024) :
    (Vr1 m ρ c main_v2 : Vec Ideal S1x1024 .f32) (ix2 (0 : Fin 1) o) = (m ((c : Thread nD τ).loc main_arg2) : Vec Ideal S1024 .f32) (ix1 o) := by
  have e : (Vr1 m ρ c main_v2 : Vec Ideal S1x1024 .f32)
      = shapeCast S1x1024 (m ((c : Thread nD τ).loc main_arg2) : Vec Ideal S1024 .f32) shapeCasts_S1024_S1x1024 := by
    show StableHlo.after hostOps0 (W0 m ρ c) (Proc.devRef .tc main_v2) = _
    after_results <;> rfl
  rw [e]
  exact shapeCast_apply _ _ _ (ix1 o) (by rw [Shape.rowMajor_val_one, Shape.rowMajor_val_two]; simp)

/-! ## The second region's entry -/

/-- The second region's input is the first region's output array after all its write-backs. -/
theorem Vr3_v3 (c : Dev nD) : Vr3 m ρ c main_v3 = (dat0 (Vr1 m ρ) c).arrAt 4 cfg0.N :=
  (StableHlo.after_of_writes_sub hostOps1 _ hostOps1_writes (by decide)).trans (W2_arr m ρ c 4)

theorem Vr3_arg4 (c : Dev nD) : Vr3 m ρ c main_arg4 = m ((c : Thread nD τ).loc main_arg4) :=
  calc Vr3 m ρ c main_arg4
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- The transposed second logits. -/
theorem Vr3_v1_apply (c : Dev nD) (k : Fin 4) (o : Fin 512) (i : Fin 1024) :
    (Vr3 m ρ c main_v1 : Vec Ideal S4x512x1024 .f32) (ix3 k o i) = (m ((c : Thread nD τ).loc main_arg6) : Vec Ideal S512x1024x4 .f32) (ix3 o i k) := by
  have e0 : Vr3 m ρ c main_v1 = W1 m ρ c (Proc.devRef .tc main_v1) :=
    (StableHlo.after_of_writes_sub hostOps1 _ hostOps1_writes (by decide)).trans (W2_of_ne m ρ c main_v1 (by decide))
  have e : (W1 m ρ c (Proc.devRef .tc main_v1) : Vec Ideal S4x512x1024 .f32)
      = transpose S4x512x1024 [2, 0, 1] (m ((c : Thread nD τ).loc main_arg6) : Vec Ideal S512x1024x4 .f32) transposes_S512x1024x4_S4x512x1024_2_0_1 := by
    show StableHlo.after hostOps0 (W0 m ρ c) (Proc.devRef .tc main_v1) = _
    after_results <;> rfl
  rw [e0, e]
  exact transpose_apply _ _ _ _ (ix3 o i k) (fun b => by match b with | ⟨0, _⟩ => rfl | ⟨1, _⟩ => rfl | ⟨2, _⟩ => rfl)

/-- The second bias vector as a row. -/
theorem Vr3_v4_apply (c : Dev nD) (o : Fin 512) :
    (Vr3 m ρ c main_v4 : Vec Ideal S1x512 .f32) (ix2 (0 : Fin 1) o) = (m ((c : Thread nD τ).loc main_arg5) : Vec Ideal S512 .f32) (ix1 o) := by
  have e5 : W2 m ρ c (Proc.devRef .tc main_arg5) = m ((c : Thread nD τ).loc main_arg5) :=
    (W2_of_ne m ρ c main_arg5 (by decide)).trans (StableHlo.after_of_writes_sub hostOps0 _ hostOps0_writes (by decide))
  have e : (Vr3 m ρ c main_v4 : Vec Ideal S1x512 .f32)
      = shapeCast S1x512 (W2 m ρ c (Proc.devRef .tc main_arg5) : Vec Ideal S512 .f32) shapeCasts_S512_S1x512 := by
    show StableHlo.after hostOps1 (W2 m ρ c) (Proc.devRef .tc main_v4) = _
    after_results <;> rfl
  rw [e, e5]
  exact shapeCast_apply _ _ _ (ix1 o) (by rw [Shape.rowMajor_val_one, Shape.rowMajor_val_two]; simp)

end Cert.KernelIdeal.HandValue

end
-- ==== Proof.NetSpec.lean ====
/-
  The network this certificate is about, as ONE function of its seven argument arrays over the extended reals.

  For a weight `w` with four atom logits `l 0 … l 3` the effective weight is the softmax-weighted combination of the
  atoms `w, 0, tanh w, sin w`; the atom that is identically zero contributes nothing, so the combination is written
  with three terms. The softmax is the usual shifted one: the largest logit `mx l` is subtracted before the
  exponential, and each shifted exponential is divided by their sum.

  Layer 0 is `h[b,o] = Σ_i tanh (x[b,i] · W_eff0[o,i]) + b0[o]`; layer 1 is `out[b,o] = Σ_i h[b,i] · W_eff1[o,i] + b1[o]`.
  `out` reads the arrays through their indices, so that both programs' results can be stated as `out` of the arguments.
-/
import Idealize.ShloMosaic.PureOps.Ideal
import Idealize.ShloMosaic.Lib.ValueIdx

noncomputable section

open scoped BigOperators

namespace Cert.NetSpec

open Idealize.ShloMosaic Idealize.ShloMosaic.ValueIdx

/-- The largest of four logits. -/
def mx (l : Fin 4 → EReal) : EReal := (l 0 ⊔ l 1) ⊔ (l 2 ⊔ l 3)

/-- The shifted exponential of logit `k`. -/
def ex (l : Fin 4 → EReal) (k : Fin 4) : EReal := Ideal.exp (l k - mx l)

/-- The sum of the four shifted exponentials. -/
def den (l : Fin 4 → EReal) : EReal := ((ex l 0 + ex l 1) + ex l 2) + ex l 3

/-- The softmax weight of atom `k`. -/
def sm (l : Fin 4 → EReal) (k : Fin 4) : EReal := Ideal.div (ex l k) (den l)

/-- The effective weight: the atoms `w`, `tanh w`, `sin w` under their softmax weights (the zero atom drops out). -/
def weff (w : EReal) (l : Fin 4 → EReal) : EReal :=
  (sm l 0 * w + sm l 2 * Ideal.tanh w) + sm l 3 * Ideal.sin w

/-- Layer 0: the squashed products summed over the inputs, plus the bias. -/
def layer0 {B O I : ℕ} (x : Fin B → Fin I → EReal) (W : Fin O → Fin I → EReal) (lg : Fin O → Fin I → Fin 4 → EReal)
    (b : Fin O → EReal) (p : Fin B) (o : Fin O) : EReal :=
  (∑ i : Fin I, Ideal.tanh (x p i * weff (W o i) (lg o i))) + b o

/-- Layer 1: the products summed over the inputs, plus the bias. -/
def layer1 {B O I : ℕ} (h : Fin B → Fin I → EReal) (W : Fin O → Fin I → EReal) (lg : Fin O → Fin I → Fin 4 → EReal)
    (b : Fin O → EReal) (p : Fin B) (o : Fin O) : EReal :=
  (∑ i : Fin I, h p i * weff (W o i) (lg o i)) + b o

/-- The hidden activations as an array of shape [128, 1024]. -/
def hidden (x : (⟨2, ![128, 1024]⟩ : Shape).Idx → EReal) (W0 : (⟨2, ![1024, 1024]⟩ : Shape).Idx → EReal)
    (b0 : (⟨1, ![1024]⟩ : Shape).Idx → EReal) (lg0 : (⟨3, ![1024, 1024, 4]⟩ : Shape).Idx → EReal) :
    Fin 128 → Fin 1024 → EReal :=
  layer0 (fun p i => x (ix2 p i)) (fun o i => W0 (ix2 o i)) (fun o i k => lg0 (ix3 o i k)) (fun o => b0 (ix1 o))

/-- The network's result as an array of shape [128, 512]. -/
def out (x : (⟨2, ![128, 1024]⟩ : Shape).Idx → EReal) (W0 : (⟨2, ![1024, 1024]⟩ : Shape).Idx → EReal)
    (b0 : (⟨1, ![1024]⟩ : Shape).Idx → EReal) (lg0 : (⟨3, ![1024, 1024, 4]⟩ : Shape).Idx → EReal)
    (W1 : (⟨2, ![512, 1024]⟩ : Shape).Idx → EReal) (b1 : (⟨1, ![512]⟩ : Shape).Idx → EReal)
    (lg1 : (⟨3, ![512, 1024, 4]⟩ : Shape).Idx → EReal) : (⟨2, ![128, 512]⟩ : Shape).Idx → EReal :=
  fun j => layer1 (hidden x W0 b0 lg0) (fun o i => W1 (ix2 o i)) (fun o i k => lg1 (ix3 o i k)) (fun o => b1 (ix1 o))
    (j 0) (j 1)

end Cert.NetSpec

end
-- ==== Proof.LibAtomAxisReads.lean ====
/-
  Rank-3 arrays read at an index, over arbitrary extents: layout operations written with coordinates, the two reductions over the four softmax atoms (the leading axis of a [4, b, c] array) and the
  lane sum over the last axis of an [a, b, c] array, all at the extended reals.

  * a slice of one slab along the leading axis reads the slab it names;
  * a [1, b, c] array broadcast to [a, b, c] ignores the leading coordinate, an [a, 1, c] one the middle coordinate;
  * an [a, c] array viewed as [a, 1, c] keeps its entries;
  * the maximum over the leading axis of a [4, b, c] array from the value minus infinity is the largest of the four
    entries, the sum over that axis is the sum of the four entries, and the sum over the last axis of an [a, b, c]
    array is the sum over its last coordinate.
-/
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

open scoped BigOperators

namespace Cert.L0ChunkLaws

open Idealize.ShloMosaic Idealize.ShloMosaic.ValueIdx

variable {α : Type}

/-! ## Pointwise functions and constants at the extended reals -/

/-- The exponential of a vector, read at an index. -/
theorem exp_apply {s : Shape} {φ : FTy} (a : FVec Ideal s φ) (i : s.Idx) : exp a i = Ideal.exp (a i) := rfl

/-- The hyperbolic tangent of a vector, read at an index. -/
theorem tanh_apply {s : Shape} {φ : FTy} (a : FVec Ideal s φ) (i : s.Idx) : tanh a i = Ideal.tanh (a i) := rfl

/-- The sine of a vector, read at an index. -/
theorem sin_apply {s : Shape} {φ : FTy} (a : FVec Ideal s φ) (i : s.Idx) : sin a i = Ideal.sin (a i) := rfl

/-- A scalar constant given by its bit pattern is that pattern's extended real. -/
theorem scalar_ofBits (φ : FTy) (b : BitVec φ.bits) : Scalar.ofBits (F := Ideal) φ b = Ideal.ofBits φ b := rfl

/-! ## Layout operations on rank-3 arrays -/

/-- One slab `[1, n1, n2]` cut from an `[n0, n1, n2]` array at offset `o` along the leading axis reads slab `k = o`. -/
theorem slab_apply {n0 n1 n2 : Nat} (o : Nat) (X : (⟨3, ![n0, n1, n2]⟩ : Shape).Idx → α)
    (h : (⟨3, ![n0, n1, n2]⟩ : Shape).Slices ![o, 0, 0] ⟨3, ![1, n1, n2]⟩)
    (u : Fin 1) (b : Fin n1) (e : Fin n2) (k : Fin n0) (hk : k.val = o) :
    extractStridedSlice ⟨3, ![1, n1, n2]⟩ ![o, 0, 0] X h (ix3 u b e) = X (ix3 k b e) :=
  extractStridedSlice_apply _ _ _ _ _ (fun ax => by
    match ax with
    | ⟨0, _⟩ =>
      have hu : u.val = 0 := by omega
      show k.val = o + u.val
      rw [hu, hk, Nat.add_zero]
    | ⟨1, _⟩ => exact (Nat.zero_add _).symm
    | ⟨2, _⟩ => exact (Nat.zero_add _).symm)

/-- A `[1, b, c]` array broadcast to `[a, b, c]` reads, at `(p, q, r)`, the operand at `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- An `[a, 1, c]` array broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, c]` array viewed as `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-! ## The reductions -/

/-- The fold of `max` over four entries from a start value is the start value joined with the four. -/
theorem fold_max_fin4 (b : EReal) (f : Fin 4 → EReal) :
    (Finset.univ : Finset (Fin 4)).fold max b f = b ⊔ ((f 0 ⊔ f 1) ⊔ (f 2 ⊔ f 3)) := by
  have h : (Finset.univ : Finset (Fin 4)) = insert 0 (insert 1 (insert 2 {3})) := by decide
  rw [h, Finset.fold_insert (by decide), Finset.fold_insert (by decide), Finset.fold_insert (by decide),
    Finset.fold_singleton]
  show f 0 ⊔ (f 1 ⊔ (f 2 ⊔ (f 3 ⊔ b))) = _
  ac_rfl

/-- The f32 pattern of minus infinity is the least extended real. -/
theorem ofBits_neg_inf_f32 : Ideal.ofBits .f32 0xFF800000#32 = (⊥ : EReal) := by
  simp [Ideal.ofBits, Ideal.ieee]

/-- The maximum over the leading axis of a `[4, b, c]` array, started from minus infinity, is at `(q, r)` the largest
of the four entries above `(q, r)`. -/
theorem max_axis0_fin4 {b c : ℕ} (src : FVec Ideal ⟨3, ![4, b, c]⟩ .f32)
    (h : (⟨3, ![4, b, c]⟩ : Shape).Reduces [0] ⟨2, ![b, c]⟩) (hφ : FTy.f32 = FTy.f32 ∨ FTy.f32 = FTy.bf16)
    (hacc : (0xFF800000#32 : BitVec 32) = 0xFF800000#32) (q : Fin b) (r : Fin c) :
    multiReduction .maximumf [0] ⟨2, ![b, c]⟩ src 0xFF800000#32 h hφ hacc (ix2 q r)
      = (src (ix3 (0 : Fin 4) q r) ⊔ src (ix3 (1 : Fin 4) q r)) ⊔ (src (ix3 (2 : Fin 4) q r) ⊔ src (ix3 (3 : Fin 4) q r)) := by
  refine (Ideal.multiReduction_maximumf_single src _ h hφ hacc (ix2 q r)).trans ?_
  have hl : ∀ k : Fin 4, h.lift (ix2 q r) k = ix3 k q r := fun k => funext fun ax => Fin.ext (by
    match ax with
    | ⟨0, _⟩ => rfl
    | ⟨1, _⟩ => rfl
    | ⟨2, _⟩ => rfl)
  refine (fold_max_fin4 (Ideal.ofBits .f32 0xFF800000#32) (fun k : Fin 4 => src (h.lift (ix2 q r) k))).trans ?_
  rw [ofBits_neg_inf_f32, bot_sup_eq]
  show (src (h.lift (ix2 q r) (0 : Fin 4)) ⊔ src (h.lift (ix2 q r) (1 : Fin 4)))
      ⊔ (src (h.lift (ix2 q r) (2 : Fin 4)) ⊔ src (h.lift (ix2 q r) (3 : Fin 4))) = _
  rw [hl, hl, hl, hl]

/-- The sum over the leading axis of a `[4, b, c]` array is at `(q, r)` the sum of the four entries above `(q, r)`. -/
theorem sum_axis0_fin4 {b c : ℕ} (src : FVec Ideal ⟨3, ![4, b, c]⟩ .f32)
    (h : (⟨3, ![4, b, c]⟩ : Shape).Reduces [0] ⟨2, ![b, c]⟩) (hφ : FTy.f32 = FTy.f32 ∨ FTy.f32 = FTy.bf16)
    (hacc : (0x00000000#32 : BitVec 32) = 0x00000000#32) (q : Fin b) (r : Fin c) :
    multiReduction .add [0] ⟨2, ![b, c]⟩ src 0x00000000#32 h hφ hacc (ix2 q r)
      = ((src (ix3 (0 : Fin 4) q r) + src (ix3 (1 : Fin 4) q r)) + src (ix3 (2 : Fin 4) q r)) + src (ix3 (3 : Fin 4) q r) := by
  refine (Ideal.multiReduction_add_single src _ h hφ hacc (ix2 q r)).trans ?_
  have hl : ∀ k : Fin 4, h.lift (ix2 q r) k = ix3 k q r := fun k => funext fun ax => Fin.ext (by
    match ax with
    | ⟨0, _⟩ => rfl
    | ⟨1, _⟩ => rfl
    | ⟨2, _⟩ => rfl)
  refine (Fin.sum_univ_four (fun k : Fin 4 => src (h.lift (ix2 q r) k))).trans ?_
  show ((src (h.lift (ix2 q r) (0 : Fin 4)) + src (h.lift (ix2 q r) (1 : Fin 4)))
      + src (h.lift (ix2 q r) (2 : Fin 4))) + src (h.lift (ix2 q r) (3 : Fin 4)) = _
  rw [hl, hl, hl, hl]

/-- The sum over the last axis of an `[a, b, c]` array is at `(p, q)` the sum over the last coordinate. -/
theorem sum_axis2 {a b c : ℕ} (src : FVec Ideal ⟨3, ![a, b, c]⟩ .f32)
    (h : (⟨3, ![a, b, c]⟩ : Shape).Reduces [2] ⟨2, ![a, b]⟩) (hφ : FTy.f32 = FTy.f32 ∨ FTy.f32 = FTy.bf16)
    (hacc : (0x00000000#32 : BitVec 32) = 0x00000000#32) (p : Fin a) (q : Fin b) :
    multiReduction .add [2] ⟨2, ![a, b]⟩ src 0x00000000#32 h hφ hacc (ix2 p q) = ∑ j : Fin c, src (ix3 p q j) := by
  refine (Ideal.multiReduction_add_single src _ h hφ hacc (ix2 p q)).trans ?_
  show ∑ j : Fin c, src (h.lift (ix2 p q) j) = _
  refine Finset.sum_congr rfl fun j _ => congrArg src (funext fun ax => Fin.ext (by
    match ax with
    | ⟨0, _⟩ => rfl
    | ⟨1, _⟩ => rfl
    | ⟨2, _⟩ => rfl))

end Cert.L0ChunkLaws
-- ==== Proof.L0Chunks.lean ====
/-
  The layer-0 kernel's stored values, read at an index over the extended reals.

  The kernel body treats the 128 output columns of its block in eight chunks of sixteen. For one chunk, with `x` the
  [128, 512] input block, `w` the chunk's [16, 512] weights, `lg` its [4, 16, 512] atom logits and `acc` the chunk's
  [128, 16] slab of the accumulator, the stored value at `(p, q)` is

      acc (p, q) + Σ_j tanh (x (p, j) · weff (w (q, j)) (lg (·, q, j)))

  with `weff` the softmax-weighted combination of the atoms: the softmax over the leading axis is the shifted one (the
  largest of the four logits subtracted, the exponentials divided by their sum), the multiplication of the logits by
  one and the maximum against minus infinity change nothing, and the sum over the last axis starts from zero.
  The eight chunks are spelt by different compositions of the generated payload functions; each is the same function
  `chunkFn` of its four loaded values, by unfolding. The finalisation adds the bias row to the accumulator, and the
  reset stores zero.
-/
import proofs.«132863_j44813688767075_2_alg».proof.Proof.Gen.KernelIdeal.Skeleton
import proofs.«132863_j44813688767075_2_alg».proof.Proof.NetSpec
import proofs.«132863_j44813688767075_2_alg».proof.Proof.LibAtomAxisReads
import Idealize.ShloMosaic.Lib.ValueIdx
import Idealize.ShloMosaic.Lib.Pipeline.Value
import Idealize.ShloMosaic.Lib.ValueLayout
import Idealize.ShloMosaic.PureOps.Ideal.Laws

open scoped BigOperators

namespace Cert.L0Chunks

open Cert.KernelIdeal Cert.KernelIdeal.Gen Idealize.ShloMosaic Idealize.ShloMosaic.ValueIdx Cert.L0ChunkLaws

/-- The value one chunk stores into its slab of the accumulator, as a function of the input block `x`, the chunk's
weights `w`, its atom logits `lg` and the slab's previous contents `acc`. -/
noncomputable def chunkFn (x : Vec Ideal S128x512 .f32) (w : Vec Ideal S16x512 .f32) (lg : Vec Ideal S4x16x512 .f32)
    (acc : Vec Ideal S128x16 .f32) : FVec Ideal S128x16 .f32 :=
  k0_pay8 x w lg acc

/-- One chunk's stored value at `(p, q)`: the slab's previous entry plus the sum over the 512 inputs of the squashed
products of the input row with the effective weights of output row `q`. -/
theorem chunkFn_apply (x : Vec Ideal S128x512 .f32) (w : Vec Ideal S16x512 .f32) (lg : Vec Ideal S4x16x512 .f32)
    (acc : Vec Ideal S128x16 .f32) (p : Fin 128) (q : Fin 16) :
    chunkFn x w lg acc (ix2 p q)
      = acc (ix2 p q)
        + ∑ j : Fin 512, Ideal.tanh (x (ix2 p j) * Cert.NetSpec.weff (w (ix2 q j)) (fun k => lg (ix3 k q j))) := by
  unfold chunkFn k0_pay8
  simp only [shapeCast_self, addf_apply, mulf_apply, subf_apply, divf_apply, maximumf_apply, exp_apply, tanh_apply, sin_apply,
    broadcast_apply, sum_axis2 (a := 128) (b := 16) (c := 512), sum_axis0_fin4 (b := 16) (c := 512),
    max_axis0_fin4 (b := 16) (c := 512), broadcastTo_1bc_abc_apply (a := 4) (b := 16) (c := 512),
    broadcastTo_1bc_abc_apply (a := 128) (b := 16) (c := 512), broadcastTo_a1c_abc_apply (a := 128) (b := 16) (c := 512),
    shapeCast_ac_a1c_apply (a := 128) (c := 512), shapeCast_ab_1ab_apply (a := 16) (b := 512),
    shapeCast_1ab_ab_apply (a := 16) (b := 512),
    slab_apply (n0 := 4) (n1 := 16) (n2 := 512) 0 _ _ _ _ _ (0 : Fin 4) rfl,
    slab_apply (n0 := 4) (n1 := 16) (n2 := 512) 2 _ _ _ _ _ (2 : Fin 4) rfl,
    slab_apply (n0 := 4) (n1 := 16) (n2 := 512) 3 _ _ _ _ _ (3 : Fin 4) rfl,
    scalar_ofBits, Ideal.ofBits_one_f32, ofBits_neg_inf_f32, mul_one, bot_sup_eq]
  rfl

/-! ## The eight chunks as the skeleton spells them -/

theorem chunk0_eq (v3 : Vec Ideal S128x512 .f32) (v4 : Vec Ideal S16x512 .f32) (v5 : Vec Ideal S4x16x512 .f32)
    (v40 : Vec Ideal S128x16 .f32) : k0_pay5 (k0_pay4 v3 v4 v5) v40 = chunkFn v3 v4 v5 v40 := rfl

theorem chunk1_eq (v3 : Vec Ideal S128x512 .f32) (v45 : Vec Ideal S16x512 .f32) (v46 : Vec Ideal S4x16x512 .f32)
    (v81 : Vec Ideal S128x16 .f32) : k0_pay7 (k0_pay6 v3 v45 v46 v81) = chunkFn v3 v45 v46 v81 := rfl

theorem chunk2_eq (v3 : Vec Ideal S128x512 .f32) (v86 : Vec Ideal S16x512 .f32) (v87 : Vec Ideal S4x16x512 .f32)
    (v122 : Vec Ideal S128x16 .f32) : k0_pay8 v3 v86 v87 v122 = chunkFn v3 v86 v87 v122 := rfl

theorem chunk3_eq (v3 : Vec Ideal S128x512 .f32) (v127 : Vec Ideal S16x512 .f32) (v128 : Vec Ideal S4x16x512 .f32)
    (v163 : Vec Ideal S128x16 .f32) : k0_pay9 v3 v127 v128 v163 = chunkFn v3 v127 v128 v163 := rfl

theorem chunk4_eq (v3 : Vec Ideal S128x512 .f32) (v168 : Vec Ideal S16x512 .f32) (v169 : Vec Ideal S4x16x512 .f32)
    (v204 : Vec Ideal S128x16 .f32) : k0_pay10 v3 v168 v169 v204 = chunkFn v3 v168 v169 v204 := rfl

theorem chunk5_eq (v3 : Vec Ideal S128x512 .f32) (v209 : Vec Ideal S16x512 .f32) (v210 : Vec Ideal S4x16x512 .f32)
    (v245 : Vec Ideal S128x16 .f32) :
    k0_pay12 v3 v209 (k0_pay11 v210) (Scalar.ofBits .f32 0x3F800000#32) v245 = chunkFn v3 v209 v210 v245 := rfl

theorem chunk6_eq (v3 : Vec Ideal S128x512 .f32) (v250 : Vec Ideal S16x512 .f32) (v251 : Vec Ideal S4x16x512 .f32)
    (v286 : Vec Ideal S128x16 .f32) :
    k0_pay15 v3 v250 (k0_pay13 v251) (k0_pay14 v251) v286 = chunkFn v3 v250 v251 v286 := rfl

theorem chunk7_eq (v3 : Vec Ideal S128x512 .f32) (v291 : Vec Ideal S16x512 .f32) (v292 : Vec Ideal S4x16x512 .f32)
    (v327 : Vec Ideal S128x16 .f32) :
    k0_pay1 v3 v291 (k0_pay16 v292) (k0_pay17 v292) v327 = chunkFn v3 v291 v292 v327 := rfl

/-! ## The chunks read at an index -/

/-- Chunk 0's stored value at `(p, q)`. -/
theorem chunk0_apply (v3 : Vec Ideal S128x512 .f32) (v4 : Vec Ideal S16x512 .f32) (v5 : Vec Ideal S4x16x512 .f32)
    (v40 : Vec Ideal S128x16 .f32) (p : Fin 128) (q : Fin 16) :
    k0_pay5 (k0_pay4 v3 v4 v5) v40 (ix2 p q)
      = v40 (ix2 p q)
        + ∑ j : Fin 512, Ideal.tanh (v3 (ix2 p j) * Cert.NetSpec.weff (v4 (ix2 q j)) (fun k => v5 (ix3 k q j))) :=
  (congrFun (chunk0_eq v3 v4 v5 v40) (ix2 p q)).trans (chunkFn_apply v3 v4 v5 v40 p q)

/-- Chunk 1's stored value at `(p, q)`. -/
theorem chunk1_apply (v3 : Vec Ideal S128x512 .f32) (v45 : Vec Ideal S16x512 .f32) (v46 : Vec Ideal S4x16x512 .f32)
    (v81 : Vec Ideal S128x16 .f32) (p : Fin 128) (q : Fin 16) :
    k0_pay7 (k0_pay6 v3 v45 v46 v81) (ix2 p q)
      = v81 (ix2 p q)
        + ∑ j : Fin 512, Ideal.tanh (v3 (ix2 p j) * Cert.NetSpec.weff (v45 (ix2 q j)) (fun k => v46 (ix3 k q j))) :=
  (congrFun (chunk1_eq v3 v45 v46 v81) (ix2 p q)).trans (chunkFn_apply v3 v45 v46 v81 p q)

/-- Chunk 2's stored value at `(p, q)`. -/
theorem chunk2_apply (v3 : Vec Ideal S128x512 .f32) (v86 : Vec Ideal S16x512 .f32) (v87 : Vec Ideal S4x16x512 .f32)
    (v122 : Vec Ideal S128x16 .f32) (p : Fin 128) (q : Fin 16) :
    k0_pay8 v3 v86 v87 v122 (ix2 p q)
      = v122 (ix2 p q)
        + ∑ j : Fin 512, Ideal.tanh (v3 (ix2 p j) * Cert.NetSpec.weff (v86 (ix2 q j)) (fun k => v87 (ix3 k q j))) :=
  (congrFun (chunk2_eq v3 v86 v87 v122) (ix2 p q)).trans (chunkFn_apply v3 v86 v87 v122 p q)

/-- Chunk 3's stored value at `(p, q)`. -/
theorem chunk3_apply (v3 : Vec Ideal S128x512 .f32) (v127 : Vec Ideal S16x512 .f32) (v128 : Vec Ideal S4x16x512 .f32)
    (v163 : Vec Ideal S128x16 .f32) (p : Fin 128) (q : Fin 16) :
    k0_pay9 v3 v127 v128 v163 (ix2 p q)
      = v163 (ix2 p q)
        + ∑ j : Fin 512, Ideal.tanh (v3 (ix2 p j) * Cert.NetSpec.weff (v127 (ix2 q j)) (fun k => v128 (ix3 k q j))) :=
  (congrFun (chunk3_eq v3 v127 v128 v163) (ix2 p q)).trans (chunkFn_apply v3 v127 v128 v163 p q)

/-- Chunk 4's stored value at `(p, q)`. -/
theorem chunk4_apply (v3 : Vec Ideal S128x512 .f32) (v168 : Vec Ideal S16x512 .f32) (v169 : Vec Ideal S4x16x512 .f32)
    (v204 : Vec Ideal S128x16 .f32) (p : Fin 128) (q : Fin 16) :
    k0_pay10 v3 v168 v169 v204 (ix2 p q)
      = v204 (ix2 p q)
        + ∑ j : Fin 512, Ideal.tanh (v3 (ix2 p j) * Cert.NetSpec.weff (v168 (ix2 q j)) (fun k => v169 (ix3 k q j))) :=
  (congrFun (chunk4_eq v3 v168 v169 v204) (ix2 p q)).trans (chunkFn_apply v3 v168 v169 v204 p q)

/-- Chunk 5's stored value at `(p, q)`. -/
theorem chunk5_apply (v3 : Vec Ideal S128x512 .f32) (v209 : Vec Ideal S16x512 .f32) (v210 : Vec Ideal S4x16x512 .f32)
    (v245 : Vec Ideal S128x16 .f32) (p : Fin 128) (q : Fin 16) :
    k0_pay12 v3 v209 (k0_pay11 v210) (Scalar.ofBits .f32 0x3F800000#32) v245 (ix2 p q)
      = v245 (ix2 p q)
        + ∑ j : Fin 512, Ideal.tanh (v3 (ix2 p j) * Cert.NetSpec.weff (v209 (ix2 q j)) (fun k => v210 (ix3 k q j))) :=
  (congrFun (chunk5_eq v3 v209 v210 v245) (ix2 p q)).trans (chunkFn_apply v3 v209 v210 v245 p q)

/-- Chunk 6's stored value at `(p, q)`. -/
theorem chunk6_apply (v3 : Vec Ideal S128x512 .f32) (v250 : Vec Ideal S16x512 .f32) (v251 : Vec Ideal S4x16x512 .f32)
    (v286 : Vec Ideal S128x16 .f32) (p : Fin 128) (q : Fin 16) :
    k0_pay15 v3 v250 (k0_pay13 v251) (k0_pay14 v251) v286 (ix2 p q)
      = v286 (ix2 p q)
        + ∑ j : Fin 512, Ideal.tanh (v3 (ix2 p j) * Cert.NetSpec.weff (v250 (ix2 q j)) (fun k => v251 (ix3 k q j))) :=
  (congrFun (chunk6_eq v3 v250 v251 v286) (ix2 p q)).trans (chunkFn_apply v3 v250 v251 v286 p q)

/-- Chunk 7's stored value at `(p, q)`. -/
theorem chunk7_apply (v3 : Vec Ideal S128x512 .f32) (v291 : Vec Ideal S16x512 .f32) (v292 : Vec Ideal S4x16x512 .f32)
    (v327 : Vec Ideal S128x16 .f32) (p : Fin 128) (q : Fin 16) :
    k0_pay1 v3 v291 (k0_pay16 v292) (k0_pay17 v292) v327 (ix2 p q)
      = v327 (ix2 p q)
        + ∑ j : Fin 512, Ideal.tanh (v3 (ix2 p j) * Cert.NetSpec.weff (v291 (ix2 q j)) (fun k => v292 (ix3 k q j))) :=
  (congrFun (chunk7_eq v3 v291 v292 v327) (ix2 p q)).trans (chunkFn_apply v3 v291 v292 v327 p q)

/-! ## The finalisation and the reset -/

/-- The finalisation: the accumulator plus the bias row, the row repeated down the 128 rows. -/
theorem k0_pay2_apply (v335 : Vec Ideal S128x128 .f32) (v336 : Vec Ideal S1x128 .f32) (p : Fin 128) (q : Fin 128) :
    k0_pay2 v335 v336 (ix2 p q) = v335 (ix2 p q) + v336 (ix2 (0 : Fin 1) q) := by
  unfold k0_pay2
  simp only [shapeCast_self, addf_apply, broadcastTo_1b_ab_apply (a := 128) (b := 128)]

/-- The reset: the accumulator is set to zero everywhere. -/
theorem k0_pay3_apply (i : S128x128.Idx) : k0_pay3 (F := Ideal) i = 0 := by
  unfold k0_pay3
  simp only [shapeCast_self, broadcast_apply, scalar_ofBits, Ideal.ofBits_zero_f32]

end Cert.L0Chunks
-- ==== Proof.KiR0Pieces.lean ====
/-
  The first layer's region: what its accumulator and its output block hold after a grid point, read at an entry.

  The body treats the 128 output columns of its block in eight slabs of sixteen. For the slab at column `o` it loads
  the whole [128, 512] input block, rows `o … o + 15` of the weight block and of each atom's plane of the logit block,
  and the slab's own [128, 16] entries of the accumulator, and stores back, at `(a, b)` of the slab, the previous entry
  plus `Σ_j tanh (x (a, j) · weff (w (o + b, j)) (lg (·, o + b, j)))`. Since the slabs are disjoint, the stores of one
  point, read together, leave at EVERY entry `(p, n)` the entry the point found there plus the point's contribution
  `part … p n`. At an even point the accumulator is first reset to zero, and each slab's previous entries are the slab
  read back through the stores made so far, where the zero still stands: the point leaves `0 + part = part`. At an
  odd point the accumulator comes in at what the even point before left, and the output block is stored as the
  accumulator, read back whole, plus the bias row. So after an odd point the output block's buffer holds the two
  points' contributions plus the bias.
-/
import proofs.«132863_j44813688767075_2_alg».proof.Proof.KiR0Frame
import proofs.«132863_j44813688767075_2_alg».proof.Proof.NetSpec
import proofs.«132863_j44813688767075_2_alg».proof.Proof.L0Chunks
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One point's contribution and the law of one chunk -/

/-- What one grid point adds at row `p`, output column `n` of its block: the sum over the point's 512 inputs of the
    squashed products of the input row with the effective weights of output row `n`. -/
def part (x0 : Vec Ideal S128x512 .f32) (x1 : Vec Ideal S128x512 .f32) (x3 : Vec Ideal S4x128x512 .f32) (p n : Fin 128) : EReal :=
  ∑ j : Fin 512, Ideal.tanh (x0 (ix2 p j) * Cert.NetSpec.weff (x1 (ix2 n j)) (fun k => x3 (ix3 k n j)))

/-- Column `b` of the sixteen-column slab that starts at column `o`. -/
def shift (o : ℕ) (ho : o + 16 ≤ 128) (b : Fin 16) : Fin 128 := ⟨o + b.val, by have := b.isLt; omega⟩

/-- A chunk's stored value at `(a, b)` is the slab's previous entry plus the sum over the inputs. -/
def ChunkLaw (P : Vec Ideal S128x512 .f32 → Vec Ideal S16x512 .f32 → Vec Ideal S4x16x512 .f32 → Vec Ideal S128x16 .f32
    → FVec Ideal S128x16 .f32) : Prop :=
  ∀ (x : Vec Ideal S128x512 .f32) (w : Vec Ideal S16x512 .f32) (lg : Vec Ideal S4x16x512 .f32) (acc : Vec Ideal S128x16 .f32)
    (a : Fin 128) (b : Fin 16),
    P x w lg acc (ix2 a b)
      = acc (ix2 a b) + ∑ j : Fin 512, Ideal.tanh (x (ix2 a j) * Cert.NetSpec.weff (w (ix2 b j)) (fun k => lg (ix3 k b j)))

theorem hz2 : (![0, 0] : Fin 2 → Nat) = fun _ => 0 := funext fun a => by fin_cases a <;> rfl
theorem hz3 : (![0, 0, 0] : Fin 3 → Nat) = fun _ => 0 := funext fun a => by fin_cases a <;> rfl

/-! ## Where a slab's entries sit -/

/-- Entry `(a, b)` of the slab at column `o` is entry `(a, o + b)` of the accumulator. -/
theorem slab_emb (o : ℕ) (ho : o + 16 ≤ 128) (inb7 : ∀ a, (![0, o] : Fin 2 → ℕ) a + S128x16.size a ≤ S128x128.size a)
    (a : Fin 128) (b : Fin 16) :
    (Rect.unit (s := S128x128) ![0, o] S128x16.size inb7).emb (ix2 a b) = ix2 a (shift o ho b) :=
  funext fun d => Fin.ext (by
    match d with
    | ⟨0, _⟩ => show 0 + 1 * a.val = a.val; omega
    | ⟨1, _⟩ => show o + 1 * b.val = o + b.val; omega)

/-- An entry whose column is outside the slab is not in it. -/
theorem slab_not_mem (o : ℕ) (inb7 : ∀ a, (![0, o] : Fin 2 → ℕ) a + S128x16.size a ≤ S128x128.size a)
    (p n : Fin 128) (h : n.val < o ∨ o + 16 ≤ n.val) : ix2 p n ∉ (Rect.unit (s := S128x128) ![0, o] S128x16.size inb7).set := fun hm => by
  have h1 : o ≤ n.val ∧ n.val < o + 16 := (Rect.mem_set_unit.mp hm) 1
  omega

/-! ## One chunk's store on top of the earlier ones -/

/-- After the chunk at column `o` is stored on top of stores that left `prev + part` on the columns before `o`, the
    columns before `o + 16` hold `prev + part`: inside the slab by the chunk's law, the chunk's operands being the
    input block, the weight rows and logit rows `o … o + 15`, and the slab's previous entries `prev`; before it by the
    earlier stores. -/
theorem step (o : ℕ) (ho : o + 16 ≤ 128) (inb7 : ∀ a, (![0, o] : Fin 2 → ℕ) a + S128x16.size a ≤ S128x128.size a)
    (x0 : Vec Ideal S128x512 .f32) (x1 : Vec Ideal S128x512 .f32) (x3 : Vec Ideal S4x128x512 .f32)
    (prev : Fin 128 → Fin 128 → EReal) (A : List (View.Piece (Elt Ideal) S128x128 .f32))
    (P : Vec Ideal S128x512 .f32 → Vec Ideal S16x512 .f32 → Vec Ideal S4x16x512 .f32 → Vec Ideal S128x16 .f32
      → FVec Ideal S128x16 .f32) (hP : ChunkLaw P)
    (x0' : Vec Ideal S128x512 .f32) (w' : Vec Ideal S16x512 .f32) (lg' : Vec Ideal S4x16x512 .f32) (acc' : Vec Ideal S128x16 .f32)
    (hx : x0' = x0)
    (hw : ∀ (b : Fin 16) (j : Fin 512), w' (ix2 b j) = x1 (ix2 (shift o ho b) j))
    (hl : ∀ (k : Fin 4) (b : Fin 16) (j : Fin 512), lg' (ix3 k b j) = x3 (ix3 k (shift o ho b) j))
    (hacc : ∀ (a : Fin 128) (b : Fin 16), acc' (ix2 a b) = prev a (shift o ho b))
    (hA : ∀ p n : Fin 128, n.val < o → View.canon A (ix2 p n) = prev p n + part x0 x1 x3 p n) :
    ∀ p n : Fin 128, n.val < o + 16 →
      View.canon ((⟨Rect.unit (s := S128x128) ![0, o] S128x16.size inb7, P x0' w' lg' acc'⟩ : View.Piece (Elt Ideal) S128x128 .f32) :: A) (ix2 p n)
        = prev p n + part x0 x1 x3 p n := by
  intro p n hn
  by_cases h : o ≤ n.val
  · have hb : n.val - o < 16 := by omega
    have hn' : shift o ho ⟨n.val - o, hb⟩ = n := Fin.ext (by show o + (n.val - o) = n.val; omega)
    have he := slab_emb o ho inb7 p ⟨n.val - o, hb⟩
    rw [hn'] at he
    refine (congrArg (View.canon _) he.symm).trans ((View.canon_cons_emb _ _ A _).trans ?_)
    subst hx
    rw [hP, hacc, hn']
    refine congrArg (prev p n + ·) (Finset.sum_congr rfl fun j _ => ?_)
    rw [hw, hn', show (fun k => lg' (ix3 k (⟨n.val - o, hb⟩ : Fin 16) j)) = fun k => x3 (ix3 k n j) from
      funext fun k => by rw [hl, hn']]
  · have hm := slab_not_mem o inb7 p n (Or.inl (by omega))
    exact (View.canon_cons_of_not_mem (⟨Rect.unit (s := S128x128) ![0, o] S128x16.size inb7, P x0' w' lg' acc'⟩ :
      View.Piece (Elt Ideal) S128x128 .f32) A hm).trans (hA p n (by omega))

/-! ## What the chunk's loads read -/

/-- The input block is loaded whole. -/
theorem rd_x (arg2 : Memref sig .tc .vmem S128x512 .f32) (harg2 : arg2.IsWhole) (x0 : Vec Ideal S128x512 .f32)
    (inb : ∀ a, (![0, 0] : Fin 2 → ℕ) a + S128x512.size a ≤ S128x512.size a) :
    View.readAt (Elt Ideal) arg2.view (Rect.unit (s := S128x512) ![0, 0] S128x512.size inb).toLoadRect (harg2.unread x0) = x0 := by
  rw [View.readAt_eq_ld, harg2.read_unread, View.ld_unit_zero (S := S128x512) hz2]

/-- The chunk's weights are rows `o … o + 15` of the weight block. -/
theorem rd_w (arg3 : Memref sig .tc .vmem S128x512 .f32) (harg3 : arg3.IsWhole) (x1 : Vec Ideal S128x512 .f32) (o : ℕ)
    (ho : o + 16 ≤ 128) (inb3 : ∀ a, (![o, 0] : Fin 2 → ℕ) a + S16x512.size a ≤ S128x512.size a) (b : Fin 16) (j : Fin 512) :
    View.readAt (Elt Ideal) arg3.view (Rect.unit (s := S128x512) ![o, 0] S16x512.size inb3).toLoadRect (harg3.unread x1) (ix2 b j)
      = x1 (ix2 (shift o ho b) j) := by
  rw [View.readAt_eq_ld, harg3.read_unread]
  exact congrArg x1 (funext fun d => Fin.ext (by
    match d with
    | ⟨0, _⟩ => show o + 1 * b.val = o + b.val; omega
    | ⟨1, _⟩ => show 0 + 1 * j.val = j.val; omega))

/-- The chunk's logits are rows `o … o + 15` of each atom's plane of the logit block. -/
theorem rd_l (arg5 : Memref sig .tc .vmem S4x128x512 .f32) (harg5 : arg5.IsWhole) (x3 : Vec Ideal S4x128x512 .f32) (o : ℕ)
    (ho : o + 16 ≤ 128) (inb5 : ∀ a, (![0, o, 0] : Fin 3 → ℕ) a + S4x16x512.size a ≤ S4x128x512.size a)
    (k : Fin 4) (b : Fin 16) (j : Fin 512) :
    View.readAt (Elt Ideal) arg5.view (Rect.unit (s := S4x128x512) ![0, o, 0] S4x16x512.size inb5).toLoadRect (harg5.unread x3) (ix3 k b j)
      = x3 (ix3 k (shift o ho b) j) := by
  rw [View.readAt_eq_ld, harg5.read_unread]
  exact congrArg x3 (funext fun d => Fin.ext (by
    match d with
    | ⟨0, _⟩ => show 0 + 1 * k.val = k.val; omega
    | ⟨1, _⟩ => show o + 1 * b.val = o + b.val; omega
    | ⟨2, _⟩ => show 0 + 1 * j.val = j.val; omega))

/-- The slab's previous entries, when the accumulator came in at `xs0`. -/
theorem rd_acc (arg7 : Memref sig .tc .vmem S128x128 .f32) (harg7 : arg7.IsWhole) (xs0 : Vec Ideal S128x128 .f32) (o : ℕ)
    (ho : o + 16 ≤ 128) (inb7 : ∀ a, (![0, o] : Fin 2 → ℕ) a + S128x16.size a ≤ S128x128.size a) (a : Fin 128) (b : Fin 16) :
    View.readAt (Elt Ideal) arg7.view (Rect.unit (s := S128x128) ![0, o] S128x16.size inb7).toLoadRect (harg7.unread xs0) (ix2 a b)
      = xs0 (ix2 a (shift o ho b)) := by
  rw [View.readAt_eq_ld, harg7.read_unread]
  exact congrArg xs0 (slab_emb o ho inb7 a b)

/-! ## The eight chunks' laws -/

theorem law0 : ChunkLaw (fun x w lg acc => k0_pay5 (k0_pay4 x w lg) acc) :=
  fun x w lg acc a b => Cert.L0Chunks.chunk0_apply x w lg acc a b
theorem law1 : ChunkLaw (fun x w lg acc => k0_pay7 (k0_pay6 x w lg acc)) :=
  fun x w lg acc a b => Cert.L0Chunks.chunk1_apply x w lg acc a b
theorem law2 : ChunkLaw (fun x w lg acc => k0_pay8 x w lg acc) :=
  fun x w lg acc a b => Cert.L0Chunks.chunk2_apply x w lg acc a b
theorem law3 : ChunkLaw (fun x w lg acc => k0_pay9 x w lg acc) :=
  fun x w lg acc a b => Cert.L0Chunks.chunk3_apply x w lg acc a b
theorem law4 : ChunkLaw (fun x w lg acc => k0_pay10 x w lg acc) :=
  fun x w lg acc a b => Cert.L0Chunks.chunk4_apply x w lg acc a b
theorem law5 : ChunkLaw (fun x w lg acc => k0_pay12 x w (k0_pay11 lg) (Scalar.ofBits .f32 0x3F800000#32) acc) :=
  fun x w lg acc a b => Cert.L0Chunks.chunk5_apply x w lg acc a b
theorem law6 : ChunkLaw (fun x w lg acc => k0_pay15 x w (k0_pay13 lg) (k0_pay14 lg) acc) :=
  fun x w lg acc a b => Cert.L0Chunks.chunk6_apply x w lg acc a b
theorem law7 : ChunkLaw (fun x w lg acc => k0_pay1 x w (k0_pay16 lg) (k0_pay17 lg) acc) :=
  fun x w lg acc a b => Cert.L0Chunks.chunk7_apply x w lg acc a b

/-! ## The even points: the stores after the reset -/

/-- After the reset and the chunks on the columns before `o`: those columns hold `0 + part`, the others 0. -/
def InvA (x0 : Vec Ideal S128x512 .f32) (x1 : Vec Ideal S128x512 .f32) (x3 : Vec Ideal S4x128x512 .f32) (o : ℕ)
    (A : List (View.Piece (Elt Ideal) S128x128 .f32)) : Prop :=
  (∀ p n : Fin 128, n.val < o → View.canon A (ix2 p n) = 0 + part x0 x1 x3 p n)
    ∧ (∀ p n : Fin 128, o ≤ n.val → View.canon A (ix2 p n) = 0)

/-- The reset alone: everything is 0. -/
theorem invA_base (x0 : Vec Ideal S128x512 .f32) (x1 : Vec Ideal S128x512 .f32) (x3 : Vec Ideal S4x128x512 .f32)
    (inb : ∀ a, (![0, 0] : Fin 2 → ℕ) a + S128x128.size a ≤ S128x128.size a) :
    InvA x0 x1 x3 0 [(⟨Rect.unit (s := S128x128) ![0, 0] S128x128.size inb, k0_pay3 (F := Ideal)⟩ : View.Piece (Elt Ideal) S128x128 .f32)] :=
  ⟨fun p n h => absurd h (Nat.not_lt_zero _), fun p n _ => by
    rw [View.canon_unit_zero (S := S128x128) hz2]; exact Cert.L0Chunks.k0_pay3_apply _⟩

/-- One more chunk after the reset: its accumulator operand is the slab read back through the earlier stores, which
    left 0 there. -/
theorem stepA (o : ℕ) (ho : o + 16 ≤ 128) (inb7 : ∀ a, (![0, o] : Fin 2 → ℕ) a + S128x16.size a ≤ S128x128.size a)
    (x0 : Vec Ideal S128x512 .f32) (x1 : Vec Ideal S128x512 .f32) (x3 : Vec Ideal S4x128x512 .f32)
    (A : List (View.Piece (Elt Ideal) S128x128 .f32))
    (P : Vec Ideal S128x512 .f32 → Vec Ideal S16x512 .f32 → Vec Ideal S4x16x512 .f32 → Vec Ideal S128x16 .f32
      → FVec Ideal S128x16 .f32) (hP : ChunkLaw P)
    (x0' : Vec Ideal S128x512 .f32) (w' : Vec Ideal S16x512 .f32) (lg' : Vec Ideal S4x16x512 .f32)
    (v : View sig .tc .vmem S128x128 .f32)
    (hx : x0' = x0)
    (hw : ∀ (b : Fin 16) (j : Fin 512), w' (ix2 b j) = x1 (ix2 (shift o ho b) j))
    (hl : ∀ (k : Fin 4) (b : Fin 16) (j : Fin 512), lg' (ix3 k b j) = x3 (ix3 k (shift o ho b) j))
    (h : InvA x0 x1 x3 o A) :
    InvA x0 x1 x3 (o + 16)
      ((⟨Rect.unit (s := S128x128) ![0, o] S128x16.size inb7,
          P x0' w' lg' (v.readCov A (Rect.unit (s := S128x128) ![0, o] S128x16.size inb7).toLoadRect)⟩ :
        View.Piece (Elt Ideal) S128x128 .f32) :: A) := by
  refine ⟨step o ho inb7 x0 x1 x3 (fun _ _ => 0) A P hP x0' w' lg' _ hx hw hl (fun a b => ?_) h.1, fun p n hn => ?_⟩
  · rw [View.readCov_eq_canon']
    show View.canon A ((Rect.unit (s := S128x128) ![0, o] S128x16.size inb7).emb (ix2 a b)) = 0
    rw [slab_emb o ho inb7 a b]
    exact h.2 a (shift o ho b) (Nat.le_add_right _ _)
  · have hm := slab_not_mem o inb7 p n (Or.inr hn)
    exact (View.canon_cons_of_not_mem (⟨Rect.unit (s := S128x128) ![0, o] S128x16.size inb7,
      P x0' w' lg' (v.readCov A (Rect.unit (s := S128x128) ![0, o] S128x16.size inb7).toLoadRect)⟩ :
      View.Piece (Elt Ideal) S128x128 .f32) A hm).trans (h.2 p n (by omega))

/-! ## The odd points' output store -/

/-- The output block's one store: the accumulator read back whole through its stores, plus the bias row. -/
theorem out_piece (v : View sig .tc .vmem S128x128 .f32) (L : List (View.Piece (Elt Ideal) S128x128 .f32))
    (inb inb' : ∀ a, (![0, 0] : Fin 2 → ℕ) a + S128x128.size a ≤ S128x128.size a) (b' : Vec Ideal S1x128 .f32) (p n : Fin 128) :
    View.canon [(⟨Rect.unit (s := S128x128) ![0, 0] S128x128.size inb,
        k0_pay2 (v.readCov L (Rect.unit (s := S128x128) ![0, 0] S128x128.size inb').toLoadRect) b'⟩ :
        View.Piece (Elt Ideal) S128x128 .f32)] (ix2 p n)
      = View.canon L (ix2 p n) + b' (ix2 (0 : Fin 1) n) := by
  rw [View.canon_unit_zero (S := S128x128) hz2, Cert.L0Chunks.k0_pay2_apply, View.readCov_eq_canon']
  refine congrArg (· + b' (ix2 (0 : Fin 1) n)) (congrArg (View.canon L) (funext fun d => Fin.ext (by
    match d with
    | ⟨0, _⟩ => show 0 + 1 * p.val = p.val; omega
    | ⟨1, _⟩ => show 0 + 1 * n.val = n.val; omega)))

/-- The bias row is loaded whole. -/
theorem rd_b (arg4 : Memref sig .tc .vmem S1x128 .f32) (harg4 : arg4.IsWhole) (x2 : Vec Ideal S1x128 .f32)
    (inb : ∀ a, (![0, 0] : Fin 2 → ℕ) a + S1x128.size a ≤ S1x128.size a) :
    View.readAt (Elt Ideal) arg4.view (Rect.unit (s := S1x128) ![0, 0] S1x128.size inb).toLoadRect (harg4.unread x2) = x2 := by
  rw [View.readAt_eq_ld, harg4.read_unread, View.ld_unit_zero (S := S1x128) hz2]

/-! ## The found pieces of the two cases -/

/-- At an odd point the accumulator's eight slab stores leave, at every entry, what came in plus the point's
    contribution: slab by slab from the last store down to the first, each by the chunk's law. -/
theorem accB_canon (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec Ideal S128x512 .f32) (x1 : Vec Ideal S128x512 .f32) (x2 : Vec Ideal S1x128 .f32) (x3 : Vec Ideal S4x128x512 .f32)
    (xs0 : Vec Ideal S128x128 .f32) (p n : Fin 128) :
    View.canon (kernelRun0_B (F := Ideal) c i arg2 harg2 arg3 harg3 arg4 harg4 arg5 harg5 arg6 harg6 arg7 harg7 hc0 hc1 x0 x1 x2 x3 xs0).2.1 (ix2 p n)
      = xs0 (ix2 p n) + part x0 x1 x3 p n := by
  have h0 : 0 + 16 ≤ 128 := by omega
  have h16 : 16 + 16 ≤ 128 := by omega
  have h32 : 32 + 16 ≤ 128 := by omega
  have h48 : 48 + 16 ≤ 128 := by omega
  have h64 : 64 + 16 ≤ 128 := by omega
  have h80 : 80 + 16 ≤ 128 := by omega
  have h96 : 96 + 16 ≤ 128 := by omega
  have h112 : 112 + 16 ≤ 128 := by omega
  unfold kernelRun0_B
  dsimp only
  sl_unfold_words
  refine step 112 h112 _ x0 x1 x3 (fun a b => xs0 (ix2 a b)) _ _ law7 _ _ _ _ (rd_x arg2 harg2 x0 _) (rd_w arg3 harg3 x1 112 h112 _)
    (rd_l arg5 harg5 x3 112 h112 _) (rd_acc arg7 harg7 xs0 112 h112 _) ?_ p n n.isLt
  refine step 96 h96 _ x0 x1 x3 (fun a b => xs0 (ix2 a b)) _ _ law6 _ _ _ _ (rd_x arg2 harg2 x0 _) (rd_w arg3 harg3 x1 96 h96 _)
    (rd_l arg5 harg5 x3 96 h96 _) (rd_acc arg7 harg7 xs0 96 h96 _) ?_
  refine step 80 h80 _ x0 x1 x3 (fun a b => xs0 (ix2 a b)) _ _ law5 _ _ _ _ (rd_x arg2 harg2 x0 _) (rd_w arg3 harg3 x1 80 h80 _)
    (rd_l arg5 harg5 x3 80 h80 _) (rd_acc arg7 harg7 xs0 80 h80 _) ?_
  refine step 64 h64 _ x0 x1 x3 (fun a b => xs0 (ix2 a b)) _ _ law4 _ _ _ _ (rd_x arg2 harg2 x0 _) (rd_w arg3 harg3 x1 64 h64 _)
    (rd_l arg5 harg5 x3 64 h64 _) (rd_acc arg7 harg7 xs0 64 h64 _) ?_
  refine step 48 h48 _ x0 x1 x3 (fun a b => xs0 (ix2 a b)) _ _ law3 _ _ _ _ (rd_x arg2 harg2 x0 _) (rd_w arg3 harg3 x1 48 h48 _)
    (rd_l arg5 harg5 x3 48 h48 _) (rd_acc arg7 harg7 xs0 48 h48 _) ?_
  refine step 32 h32 _ x0 x1 x3 (fun a b => xs0 (ix2 a b)) _ _ law2 _ _ _ _ (rd_x arg2 harg2 x0 _) (rd_w arg3 harg3 x1 32 h32 _)
    (rd_l arg5 harg5 x3 32 h32 _) (rd_acc arg7 harg7 xs0 32 h32 _) ?_
  refine step 16 h16 _ x0 x1 x3 (fun a b => xs0 (ix2 a b)) _ _ law1 _ _ _ _ (rd_x arg2 harg2 x0 _) (rd_w arg3 harg3 x1 16 h16 _)
    (rd_l arg5 harg5 x3 16 h16 _) (rd_acc arg7 harg7 xs0 16 h16 _) ?_
  refine step 0 h0 _ x0 x1 x3 (fun a b => xs0 (ix2 a b)) _ _ law0 _ _ _ _ (rd_x arg2 harg2 x0 _) (rd_w arg3 harg3 x1 0 h0 _)
    (rd_l arg5 harg5 x3 0 h0 _) (rd_acc arg7 harg7 xs0 0 h0 _) ?_
  exact fun p n h => absurd h (Nat.not_lt_zero _)

/-- At an even point the reset and the eight slab stores leave, at every entry, the point's contribution: each
    chunk's accumulator operand is its slab read back through the earlier stores, where the reset's zero still stands. -/
theorem accA_canon (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec Ideal S128x512 .f32) (x1 : Vec Ideal S128x512 .f32) (x2 : Vec Ideal S1x128 .f32) (x3 : Vec Ideal S4x128x512 .f32)
    (p n : Fin 128) :
    View.canon (kernelRun0_A (F := Ideal) c i arg2 harg2 arg3 harg3 arg4 harg4 arg5 harg5 arg6 harg6 arg7 harg7 hc0 hc1 x0 x1 x2 x3).2.1 (ix2 p n) = part x0 x1 x3 p n := by
  have h0 : 0 + 16 ≤ 128 := by omega
  have h16 : 16 + 16 ≤ 128 := by omega
  have h32 : 32 + 16 ≤ 128 := by omega
  have h48 : 48 + 16 ≤ 128 := by omega
  have h64 : 64 + 16 ≤ 128 := by omega
  have h80 : 80 + 16 ≤ 128 := by omega
  have h96 : 96 + 16 ≤ 128 := by omega
  have h112 : 112 + 16 ≤ 128 := by omega
  unfold kernelRun0_A
  dsimp only
  sl_unfold_words
  suffices H : InvA x0 x1 x3 128 _ from (H.1 p n n.isLt).trans (zero_add _)
  refine stepA 112 h112 _ x0 x1 x3 _ _ law7 _ _ _ arg7.view (rd_x arg2 harg2 x0 _) (rd_w arg3 harg3 x1 112 h112 _)
    (rd_l arg5 harg5 x3 112 h112 _) ?_
  refine stepA 96 h96 _ x0 x1 x3 _ _ law6 _ _ _ arg7.view (rd_x arg2 harg2 x0 _) (rd_w arg3 harg3 x1 96 h96 _)
    (rd_l arg5 harg5 x3 96 h96 _) ?_
  refine stepA 80 h80 _ x0 x1 x3 _ _ law5 _ _ _ arg7.view (rd_x arg2 harg2 x0 _) (rd_w arg3 harg3 x1 80 h80 _)
    (rd_l arg5 harg5 x3 80 h80 _) ?_
  refine stepA 64 h64 _ x0 x1 x3 _ _ law4 _ _ _ arg7.view (rd_x arg2 harg2 x0 _) (rd_w arg3 harg3 x1 64 h64 _)
    (rd_l arg5 harg5 x3 64 h64 _) ?_
  refine stepA 48 h48 _ x0 x1 x3 _ _ law3 _ _ _ arg7.view (rd_x arg2 harg2 x0 _) (rd_w arg3 harg3 x1 48 h48 _)
    (rd_l arg5 harg5 x3 48 h48 _) ?_
  refine stepA 32 h32 _ x0 x1 x3 _ _ law2 _ _ _ arg7.view (rd_x arg2 harg2 x0 _) (rd_w arg3 harg3 x1 32 h32 _)
    (rd_l arg5 harg5 x3 32 h32 _) ?_
  refine stepA 16 h16 _ x0 x1 x3 _ _ law1 _ _ _ arg7.view (rd_x arg2 harg2 x0 _) (rd_w arg3 harg3 x1 16 h16 _)
    (rd_l arg5 harg5 x3 16 h16 _) ?_
  refine stepA 0 h0 _ x0 x1 x3 _ _ law0 _ _ _ arg7.view (rd_x arg2 harg2 x0 _) (rd_w arg3 harg3 x1 0 h0 _)
    (rd_l arg5 harg5 x3 0 h0 _) ?_
  exact invA_base x0 x1 x3 _

/-- What an even point leaves in the accumulator, read at an entry. -/
theorem accA (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec Ideal S128x512 .f32) (x1 : Vec Ideal S128x512 .f32) (x2 : Vec Ideal S1x128 .f32) (x3 : Vec Ideal S4x128x512 .f32)
    (p n : Fin 128) :
    sout0_A_0 (F := Ideal) c i arg2 harg2 arg3 harg3 arg4 harg4 arg5 harg5 arg6 harg6 arg7 harg7 hc0 hc1 x0 x1 x2 x3 (ix2 p n) = part x0 x1 x3 p n := by
  unfold sout0_A_0
  rw [View.read_writes_junk_eq_canon]
  exact accA_canon c i arg2 harg2 arg3 harg3 arg4 harg4 arg5 harg5 arg6 harg6 arg7 harg7 hc0 hc1 x0 x1 x2 x3 p n

/-- What an odd point leaves in the accumulator, read at an entry. -/
theorem accB (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec Ideal S128x512 .f32) (x1 : Vec Ideal S128x512 .f32) (x2 : Vec Ideal S1x128 .f32) (x3 : Vec Ideal S4x128x512 .f32)
    (xs0 : Vec Ideal S128x128 .f32) (p n : Fin 128) :
    sout0_B_0 (F := Ideal) c i arg2 harg2 arg3 harg3 arg4 harg4 arg5 harg5 arg6 harg6 arg7 harg7 hc0 hc1 x0 x1 x2 x3 xs0 (ix2 p n) = xs0 (ix2 p n) + part x0 x1 x3 p n := by
  unfold sout0_B_0
  rw [View.read_writes_junk_eq_canon]
  exact accB_canon c i arg2 harg2 arg3 harg3 arg4 harg4 arg5 harg5 arg6 harg6 arg7 harg7 hc0 hc1 x0 x1 x2 x3 xs0 p n

/-- What an odd point leaves in the output block's buffer, read at an entry: the accumulator just stored, read back
    whole, plus the bias row. -/
theorem outB (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec Ideal S128x512 .f32) (x1 : Vec Ideal S128x512 .f32) (x2 : Vec Ideal S1x128 .f32) (x3 : Vec Ideal S4x128x512 .f32)
    (xs0 : Vec Ideal S128x128 .f32) (p n : Fin 128) :
    out0_B_4 (F := Ideal) c i arg2 harg2 arg3 harg3 arg4 harg4 arg5 harg5 arg6 harg6 arg7 harg7 hc0 hc1 x0 x1 x2 x3 xs0 (ix2 p n)
      = (xs0 (ix2 p n) + part x0 x1 x3 p n) + x2 (ix2 (0 : Fin 1) n) := by
  have hacc := accB_canon c i arg2 harg2 arg3 harg3 arg4 harg4 arg5 harg5 arg6 harg6 arg7 harg7 hc0 hc1 x0 x1 x2 x3 xs0 p n
  unfold out0_B_4
  rw [View.read_writes_junk_eq_canon]
  unfold kernelRun0_B at hacc ⊢
  dsimp only at hacc ⊢
  exact (out_piece arg7.view _ _ _ _ p n).trans
    (congrArg₂ (· + ·) hacc (congrFun (rd_b arg4 harg4 x2 _) (ix2 (0 : Fin 1) n)))

/-! ## After an odd point -/

/-- The even point before an odd point. -/
abbrev prevPt (t : Fin cfg0.N) : Fin cfg0.N := ⟨t.val - 1, Nat.lt_of_le_of_lt (Nat.sub_le _ _) t.isLt⟩

/-- The four input windows' blocks at a point, at their literal types. -/
abbrev blkX (V : (c : Dev nD) → (b : Ref sig .tc) → Buf (Elt Ideal) ((c : Thread nD τ).loc b)) (c : Dev nD) (t : Fin cfg0.N) :
    Vec Ideal S128x512 .f32 := iblk0 V c 0 t
abbrev blkW (V : (c : Dev nD) → (b : Ref sig .tc) → Buf (Elt Ideal) ((c : Thread nD τ).loc b)) (c : Dev nD) (t : Fin cfg0.N) :
    Vec Ideal S128x512 .f32 := iblk0 V c 1 t
abbrev blkB (V : (c : Dev nD) → (b : Ref sig .tc) → Buf (Elt Ideal) ((c : Thread nD τ).loc b)) (c : Dev nD) (t : Fin cfg0.N) :
    Vec Ideal S1x128 .f32 := iblk0 V c 2 t
abbrev blkL (V : (c : Dev nD) → (b : Ref sig .tc) → Buf (Elt Ideal) ((c : Thread nD τ).loc b)) (c : Dev nD) (t : Fin cfg0.N) :
    Vec Ideal S4x128x512 .f32 := iblk0 V c 3 t

/-- After an even point the accumulator holds that point's contribution. -/
theorem acc_even (V : (c : Dev nD) → (b : Ref sig .tc) → Buf (Elt Ideal) ((c : Thread nD τ).loc b)) (c : Dev nD)
    (t : Fin cfg0.N) (h : t.val % 2 = 0) (p n : Fin 128) :
    (outsAt0 (F := Ideal) V c t.val t.isLt).2 (ix2 p n) = part (blkX V c t) (blkW V c t) (blkL V c t) p n := by
  rw [outsAt0_A V c t h]
  exact accA c (grid0.coords t) (ms0_0 t) (hs0_0 t) (ms0_1 t) (hs0_1 t) (ms0_2 t) (hs0_2 t) (ms0_3 t) (hs0_3 t) (ms0_4 t) (hs0_4 t) scM0_0 (Memref.isWhole_whole _) (condA0 t h).1 (condA0 t h).2 (iblk0 V c 0 t) (iblk0 V c 1 t) (iblk0 V c 2 t) (iblk0 V c 3 t) p n

/-- After an odd point the output block's buffer holds the contributions of the even point before and of the point
    itself, plus the bias row. -/
theorem out0_odd (V : (c : Dev nD) → (b : Ref sig .tc) → Buf (Elt Ideal) ((c : Thread nD τ).loc b)) (c : Dev nD)
    (t : Fin cfg0.N) (h : t.val % 2 = 1) (p n : Fin 128) :
    (outsAt0 (F := Ideal) V c t.val t.isLt).1 (ix2 p n)
      = (part (blkX V c (prevPt t)) (blkW V c (prevPt t)) (blkL V c (prevPt t)) p n
          + part (blkX V c t) (blkW V c t) (blkL V c t) p n)
        + blkB V c t (ix2 (0 : Fin 1) n) := by
  have h0 : ¬t.val % 2 = 0 := by omega
  have he : (prevPt t).val % 2 = 0 := by show (t.val - 1) % 2 = 0; omega
  rw [outsAt0_B V c t h0]
  refine (outB c (grid0.coords t) (ms0_0 t) (hs0_0 t) (ms0_1 t) (hs0_1 t) (ms0_2 t) (hs0_2 t) (ms0_3 t) (hs0_3 t) (ms0_4 t) (hs0_4 t) scM0_0 (Memref.isWhole_whole _) (condB0 t h0).1 (condB0 t h0).2 (iblk0 V c 0 t) (iblk0 V c 1 t) (iblk0 V c 2 t) (iblk0 V c 3 t)
    (outsAt0 V c (t.val - 1) (Nat.lt_of_le_of_lt (Nat.sub_le _ _) t.isLt)).2 p n).trans ?_
  exact congrArg (fun z => (z + part (blkX V c t) (blkW V c t) (blkL V c t) p n) + blkB V c t (ix2 (0 : Fin 1) n))
    (acc_even V c (prevPt t) he p n)

end Cert.KernelIdeal.HandValue

end
-- ==== Proof.KiR0Value.lean ====
/-
  Region 0 from blocks to the array, over the extended reals: after the sixteen grid points the first layer's
  output array holds layer 0 of the network, evaluated on the arrays as the region finds them.

  Point `t` of the 8 × 2 grid has output-column block `t / 2` and input-column half `t % 2`. Each window's block at a
  point is a rectangle of its array: an element of the block sits, on each axis, at the block index times the block
  size plus its coordinate inside the block. The odd point `t` writes back, at `(p, n)`, the sum of the two halves'
  partial sums plus the bias; read through the windows these are the sums over input columns `0 … 511` and
  `512 … 1023` of one summand, so together the sum over all 1024 input columns, for output column `128 · (t / 2) + n`.
  Column `n` of the output array lies in the block the odd point `2 · (n / 128) + 1` writes back, so the eight odd
  points cover the array.
-/
import proofs.«132863_j44813688767075_2_alg».proof.Proof.KiR0Frame
import proofs.«132863_j44813688767075_2_alg».proof.Proof.KiR0Pieces
import proofs.«132863_j44813688767075_2_alg».proof.Proof.NetSpec
import Idealize.ShloMosaic.Lib.Pipeline.Value
import Idealize.ShloMosaic.Lib.ValueIdx

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

namespace Arr0

/-- The windows' blocks at a point, at their literal vector types. -/
abbrev xblk (V : (c : Dev nD) → (b : Ref sig .tc) → Buf (Elt Ideal) ((c : Thread nD τ).loc b)) (c : Dev nD) (t : Fin cfg0.N) :
    Vec Ideal S128x512 .f32 := iblk0 V c 0 t
abbrev wblk (V : (c : Dev nD) → (b : Ref sig .tc) → Buf (Elt Ideal) ((c : Thread nD τ).loc b)) (c : Dev nD) (t : Fin cfg0.N) :
    Vec Ideal S128x512 .f32 := iblk0 V c 1 t
abbrev bblk (V : (c : Dev nD) → (b : Ref sig .tc) → Buf (Elt Ideal) ((c : Thread nD τ).loc b)) (c : Dev nD) (t : Fin cfg0.N) :
    Vec Ideal S1x128 .f32 := iblk0 V c 2 t
abbrev lblk (V : (c : Dev nD) → (b : Ref sig .tc) → Buf (Elt Ideal) ((c : Thread nD τ).loc b)) (c : Dev nD) (t : Fin cfg0.N) :
    Vec Ideal S4x128x512 .f32 := iblk0 V c 3 t

/-- The arrays as the region finds them, at their literal vector types. -/
abbrev arrX (V : (c : Dev nD) → (b : Ref sig .tc) → Buf (Elt Ideal) ((c : Thread nD τ).loc b)) (c : Dev nD) :
    Vec Ideal S128x1024 .f32 := V c main_arg0
abbrev arrW (V : (c : Dev nD) → (b : Ref sig .tc) → Buf (Elt Ideal) ((c : Thread nD τ).loc b)) (c : Dev nD) :
    Vec Ideal S1024x1024 .f32 := V c main_arg1
abbrev arrB (V : (c : Dev nD) → (b : Ref sig .tc) → Buf (Elt Ideal) ((c : Thread nD τ).loc b)) (c : Dev nD) :
    Vec Ideal S1x1024 .f32 := V c main_v2
abbrev arrL (V : (c : Dev nD) → (b : Ref sig .tc) → Buf (Elt Ideal) ((c : Thread nD τ).loc b)) (c : Dev nD) :
    Vec Ideal S4x1024x1024 .f32 := V c main_v0

/-- One point's partial sum at `(p, n)`, read through the windows' blocks at that point. -/
def part (V : (c : Dev nD) → (b : Ref sig .tc) → Buf (Elt Ideal) ((c : Thread nD τ).loc b)) (c : Dev nD) (s : Fin cfg0.N)
    (p n : Fin 128) : EReal :=
  ∑ j : Fin 512, Ideal.tanh (xblk V c s (ix2 p j)
    * Cert.NetSpec.weff (wblk V c s (ix2 n j)) (fun k => lblk V c s (ix3 k n j)))

/-- What the odd points leave in the output window's buffer: the sum of the two halves' partial sums plus the
bias, each read through the windows' blocks. -/
def OddStmt : Prop :=
  ∀ (V : (c : Dev nD) → (b : Ref sig .tc) → Buf (Elt Ideal) ((c : Thread nD τ).loc b)) (c : Dev nD) (t : Fin cfg0.N)
    (h : t.val % 2 = 1) (p n : Fin 128),
    (Cert.KernelIdeal.Hand.outsAt0 (F := Ideal) V c t.val t.isLt).1 (ix2 p n)
      = (part V c ⟨t.val - 1, by omega⟩ p n + part V c t p n) + bblk V c t (ix2 (0 : Fin 1) n)

variable (V : (c : Dev nD) → (b : Ref sig .tc) → Buf (Elt Ideal) ((c : Thread nD τ).loc b))

/-! ## The windows' block indices, decided over the grid -/

theorem idx_facts : ∀ t : Fin cfg0.N,
    win0_0.index t (0 : Fin 2) = 0 ∧ win0_0.index t (1 : Fin 2) = t.val % 2
    ∧ win0_1.index t (0 : Fin 2) = t.val / 2 ∧ win0_1.index t (1 : Fin 2) = t.val % 2
    ∧ win0_2.index t (0 : Fin 2) = 0 ∧ win0_2.index t (1 : Fin 2) = t.val / 2
    ∧ win0_3.index t (0 : Fin 3) = 0 ∧ win0_3.index t (1 : Fin 3) = t.val / 2 ∧ win0_3.index t (2 : Fin 3) = t.val % 2
    ∧ win0_4.index t (0 : Fin 2) = 0 ∧ win0_4.index t (1 : Fin 2) = t.val / 2 :=
  (by decide +kernel : ∀ t : Fin grid0.N, _)

/-! ## The input windows' blocks, read at an index -/

/-- The input block at a point: all 128 rows, the point's half of the columns. -/
theorem blk0_apply (c : Dev nD) (t : Fin cfg0.N) (p : Fin 128) (j : Fin 512) (i : Fin 1024)
    (hi : i.val = 512 * (t.val % 2) + j.val) :
    (iblk0 V c 0 t : Vec Ideal S128x512 .f32) (ix2 p j) = (V c main_arg0 : Vec Ideal S128x1024 .f32) (ix2 p i) := by
  obtain ⟨e00, e01, -⟩ := idx_facts t
  unfold iblk0
  rw [View.read_apply]
  show V c main_arg0 _ = V c main_arg0 _
  congr 1
  funext a
  apply Fin.ext
  match a with
  | ⟨0, _⟩ => show win0_0.index t (0 : Fin 2) * 128 + 1 * p.val = p.val; rw [e00]; omega
  | ⟨1, _⟩ => show win0_0.index t (1 : Fin 2) * 512 + 1 * j.val = i.val; rw [e01, hi]; omega

/-- The weight block at a point: the point's 128 output rows, its half of the columns. -/
theorem blk1_apply (c : Dev nD) (t : Fin cfg0.N) (n : Fin 128) (j : Fin 512) (o i : Fin 1024)
    (ho : o.val = 128 * (t.val / 2) + n.val) (hi : i.val = 512 * (t.val % 2) + j.val) :
    (iblk0 V c 1 t : Vec Ideal S128x512 .f32) (ix2 n j) = (V c main_arg1 : Vec Ideal S1024x1024 .f32) (ix2 o i) := by
  obtain ⟨-, -, e10, e11, -⟩ := idx_facts t
  unfold iblk0
  rw [View.read_apply]
  show V c main_arg1 _ = V c main_arg1 _
  congr 1
  funext a
  apply Fin.ext
  match a with
  | ⟨0, _⟩ => show win0_1.index t (0 : Fin 2) * 128 + 1 * n.val = o.val; rw [e10, ho]; omega
  | ⟨1, _⟩ => show win0_1.index t (1 : Fin 2) * 512 + 1 * j.val = i.val; rw [e11, hi]; omega

/-- The bias block at a point: the point's 128 output columns of the one row. -/
theorem blk2_apply (c : Dev nD) (t : Fin cfg0.N) (n : Fin 128) (o : Fin 1024)
    (ho : o.val = 128 * (t.val / 2) + n.val) :
    (iblk0 V c 2 t : Vec Ideal S1x128 .f32) (ix2 (0 : Fin 1) n) = (V c main_v2 : Vec Ideal S1x1024 .f32) (ix2 (0 : Fin 1) o) := by
  obtain ⟨-, -, -, -, e20, e21, -⟩ := idx_facts t
  unfold iblk0
  rw [View.read_apply]
  show V c main_v2 _ = V c main_v2 _
  congr 1
  funext a
  apply Fin.ext
  match a with
  | ⟨0, _⟩ => show win0_2.index t (0 : Fin 2) * 1 + 1 * 0 = 0; rw [e20]
  | ⟨1, _⟩ => show win0_2.index t (1 : Fin 2) * 128 + 1 * n.val = o.val; rw [e21, ho]; omega

/-- The logits block at a point: all four atoms, the point's 128 output rows, its half of the columns. -/
theorem blk3_apply (c : Dev nD) (t : Fin cfg0.N) (k : Fin 4) (n : Fin 128) (j : Fin 512) (o i : Fin 1024)
    (ho : o.val = 128 * (t.val / 2) + n.val) (hi : i.val = 512 * (t.val % 2) + j.val) :
    (iblk0 V c 3 t : Vec Ideal S4x128x512 .f32) (ix3 k n j) = (V c main_v0 : Vec Ideal S4x1024x1024 .f32) (ix3 k o i) := by
  obtain ⟨-, -, -, -, -, -, e30, e31, e32, -⟩ := idx_facts t
  unfold iblk0
  rw [View.read_apply]
  show V c main_v0 _ = V c main_v0 _
  congr 1
  funext a
  apply Fin.ext
  match a with
  | ⟨0, _⟩ => show win0_3.index t (0 : Fin 3) * 4 + 1 * k.val = k.val; rw [e30]; omega
  | ⟨1, _⟩ => show win0_3.index t (1 : Fin 3) * 128 + 1 * n.val = o.val; rw [e31, ho]; omega
  | ⟨2, _⟩ => show win0_3.index t (2 : Fin 3) * 512 + 1 * j.val = i.val; rw [e32, hi]; omega

/-! ## The layer on the arrays as the region finds them -/

/-- The summand of layer 0 for input row `p`, output column `o` and input column `i`. -/
def term (c : Dev nD) (p : Fin 128) (o i : Fin 1024) : EReal :=
  Ideal.tanh (arrX V c (ix2 p i) * Cert.NetSpec.weff (arrW V c (ix2 o i)) (fun k => arrL V c (ix3 k o i)))

/-- Layer 0 of the network on the arrays as the region finds them, as contents of the output array. -/
def G0 (c : Dev nD) : S128x1024.Idx → EReal :=
  fun j : S128x1024.Idx => Cert.NetSpec.layer0 (fun p i => (V c main_arg0 : Vec Ideal S128x1024 .f32) (ix2 p i))
    (fun o i => (V c main_arg1 : Vec Ideal S1024x1024 .f32) (ix2 o i))
    (fun o i k => (V c main_v0 : Vec Ideal S4x1024x1024 .f32) (ix3 k o i))
    (fun o => (V c main_v2 : Vec Ideal S1x1024 .f32) (ix2 0 o)) (j 0) (j 1)

theorem G0_apply (c : Dev nD) (p : Fin 128) (o : Fin 1024) :
    G0 V c (ix2 p o) = (∑ i : Fin 1024, term V c p o i) + arrB V c (ix2 (0 : Fin 1) o) := rfl

/-- A sum over the 1024 input columns is the sum over the first 512 plus the sum over the last 512. -/
theorem sum_split (f : Fin 1024 → EReal) :
    ∑ i : Fin 1024, f i
      = (∑ j : Fin 512, f ⟨j.val, by omega⟩) + ∑ j : Fin 512, f ⟨512 + j.val, by omega⟩ :=
  Fin.sum_univ_add (a := 512) (b := 512) f

/-- One point's partial sum, read through the windows: the summands of the point's half of the input columns. -/
theorem part_eq (c : Dev nD) (s : Fin cfg0.N) (p n : Fin 128) (o : Fin 1024) (ho : o.val = 128 * (s.val / 2) + n.val)
    (i : Fin 512 → Fin 1024) (hi : ∀ j, (i j).val = 512 * (s.val % 2) + j.val) :
    part V c s p n = ∑ j : Fin 512, term V c p o (i j) := by
  unfold part term
  refine Finset.sum_congr rfl fun j _ => ?_
  have e0 : xblk V c s (ix2 p j) = arrX V c (ix2 p (i j)) := blk0_apply V c s p j (i j) (hi j)
  have e1 : wblk V c s (ix2 n j) = arrW V c (ix2 o (i j)) := blk1_apply V c s n j o (i j) ho (hi j)
  have e3 : (fun k => lblk V c s (ix3 k n j)) = fun k => arrL V c (ix3 k o (i j)) :=
    funext fun k => blk3_apply V c s k n j o (i j) ho (hi j)
  rw [e0, e1, e3]

/-- What an odd point leaves in the output window's buffer is layer 0 at the point's output columns. -/
theorem odd_value (hodd : OddStmt) (c : Dev nD) (t : Fin cfg0.N) (h : t.val % 2 = 1) (p n : Fin 128) (o : Fin 1024)
    (ho : o.val = 128 * (t.val / 2) + n.val) :
    (outsAt0 (F := Ideal) V c t.val t.isLt).1 (ix2 p n) = G0 V c (ix2 p o) := by
  refine (hodd V c t h p n).trans ?_
  rw [part_eq V c ⟨t.val - 1, by omega⟩ p n o (by show o.val = 128 * ((t.val - 1) / 2) + n.val; omega)
        (fun j => ⟨j.val, by omega⟩) (fun j => by show j.val = 512 * ((t.val - 1) % 2) + j.val; omega),
    part_eq V c t p n o ho (fun j => ⟨512 + j.val, by omega⟩) (fun j => by show 512 + j.val = 512 * (t.val % 2) + j.val; omega),
    show bblk V c t (ix2 (0 : Fin 1) n) = arrB V c (ix2 (0 : Fin 1) o) from blk2_apply V c t n o ho, G0_apply, sum_split]

/-! ## What the odd points write back, the cover, and the array -/

/-- An odd point writes back its block of layer 0. -/
theorem flushed_eq (hodd : OddStmt) (c : Dev nD) (t : Fin cfg0.N) (hf : (cfg0.win 4).flush t = true) :
    (dat0 (F := Ideal) V c).flushed 4 t = ((cfg0.win 4).blk t).view.read (Elt Ideal) (G0 V c) := by
  have h1 : t.val % 2 = 1 := (flush0_4 t).mp hf
  obtain ⟨-, -, -, -, -, -, -, -, -, e40, e41⟩ := idx_facts t
  show (cfg0.win 4).cut (grid0.coords t) ((dat0 (F := Ideal) V c).after 4 t) = _
  rw [after0_4]
  funext y
  have hN : cfg0.N = 16 := N_0
  have hy1 : (y 1).val < 128 := (y 1).isLt
  have ht : t.val < 16 := hN ▸ t.isLt
  show (outsAt0 (F := Ideal) V c t.val t.isLt).1 y = G0 V c (((cfg0.win 4).blk t).view.emb y)
  have hemb : ((cfg0.win 4).blk t).view.emb y = ix2 (y 0) (⟨128 * (t.val / 2) + (y 1).val, by omega⟩ : Fin 1024) := by
    funext a
    apply Fin.ext
    match a with
    | ⟨0, _⟩ => show win0_4.index t (0 : Fin 2) * 128 + 1 * (y 0).val = (y 0).val; rw [e40]; omega
    | ⟨1, _⟩ => show win0_4.index t (1 : Fin 2) * 128 + 1 * (y 1).val = 128 * (t.val / 2) + (y 1).val; rw [e41]; omega
  rw [hemb]
  exact (congrArg (outsAt0 (F := Ideal) V c t.val t.isLt).1 (eq_ix2 (n0 := 128) (n1 := 128) y)).trans
    (odd_value V hodd c t h1 (y 0) (y 1) _ rfl)

/-- An index of the output array is in point `t`'s block iff each coordinate is in the block's range on its axis. -/
theorem mem_blk (t : Fin cfg0.N) (i : S128x1024.Idx) :
    i ∈ ((cfg0.win 4).blk t).view.set
      ↔ ∀ a : Fin 2, win0_4.index t a * S128x128.size a ≤ (i a).val ∧ (i a).val < win0_4.index t a * S128x128.size a + S128x128.size a := by
  show i ∈ ((View.whole main_v3).slice (win0_4.rect t)).set ↔ _
  rw [View.set_slice_whole, Rect.mem_set_unit]
  exact Iff.rfl

/-- Every index of the output array is in the block some odd point writes back. -/
theorem cover (i : S128x1024.Idx) : ∃ t : Fin cfg0.N, (cfg0.win 4).flush t = true ∧ i ∈ ((cfg0.win 4).blk t).view.set := by
  have hN : cfg0.N = 16 := N_0
  have hi0 : (i 0).val < 128 := (i 0).isLt
  have hi1 : (i 1).val < 1024 := (i 1).isLt
  refine ⟨⟨2 * ((i 1).val / 128) + 1, by omega⟩, (flush0_4 _).mpr (by show (2 * ((i 1).val / 128) + 1) % 2 = 1; omega), ?_⟩
  obtain ⟨-, -, -, -, -, -, -, -, -, e40, e41⟩ := idx_facts ⟨2 * ((i 1).val / 128) + 1, by omega⟩
  rw [mem_blk]
  intro a
  match a with
  | ⟨0, _⟩ =>
    show win0_4.index _ (0 : Fin 2) * 128 ≤ (i 0).val ∧ (i 0).val < win0_4.index _ (0 : Fin 2) * 128 + 128
    rw [e40]; omega
  | ⟨1, _⟩ =>
    show win0_4.index _ (1 : Fin 2) * 128 ≤ (i 1).val ∧ (i 1).val < win0_4.index _ (1 : Fin 2) * 128 + 128
    rw [e41]
    show (2 * ((i 1).val / 128) + 1) / 2 * 128 ≤ (i 1).val ∧ (i 1).val < (2 * ((i 1).val / 128) + 1) / 2 * 128 + 128
    omega

end Arr0

/-- The output array after the region, given what the odd points leave: layer 0 of the network. -/
theorem arr0_final_of (V : (c : Dev nD) → (b : Ref sig .tc) → Buf (Elt Ideal) ((c : Thread nD τ).loc b)) (hodd : Arr0.OddStmt)
    (c : Dev nD) :
    (Cert.KernelIdeal.Hand.dat0 (F := Ideal) V c).arrAt 4 cfg0.N
      = fun j : S128x1024.Idx => Cert.NetSpec.layer0 (fun p i => (V c main_arg0 : Vec Ideal S128x1024 .f32) (ix2 p i))
          (fun o i => (V c main_arg1 : Vec Ideal S1024x1024 .f32) (ix2 o i))
          (fun o i k => (V c main_v0 : Vec Ideal S4x1024x1024 .f32) (ix3 k o i))
          (fun o => (V c main_v2 : Vec Ideal S1x1024 .f32) (ix2 0 o)) (j 0) (j 1) :=
  (dat0 (F := Ideal) V c).arrAt_eq_of_cover 4 (Arr0.G0 V c) (Arr0.flushed_eq V hodd c) Arr0.cover

/-- The output array after the region: layer 0 of the network on the arrays as the region finds them. -/
theorem arr0_final (V : (c : Dev nD) → (b : Ref sig .tc) → Buf (Elt Ideal) ((c : Thread nD τ).loc b)) (c : Dev nD) :
    (Cert.KernelIdeal.Hand.dat0 (F := Ideal) V c).arrAt 4 cfg0.N
      = fun j : S128x1024.Idx => Cert.NetSpec.layer0 (fun p i => (V c main_arg0 : Vec Ideal S128x1024 .f32) (ix2 p i))
          (fun o i => (V c main_arg1 : Vec Ideal S1024x1024 .f32) (ix2 o i))
          (fun o i k => (V c main_v0 : Vec Ideal S4x1024x1024 .f32) (ix3 k o i))
          (fun o => (V c main_v2 : Vec Ideal S1x1024 .f32) (ix2 0 o)) (j 0) (j 1) :=
  arr0_final_of V (fun V c t h p n => out0_odd V c t h p n) c

end Cert.KernelIdeal.HandValue

end
-- ==== Proof.KiR1Pieces.lean ====
import proofs.«132863_j44813688767075_2_alg».proof.Proof.KiR1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's region: what the found pieces are, in the payloads' names -/

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- At an even point the accumulator is left at the zero block plus the partial product of the point's blocks: its
    last covering store's payload, whose accumulator operand is the zero block read back. -/
theorem sout1_A (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i)
    (x0 : Vec F S128x512 .f32) (x1 : Vec F S128x512 .f32) (x2 : Vec F S1x128 .f32) (x3 : Vec F S4x128x512 .f32) :
    sout1_A_0 c i arg2 harg2 arg3 harg3 arg4 harg4 arg5 harg5 arg6 harg6 arg7 harg7 hc0 hc1 x0 x1 x2 x3 = k1_pay1 (k1_pay4 x1 x3 x0 (k1_pay3 (F := F))) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S128x128) hz1_2, View.readCov_unit_zero (S := S128x128) _ hz1_2]
  simp only [View.readAt_eq_ld, harg2.read_unread, harg3.read_unread, harg5.read_unread,
    View.ld_unit_zero (S := S128x512) hz1_2, View.ld_unit_zero (S := S4x128x512) hz1_3]

/-- At an odd point the accumulator is left at what the point before left plus the partial product of the point's
    blocks: its one covering store's payload. -/
theorem sout1_B (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) :
    sout1_B_0 c i arg2 harg2 arg3 harg3 arg4 harg4 arg5 harg5 arg6 harg6 arg7 harg7 hc0 hc1 x0 x1 x2 x3 xs0 = k1_pay1 (k1_pay4 x1 x3 x0 xs0) := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  sl_unfold_words
  rw [View.canon_unit_zero (S := S128x128) hz1_2]
  simp only [View.readAt_eq_ld, harg2.read_unread, harg3.read_unread, harg5.read_unread, harg7.read_unread,
    View.ld_unit_zero (S := S128x512) hz1_2, View.ld_unit_zero (S := S4x128x512) hz1_3, View.ld_unit_zero (S := S128x128) hz1_2]

/-- At an odd point the output block is left at the accumulator just stored plus the bias row: its one covering
    store's payload, whose accumulator operand is that store read back. -/
theorem out1_B (c : Dev nD) (i : grid1.Coords) (arg2 : Memref sig .tc .vmem S128x512 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S4x128x512 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i)
    (x0 : Vec F S128x512 .f32) (x1 : Vec F S128x512 .f32) (x2 : Vec F S1x128 .f32) (x3 : Vec F S4x128x512 .f32) (xs0 : Vec F S128x128 .f32) :
    out1_B_4 c i arg2 harg2 arg3 harg3 arg4 harg4 arg5 harg5 arg6 harg6 arg7 harg7 hc0 hc1 x0 x1 x2 x3 xs0 = k1_pay2 (k1_pay1 (k1_pay4 x1 x3 x0 xs0)) x2 := by
  unfold out1_B_4
  rw [View.read_writes_eq_canon _ _ _ (cover1_B_4 c i arg2 harg2 arg3 harg3 arg4 harg4 arg5 harg5 arg6 harg6 arg7 harg7 hc0 hc1 x0 x1 x2 x3 xs0)]
  unfold kernelRun1_B
  dsimp only
  sl_unfold_words
  rw [View.canon_unit_zero (S := S128x128) hz1_2, View.readCov_unit_zero (S := S128x128) _ hz1_2]
  simp only [View.readAt_eq_ld, harg2.read_unread, harg3.read_unread, harg4.read_unread, harg5.read_unread, harg7.read_unread,
    View.ld_unit_zero (S := S128x512) hz1_2, View.ld_unit_zero (S := S4x128x512) hz1_3, View.ld_unit_zero (S := S128x128) hz1_2,
    View.ld_unit_zero (S := S1x128) hz1_2]

/-- After an even point the accumulator holds the zero block plus the first partial product. -/
theorem outsAt1_even (c : Dev nD) (t : Fin cfg1.N) (h : t.val % 2 = 0) :
    (outsAt1 V c t.val t.isLt).2
      = k1_pay1 (k1_pay4 (iblk1 V c 1 t) (iblk1 V c 3 t) (iblk1 V c 0 t) (k1_pay3 (F := F))) := by
  rw [outsAt1_A V c t h]
  exact sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) (c1A_0 t h) (c1A_1 t h) (iblk1 V c 0 t) (iblk1 V c 1 t) (iblk1 V c 2 t) (iblk1 V c 3 t)

/-- After an odd point the accumulator holds what the point before left plus the second partial product, and the
    output block's buffer that sum plus the bias row. -/
theorem outsAt1_odd (c : Dev nD) (t : Fin cfg1.N) (h : t.val % 2 = 1) :
    outsAt1 V c t.val t.isLt
      = (k1_pay2 (k1_pay1 (k1_pay4 (iblk1 V c 1 t) (iblk1 V c 3 t) (iblk1 V c 0 t) (outsAt1 V c (t.val - 1) (Nat.lt_of_le_of_lt (Nat.sub_le _ _) t.isLt)).2)) (iblk1 V c 2 t),
         k1_pay1 (k1_pay4 (iblk1 V c 1 t) (iblk1 V c 3 t) (iblk1 V c 0 t) (outsAt1 V c (t.val - 1) (Nat.lt_of_le_of_lt (Nat.sub_le _ _) t.isLt)).2)) := by
  have h0 : ¬t.val % 2 = 0 := by omega
  rw [outsAt1_B V c t h0]
  exact Prod.ext
    (out1_B c (grid1.coords t) (ms1_0 t) (hs1_0 t) (ms1_1 t) (hs1_1 t) (ms1_2 t) (hs1_2 t) (ms1_3 t) (hs1_3 t) (ms1_4 t) (hs1_4 t) scM1_0 (Memref.isWhole_whole _) (c1B_0 t h0) (c1B_1 t h0) (iblk1 V c 0 t) (iblk1 V c 1 t) (iblk1 V c 2 t) (iblk1 V c 3 t) (outsAt1 V c (t.val - 1) (Nat.lt_of_le_of_lt (Nat.sub_le _ _) t.isLt)).2)
    (sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) (c1B_0 t h0) (c1B_1 t h0) (iblk1 V c 0 t) (iblk1 V c 1 t) (iblk1 V c 2 t) (iblk1 V c 3 t) (outsAt1 V c (t.val - 1) (Nat.lt_of_le_of_lt (Nat.sub_le _ _) t.isLt)).2)

end Cert.KernelIdeal.Hand

end
-- ==== Proof.LibDotNT.lean ====
/-
  A product of an M×K matrix with the TRANSPOSE of an N×K matrix, read at an entry.

  With the contraction taken over the last axis of both operands, entry (p, q) of the result is the sum over k of
  l (p, k) · r (q, k). Over the extended reals, with exact operations, this holds of the matrix unit's product into a
  zero accumulator and of the host's general dot product alike, for all extents M, K, N: there is no rounding and no
  order of summation left in either.
-/
import Idealize.ShloMosaic.PureOps.Ideal.Laws
import Idealize.ShloMosaic.Lib.ValueIdx

open scoped BigOperators

noncomputable section

namespace Cert.Lib.DotNT

open Idealize.ShloMosaic Idealize.ShloMosaic.ValueIdx

variable {M K N : Nat}

/-- The left operand is read at the result's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and at the contraction position; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand at the result's column, as ITS row, … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and at the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the one-axis contraction shape, as a sum over `Fin K` of the operands at (p, k) and (q, k). -/
theorem sum_contr {φ₁ φ₂ : FTy} (l : FVec Ideal (⟨2, ![M, K]⟩ : Shape) φ₁) (r : FVec Ideal (⟨2, ![N, K]⟩ : Shape) φ₂)
    (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- The matrix unit's product into a zero accumulator, at entry (p, q). -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply _ prec l r (ix2 p q)).trans (sum_contr l r p q)

/-- The host's general dot product, at entry (p, q). -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply _ prec sched l r (ix2 p q)).trans (sum_contr l r p q)

end Cert.Lib.DotNT

end
-- ==== Proof.L1Payloads.lean ====
/-
  The layer-1 kernel's stored values, read at an index over the extended reals.

  With `w` the [128, 512] block of weights (output rows by inputs), `lg` its [4, 128, 512] atom logits, `h` the
  [128, 512] block of hidden activations and `acc` the [128, 128] accumulator, the value stored into the
  accumulator at `(p, q)` is

      acc (p, q) + Σ_j h (p, j) · weff (w (q, j)) (lg (·, q, j))

  with `weff` the softmax-weighted combination of the atoms: the softmax over the leading axis is the shifted one
  (the largest of the four logits subtracted, the exponentials divided by their sum); the multiplication of the
  logits by one and the maximum against minus infinity change nothing; the narrowing of both factors to sixteen
  bits is the identity on the extended reals; and the product of the [128, 512] block of activations with the
  transpose of the [128, 512] block of effective weights into a zero accumulator is, at `(p, q)`, the sum over the
  512 shared inputs of the products. The finalisation adds the bias row to the accumulator, and the reset stores zero.
-/
import proofs.«132863_j44813688767075_2_alg».proof.Proof.Gen.KernelIdeal.Skeleton
import proofs.«132863_j44813688767075_2_alg».proof.Proof.NetSpec
import proofs.«132863_j44813688767075_2_alg».proof.Proof.LibAtomAxisReads
import proofs.«132863_j44813688767075_2_alg».proof.Proof.LibDotNT
import Idealize.ShloMosaic.Lib.ValueIdx
import Idealize.ShloMosaic.Lib.Pipeline.Value
import Idealize.ShloMosaic.Lib.ValueLayout
import Idealize.ShloMosaic.PureOps.Ideal.Laws

open scoped BigOperators

namespace Cert.L1Payloads

open Cert.KernelIdeal Cert.KernelIdeal.Gen Idealize.ShloMosaic Idealize.ShloMosaic.ValueIdx Cert.L0ChunkLaws

/-- The layer's contraction is the product of an M×K matrix with the transpose of an N×K matrix. -/
theorem dot_eq : dot_S128x512_S128x512_S128x128_1_1_0_0_n_n = DotDims.transposedRhs 128 512 128 := rfl

/-- The value stored into the accumulator at `(p, q)`: the accumulator's previous entry plus the sum over the 512
inputs of the products of the activations' row `p` with the effective weights of output row `q`. -/
theorem k1_pay4_apply (v3 : Vec Ideal S128x512 .f32) (v4 : Vec Ideal S4x128x512 .f32) (v32 : Vec Ideal S128x512 .f32)
    (v37 : Vec Ideal S128x128 .f32) (p : Fin 128) (q : Fin 128) :
    k1_pay4 v3 v4 v32 v37 (ix2 p q)
      = v37 (ix2 p q)
        + ∑ j : Fin 512, v32 (ix2 p j) * Cert.NetSpec.weff (v3 (ix2 q j)) (fun k => v4 (ix3 k q j)) := by
  unfold k1_pay4
  dsimp only
  rw [addf_apply, dot_eq]
  refine congrArg (v37 (ix2 p q) + ·) ?_
  refine (Cert.Lib.DotNT.matmul_zero_apply (M := 128) (K := 512) (N := 128) none _ _ p q).trans ?_
  refine Finset.sum_congr rfl fun j _ => ?_
  simp only [truncf_apply, shapeCast_self, addf_apply, mulf_apply, subf_apply, divf_apply, maximumf_apply, exp_apply, tanh_apply,
    sin_apply, broadcast_apply, sum_axis0_fin4 (b := 128) (c := 512), max_axis0_fin4 (b := 128) (c := 512),
    broadcastTo_1bc_abc_apply (a := 4) (b := 128) (c := 512),
    shapeCast_ab_1ab_apply (a := 128) (b := 512), shapeCast_1ab_ab_apply (a := 128) (b := 512),
    slab_apply (n0 := 4) (n1 := 128) (n2 := 512) 0 _ _ _ _ _ (0 : Fin 4) rfl,
    slab_apply (n0 := 4) (n1 := 128) (n2 := 512) 2 _ _ _ _ _ (2 : Fin 4) rfl,
    slab_apply (n0 := 4) (n1 := 128) (n2 := 512) 3 _ _ _ _ _ (3 : Fin 4) rfl,
    scalar_ofBits, Ideal.ofBits_one_f32, ofBits_neg_inf_f32, mul_one, bot_sup_eq]
  rfl

/-- The store into the accumulator writes the value as it is. -/
theorem k1_pay1_eq (v38 : FVec Ideal S128x128 .f32) : k1_pay1 v38 = v38 := by
  unfold k1_pay1
  simp only [shapeCast_self]

/-- The finalisation: the accumulator plus the bias row, the row repeated down the 128 rows. -/
theorem k1_pay2_apply (v45 : Vec Ideal S128x128 .f32) (v46 : Vec Ideal S1x128 .f32) (p : Fin 128) (q : Fin 128) :
    k1_pay2 v45 v46 (ix2 p q) = v45 (ix2 p q) + v46 (ix2 (0 : Fin 1) q) := by
  unfold k1_pay2
  simp only [shapeCast_self, addf_apply, broadcastTo_1b_ab_apply (a := 128) (b := 128)]

/-- The reset: the accumulator is set to zero everywhere. -/
theorem k1_pay3_apply (i : S128x128.Idx) : k1_pay3 (F := Ideal) i = 0 := by
  unfold k1_pay3
  simp only [shapeCast_self, broadcast_apply, scalar_ofBits, Ideal.ofBits_zero_f32]

end Cert.L1Payloads
-- ==== Proof.KiR1Value.lean ====
/-
  The second layer's region, read at the extended reals: what its write-backs leave in the result array.

  The grid point `t = 2·o + i` handles the 128 output columns of block `o` and the 512 inputs of half `i`. Its blocks
  are restrictions of the arrays the region finds: the activations' columns `512·i …`, the weights' rows `128·o …` and
  columns `512·i …`, the logits likewise, the bias' entries `128·o …`. At the even point the accumulator is set to the
  first half's partial products, at the odd point the second half's are added and the sum plus the bias is stored and
  written back to columns `128·o …` of the result. A sum over the 1024 inputs is the sum over the first 512 plus the sum
  over the last 512, so each written block is the layer's function of the arrays, and the four odd points' blocks tile
  the result.
-/
import proofs.«132863_j44813688767075_2_alg».proof.Proof.KiR1Pieces
import proofs.«132863_j44813688767075_2_alg».proof.Proof.L1Payloads
import Idealize.ShloMosaic.Lib.Pipeline.Value
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.HandValue1

open Cert.KernelIdeal Cert.KernelIdeal.Gen Cert.KernelIdeal.Hand Cert.NetSpec Cert.L1Payloads
open Idealize.ShloMosaic.ValueIdx

variable (V : (c : Dev nD) → (b : Ref sig .tc) → Buf (Elt Ideal) ((c : Thread nD τ).loc b))

/-! ## The blocks as restrictions of the arrays -/

/-- The printed index maps, decided over the grid: with `t = 2·o + i` the activations' block is `(0, i)`, the weights'
    `(o, i)`, the bias' `(0, o)`, the logits' `(0, o, i)`, the result's `(0, o)`. -/
theorem idx1 : ∀ t : Fin cfg1.N,
    win1_0.index t (0 : Fin 2) = 0 ∧ win1_0.index t (1 : Fin 2) = t.val % 2
    ∧ win1_1.index t (0 : Fin 2) = t.val / 2 ∧ win1_1.index t (1 : Fin 2) = t.val % 2
    ∧ win1_2.index t (0 : Fin 2) = 0 ∧ win1_2.index t (1 : Fin 2) = t.val / 2
    ∧ win1_3.index t (0 : Fin 3) = 0 ∧ win1_3.index t (1 : Fin 3) = t.val / 2 ∧ win1_3.index t (2 : Fin 3) = t.val % 2
    ∧ win1_4.index t (0 : Fin 2) = 0 ∧ win1_4.index t (1 : Fin 2) = t.val / 2 :=
  (by decide +kernel : ∀ t : Fin grid1.N, _)

/-- The activations' block at point `t` is columns `512·(t mod 2) …` of the hidden array. -/
theorem blk0_apply (c : Dev nD) (t : Fin cfg1.N) (x : S128x512.Idx) (k : S128x1024.Idx)
    (hk0 : (k 0).val = (x 0).val) (hk1 : (k 1).val = t.val % 2 * 512 + (x 1).val) :
    (iblk1 V c 0 t : Vec Ideal S128x512 .f32) x = (V c main_v3 : Vec Ideal S128x1024 .f32) k := by
  obtain ⟨e0, e1, -⟩ := idx1 t
  unfold iblk1
  rw [View.read_apply]
  show V c main_v3 _ = V c main_v3 _
  congr 1
  funext a
  apply Fin.ext
  match a with
  | ⟨0, _⟩ => show win1_0.index t 0 * 128 + 1 * (x 0).val = (k 0).val; rw [e0, hk0]; omega
  | ⟨1, _⟩ => show win1_0.index t 1 * 512 + 1 * (x 1).val = (k 1).val; rw [e1, hk1]; omega

/-- The weights' block at point `t` is rows `128·(t div 2) …`, columns `512·(t mod 2) …` of the weight array. -/
theorem blk1_apply (c : Dev nD) (t : Fin cfg1.N) (x : S128x512.Idx) (k : S512x1024.Idx)
    (hk0 : (k 0).val = t.val / 2 * 128 + (x 0).val) (hk1 : (k 1).val = t.val % 2 * 512 + (x 1).val) :
    (iblk1 V c 1 t : Vec Ideal S128x512 .f32) x = (V c main_arg4 : Vec Ideal S512x1024 .f32) k := by
  obtain ⟨-, -, e0, e1, -⟩ := idx1 t
  unfold iblk1
  rw [View.read_apply]
  show V c main_arg4 _ = V c main_arg4 _
  congr 1
  funext a
  apply Fin.ext
  match a with
  | ⟨0, _⟩ => show win1_1.index t 0 * 128 + 1 * (x 0).val = (k 0).val; rw [e0, hk0]; omega
  | ⟨1, _⟩ => show win1_1.index t 1 * 512 + 1 * (x 1).val = (k 1).val; rw [e1, hk1]; omega

/-- The bias' block at point `t` is entries `128·(t div 2) …` of the bias row. -/
theorem blk2_apply (c : Dev nD) (t : Fin cfg1.N) (x : S1x128.Idx) (k : S1x512.Idx)
    (hk1 : (k 1).val = t.val / 2 * 128 + (x 1).val) :
    (iblk1 V c 2 t : Vec Ideal S1x128 .f32) x = (V c main_v4 : Vec Ideal S1x512 .f32) k := by
  obtain ⟨-, -, -, -, e0, e1, -⟩ := idx1 t
  unfold iblk1
  rw [View.read_apply]
  show V c main_v4 _ = V c main_v4 _
  congr 1
  funext a
  apply Fin.ext
  match a with
  | ⟨0, _⟩ => show win1_2.index t 0 * 1 + 1 * (x 0).val = (k 0).val; rw [e0]; have h1 : (x 0).val < 1 := (x 0).isLt; have h2 : (k 0).val < 1 := (k 0).isLt; omega
  | ⟨1, _⟩ => show win1_2.index t 1 * 128 + 1 * (x 1).val = (k 1).val; rw [e1, hk1]; omega

/-- The logits' block at point `t` is rows `128·(t div 2) …`, columns `512·(t mod 2) …` of the four atoms' logits. -/
theorem blk3_apply (c : Dev nD) (t : Fin cfg1.N) (x : S4x128x512.Idx) (k : S4x512x1024.Idx)
    (hk0 : (k 0).val = (x 0).val) (hk1 : (k 1).val = t.val / 2 * 128 + (x 1).val) (hk2 : (k 2).val = t.val % 2 * 512 + (x 2).val) :
    (iblk1 V c 3 t : Vec Ideal S4x128x512 .f32) x = (V c main_v1 : Vec Ideal S4x512x1024 .f32) k := by
  obtain ⟨-, -, -, -, -, -, e0, e1, e2, -⟩ := idx1 t
  unfold iblk1
  rw [View.read_apply]
  show V c main_v1 _ = V c main_v1 _
  congr 1
  funext a
  apply Fin.ext
  match a with
  | ⟨0, _⟩ => show win1_3.index t 0 * 4 + 1 * (x 0).val = (k 0).val; rw [e0, hk0]; omega
  | ⟨1, _⟩ => show win1_3.index t 1 * 128 + 1 * (x 1).val = (k 1).val; rw [e1, hk1]; omega
  | ⟨2, _⟩ => show win1_3.index t 2 * 512 + 1 * (x 2).val = (k 2).val; rw [e2, hk2]; omega

/-! ## The arrays the region finds, as the layer's arguments -/

/-- The hidden activations, the weights, the atoms' logits and the bias of the layer, read off the arrays. -/
abbrev hA (c : Dev nD) : Fin 128 → Fin 1024 → EReal := fun p i => (V c main_v3 : Vec Ideal S128x1024 .f32) (ix2 p i)
abbrev wA (c : Dev nD) : Fin 512 → Fin 1024 → EReal := fun o i => (V c main_arg4 : Vec Ideal S512x1024 .f32) (ix2 o i)
abbrev lgA (c : Dev nD) : Fin 512 → Fin 1024 → Fin 4 → EReal := fun o i k => (V c main_v1 : Vec Ideal S4x512x1024 .f32) (ix3 k o i)
abbrev bA (c : Dev nD) : Fin 512 → EReal := fun o => (V c main_v4 : Vec Ideal S1x512 .f32) (ix2 (0 : Fin 1) o)

/-- Input `j` of half `hf` among the 1024 inputs. -/
abbrev col (hf : Fin 2) (j : Fin 512) : Fin 1024 := ⟨hf.val * 512 + j.val, by have h1 := hf.isLt; have h2 := j.isLt; omega⟩

/-- The partial product of row `p` of the activations with the effective weights of output `o` over one half of the
    inputs. -/
def half (c : Dev nD) (p : Fin 128) (o : Fin 512) (hf : Fin 2) : EReal :=
  ∑ j : Fin 512, hA V c p (col hf j) * weff (wA V c o (col hf j)) (lgA V c o (col hf j))

/-- A sum over the 1024 inputs is the sum over the first 512 plus the sum over the last 512. -/
theorem sum_halves (f : Fin 1024 → EReal) :
    ∑ i : Fin 1024, f i = (∑ j : Fin 512, f (col 0 j)) + ∑ j : Fin 512, f (col 1 j) := by
  rw [show (∑ i : Fin 1024, f i) = ∑ i : Fin (512 + 512), f i from rfl, Fin.sum_univ_add]
  congr 1 <;> refine Finset.sum_congr rfl fun j _ => congrArg f (Fin.ext ?_)

/-- The layer at `(p, o)` is the two halves' partial products added, plus the bias. -/
theorem layer1_halves (c : Dev nD) (p : Fin 128) (o : Fin 512) :
    layer1 (hA V c) (wA V c) (lgA V c) (bA V c) p o = (half V c p o 0 + half V c p o 1) + bA V c o := by
  unfold layer1 half
  rw [sum_halves]

/-- The point's four input blocks, at their literal types. -/
abbrev B0 (c : Dev nD) (t : Fin cfg1.N) : Vec Ideal S128x512 .f32 := iblk1 V c 0 t
abbrev B1 (c : Dev nD) (t : Fin cfg1.N) : Vec Ideal S128x512 .f32 := iblk1 V c 1 t
abbrev B2 (c : Dev nD) (t : Fin cfg1.N) : Vec Ideal S1x128 .f32 := iblk1 V c 2 t
abbrev B3 (c : Dev nD) (t : Fin cfg1.N) : Vec Ideal S4x128x512 .f32 := iblk1 V c 3 t

/-- The partial product the body adds at point `t`, over the point's blocks, is that of the arrays' half `t mod 2` at
    output `128·(t div 2) + n`. -/
theorem part_at (c : Dev nD) (t : Fin cfg1.N) (p n : Fin 128) (o : Fin 512) (hf : Fin 2)
    (ho : o.val = t.val / 2 * 128 + n.val) (hh : hf.val = t.val % 2) :
    (∑ j : Fin 512, B0 V c t (ix2 p j) * weff (B1 V c t (ix2 n j)) (fun k => B3 V c t (ix3 k n j)))
      = half V c p o hf := by
  unfold half
  refine Finset.sum_congr rfl fun j _ => ?_
  have e0 : B0 V c t (ix2 p j) = hA V c p (col hf j) :=
    blk0_apply V c t (ix2 p j) (ix2 p (col hf j)) rfl (by show hf.val * 512 + j.val = t.val % 2 * 512 + j.val; rw [hh])
  have e1 : B1 V c t (ix2 n j) = wA V c o (col hf j) :=
    blk1_apply V c t (ix2 n j) (ix2 o (col hf j)) ho (by show hf.val * 512 + j.val = t.val % 2 * 512 + j.val; rw [hh])
  have e3 : (fun k => B3 V c t (ix3 k n j)) = lgA V c o (col hf j) := funext fun k =>
    blk3_apply V c t (ix3 k n j) (ix3 k o (col hf j)) rfl ho (by show hf.val * 512 + j.val = t.val % 2 * 512 + j.val; rw [hh])
  rw [e0, e1, e3]

/-! ## What the points leave, in the arrays' terms -/

/-- After an even point the accumulator holds, at `(p, n)`, the first half's partial product for output
    `128·(t div 2) + n`. -/
theorem acc_even (c : Dev nD) (m : ℕ) (hm : m < cfg1.N) (h : m % 2 = 0) (p n : Fin 128) (o : Fin 512)
    (ho : o.val = m / 2 * 128 + n.val) :
    (outsAt1 V c m hm).2 (ix2 p n) = half V c p o 0 := by
  refine (congrFun (outsAt1_even V c ⟨m, hm⟩ h) (ix2 p n)).trans ?_
  refine (congrFun (k1_pay1_eq _) (ix2 p n)).trans ?_
  refine (k1_pay4_apply (B1 V c ⟨m, hm⟩) (B3 V c ⟨m, hm⟩) (B0 V c ⟨m, hm⟩) (k1_pay3 (F := Ideal)) p n).trans ?_
  rw [k1_pay3_apply, zero_add]
  exact part_at V c ⟨m, hm⟩ p n o 0 ho h.symm

/-- After an odd point the output block's buffer holds, at `(p, n)`, both halves' partial products added, plus the bias,
    for output `128·(t div 2) + n`. -/
theorem out_odd (c : Dev nD) (t : Fin cfg1.N) (h : t.val % 2 = 1) (p n : Fin 128) (o : Fin 512)
    (ho : o.val = t.val / 2 * 128 + n.val) :
    (outsAt1 V c t.val t.isLt).1 (ix2 p n) = (half V c p o 0 + half V c p o 1) + bA V c o := by
  have hprev : (outsAt1 V c (t.val - 1) (Nat.lt_of_le_of_lt (Nat.sub_le _ _) t.isLt)).2 (ix2 p n) = half V c p o 0 :=
    acc_even V c (t.val - 1) _ (by omega) p n o (by rw [ho]; congr 2; omega)
  rw [outsAt1_odd V c t h]
  refine (k1_pay2_apply _ (B2 V c t) p n).trans ?_
  rw [k1_pay1_eq]
  refine congr (congrArg HAdd.hAdd ?_) ?_
  · refine (k1_pay4_apply (B1 V c t) (B3 V c t) (B0 V c t) _ p n).trans ?_
    rw [hprev, part_at V c t p n o 1 ho h.symm]
  · exact blk2_apply V c t (ix2 (0 : Fin 1) n) (ix2 (0 : Fin 1) o) ho

/-! ## From the blocks to the array -/

/-- The layer as one function of the arrays the region finds, index by index. -/
abbrev G (c : Dev nD) : S128x512.Idx → EReal :=
  fun j => layer1 (hA V c) (wA V c) (lgA V c) (bA V c) (j 0) (j 1)

/-- What an odd point writes back is its block of the layer's function of the arrays. -/
theorem flushed_eq (c : Dev nD) (t : Fin cfg1.N) (hf : (cfg1.win 4).flush t = true) :
    (dat1 V c).flushed 4 t = ((cfg1.win 4).blk t).view.read (Elt Ideal) (G V c) := by
  have h1 : t.val % 2 = 1 := (flush1_4 t).mp hf
  have hN : t.val < 8 := lt_of_lt_of_eq t.isLt N_1
  show (cfg1.win 4).cut (grid1.coords t) ((dat1 V c).after 4 t) = _
  rw [after1_4]
  funext y
  rw [View.read_apply]
  obtain ⟨p, n, rfl⟩ : ∃ (p : Fin 128) (n : Fin 128), y = ix2 p n := ⟨y 0, y 1, eq_ix2 y⟩
  obtain ⟨-, -, -, -, -, -, -, -, -, e0, e1⟩ := idx1 t
  have hemb : ((cfg1.win 4).blk t).view.emb (ix2 p n)
      = (ix2 p (⟨t.val / 2 * 128 + n.val, by have := n.isLt; omega⟩ : Fin 512) : S128x512.Idx) := by
    funext a
    apply Fin.ext
    match a with
    | ⟨0, _⟩ => show win1_4.index t 0 * 128 + 1 * p.val = p.val; rw [e0]; omega
    | ⟨1, _⟩ => show win1_4.index t 1 * 128 + 1 * n.val = t.val / 2 * 128 + n.val; rw [e1]; omega
  rw [hemb]
  show (outsAt1 V c t.val t.isLt).1 (ix2 p n) = layer1 (hA V c) (wA V c) (lgA V c) (bA V c) p _
  rw [layer1_halves]
  exact out_odd V c t h1 p n _ rfl

/-- An index of the result is in point `t`'s block iff each coordinate is in the block's range on its axis. -/
theorem mem_blk4 (t : Fin cfg1.N) (i : S128x512.Idx) :
    i ∈ ((cfg1.win 4).blk t).view.set ↔ ∀ a : Fin 2, win1_4.index t a * S128x128.size a ≤ (i a).val ∧ (i a).val < win1_4.index t a * S128x128.size a + S128x128.size a := by
  show i ∈ ((View.whole main_v5).slice (win1_4.rect t)).set ↔ _
  rw [View.set_slice_whole, Rect.mem_set_unit]
  exact Iff.rfl

/-- Every entry of the result is written back by some odd point: column `n` by point `2·(n div 128) + 1`. -/
theorem cover (i : S128x512.Idx) : ∃ t : Fin cfg1.N, (cfg1.win 4).flush t = true ∧ i ∈ ((cfg1.win 4).blk t).view.set := by
  have hi0 : (i 0).val < 128 := (i 0).isLt
  have hi1 : (i 1).val < 512 := (i 1).isLt
  have hN : cfg1.N = 8 := N_1
  refine ⟨⟨2 * ((i 1).val / 128) + 1, by omega⟩, (flush1_4 _).mpr (by show (2 * ((i 1).val / 128) + 1) % 2 = 1; omega), ?_⟩
  rw [mem_blk4]
  obtain ⟨-, -, -, -, -, -, -, -, -, e0, e1⟩ := idx1 ⟨2 * ((i 1).val / 128) + 1, by omega⟩
  intro a
  match a with
  | ⟨0, _⟩ =>
    show win1_4.index _ 0 * 128 ≤ (i 0).val ∧ (i 0).val < win1_4.index _ 0 * 128 + 128
    rw [e0]; omega
  | ⟨1, _⟩ =>
    show win1_4.index _ 1 * 128 ≤ (i 1).val ∧ (i 1).val < win1_4.index _ 1 * 128 + 128
    rw [e1]
    show (2 * ((i 1).val / 128) + 1) / 2 * 128 ≤ (i 1).val ∧ (i 1).val < (2 * ((i 1).val / 128) + 1) / 2 * 128 + 128
    omega

/-- THE RESULT ARRAY after the region: the layer's function of the arrays the region finds. -/
theorem arr1_final (c : Dev nD) :
    (Cert.KernelIdeal.Hand.dat1 (F := Ideal) V c).arrAt 4 cfg1.N
      = fun j : S128x512.Idx => Cert.NetSpec.layer1 (fun p i => (V c main_v3 : Vec Ideal S128x1024 .f32) (ix2 p i))
          (fun o i => (V c main_arg4 : Vec Ideal S512x1024 .f32) (ix2 o i))
          (fun o i k => (V c main_v1 : Vec Ideal S4x512x1024 .f32) (ix3 k o i))
          (fun o => (V c main_v4 : Vec Ideal S1x512 .f32) (ix2 0 o)) (j 0) (j 1) :=
  (dat1 V c).arrAt_eq_of_cover 4 (G V c) (flushed_eq V c) cover

end Cert.KernelIdeal.HandValue1

end
-- ==== Proof.KiValue.lean ====
/-
  The idealized kernel's result is the network of its arguments: the second region's output array is the second layer
  of its input array, which is the first region's output array, the first layer of the launch arguments; the logits
  reach the regions transposed and the biases as rows, and reading those back gives the layers of the specification.
-/
import proofs.«132863_j44813688767075_2_alg».proof.Proof.KiHost
import proofs.«132863_j44813688767075_2_alg».proof.Proof.KiR0Value
import proofs.«132863_j44813688767075_2_alg».proof.Proof.KiR1Value
import proofs.«132863_j44813688767075_2_alg».proof.Proof.NetSpec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The second region's input array is the hidden layer of the launch arguments. -/
theorem hidden_eq (c : Dev nD) (p : Fin 128) (i : Fin 1024) :
    (Vr3 m ρ c main_v3 : Vec Ideal S128x1024 .f32) (ix2 p i)
      = Cert.NetSpec.hidden (m ((c : Thread nD τ).loc main_arg0)) (m ((c : Thread nD τ).loc main_arg1)) (m ((c : Thread nD τ).loc main_arg2)) (m ((c : Thread nD τ).loc main_arg3)) p i := by
  have e0 : (fun p i => (Vr1 m ρ c main_arg0 : Vec Ideal S128x1024 .f32) (ix2 p i))
      = fun p i => (m ((c : Thread nD τ).loc main_arg0) : Vec Ideal S128x1024 .f32) (ix2 p i) := by rw [Vr1_arg0]
  have e1 : (fun o i => (Vr1 m ρ c main_arg1 : Vec Ideal S1024x1024 .f32) (ix2 o i))
      = fun o i => (m ((c : Thread nD τ).loc main_arg1) : Vec Ideal S1024x1024 .f32) (ix2 o i) := by rw [Vr1_arg1]
  have e3 : (fun (o i : Fin 1024) (k : Fin 4) => (Vr1 m ρ c main_v0 : Vec Ideal S4x1024x1024 .f32) (ix3 k o i))
      = fun o i k => (m ((c : Thread nD τ).loc main_arg3) : Vec Ideal S1024x1024x4 .f32) (ix3 o i k) := by
    funext o i k; exact Vr1_v0_apply m ρ c k o i
  have e2 : (fun o : Fin 1024 => (Vr1 m ρ c main_v2 : Vec Ideal S1x1024 .f32) (ix2 (0 : Fin 1) o))
      = fun o => (m ((c : Thread nD τ).loc main_arg2) : Vec Ideal S1024 .f32) (ix1 o) := by
    funext o; exact Vr1_v2_apply m ρ c o
  rw [Vr3_v3, arr0_final]
  show Cert.NetSpec.layer0 _ _ _ _ p i = _
  rw [e0, e1, e3, e2]
  rfl

/-- The second region's output array after all its write-backs is the network of the launch arguments. -/
theorem kernel_value (c : Dev nD) :
    (dat1 (F := Ideal) (Vr3 m ρ) c).arrAt 4 cfg1.N = Cert.NetSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h3 : (fun p i => (Vr3 m ρ c main_v3 : Vec Ideal S128x1024 .f32) (ix2 p i))
      = Cert.NetSpec.hidden (m ((c : Thread nD τ).loc main_arg0)) (m ((c : Thread nD τ).loc main_arg1)) (m ((c : Thread nD τ).loc main_arg2)) (m ((c : Thread nD τ).loc main_arg3)) := by
    funext p i; exact hidden_eq m ρ c p i
  have e4 : (fun o i => (Vr3 m ρ c main_arg4 : Vec Ideal S512x1024 .f32) (ix2 o i))
      = fun o i => (m ((c : Thread nD τ).loc main_arg4) : Vec Ideal S512x1024 .f32) (ix2 o i) := by rw [Vr3_arg4]
  have e6 : (fun (o : Fin 512) (i : Fin 1024) (k : Fin 4) => (Vr3 m ρ c main_v1 : Vec Ideal S4x512x1024 .f32) (ix3 k o i))
      = fun o i k => (m ((c : Thread nD τ).loc main_arg6) : Vec Ideal S512x1024x4 .f32) (ix3 o i k) := by
    funext o i k; exact Vr3_v1_apply m ρ c k o i
  have e5 : (fun o : Fin 512 => (Vr3 m ρ c main_v4 : Vec Ideal S1x512 .f32) (ix2 (0 : Fin 1) o))
      = fun o => (m ((c : Thread nD τ).loc main_arg5) : Vec Ideal S512 .f32) (ix1 o) := by
    funext o; exact Vr3_v4_apply m ρ c o
  rw [Cert.KernelIdeal.HandValue1.arr1_final]
  funext j
  show Cert.NetSpec.layer1 _ _ _ _ (j 0) (j 1) = _
  rw [h3, e4, e6, e5]
  rfl

/-- The idealized kernel's run: it terminates, nothing faulting, with the result buffer at the network of the
    arguments and every argument array as launched. -/
theorem kernel_run : θ_run defs (onTc (τ := τ) (main (F := Ideal))) ⟨m, fun _ => 0, ρ⟩ (fun r => ∀ c : Dev nD,
      r.2.mem ((c.tc : Thread nD τ).loc main_v5) = Cert.NetSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (kernel_value m ρ c), (h c).2⟩) (run_value (F := Ideal) m ρ)

end Cert.KernelIdeal.HandValue

end
-- ==== Proof.RefLaws.lean ====
/-
  The arithmetic of one effective weight, as the reference arranges it, on the extended reals.

  The reference divides each logit by the temperature 1, takes the largest of the four quotients as a fold of `max`
  from −∞ (and once more against −∞), exponentiates the shifted quotients, divides each by their sum taken from 0,
  multiplies the four weights with the four atoms `w, 0, tanh w, sin w` and sums the products from 0. None of these
  steps needs a finite value: `l / 1 = l`, `⊥ ⊔ a = a`, `0 + a = a`, `p · 0 = 0` hold on all of the extended reals,
  so the result is the three-term combination of the specification.
-/
import proofs.«132863_j44813688767075_2_alg».proof.Proof.NetSpec
import Idealize.ShloMosaic.PureOps.Ideal.Laws

noncomputable section

open scoped BigOperators

namespace Cert.RefSide

open Idealize.ShloMosaic Cert.NetSpec

/-- The pattern of the float 1.0 denotes 1. -/
theorem ofBits_one_f32 : Ideal.ofBits .f32 0x3F800000#32 = 1 := by
  simp [Ideal.ofBits, Ideal.ieee, -EReal.coe_mul]; norm_num

/-- The pattern of the float −∞ denotes the bottom element. -/
theorem ofBits_neg_inf_f32 : Ideal.ofBits .f32 0xFF800000#32 = ⊥ := by
  simp [Ideal.ofBits, Ideal.ieee]

/-- Division by one changes nothing, at the infinities too. -/
theorem div_one' (x : EReal) : Ideal.div x 1 = x := by
  rw [← EReal.coe_one, Ideal.div_coe one_ne_zero]
  simp

/-- The fold of `max` over four values from −∞ is their largest. -/
theorem fold_max_four (f : Fin 4 → EReal) :
    (Finset.univ : Finset (Fin 4)).fold max ⊥ f = (f 0 ⊔ f 1) ⊔ (f 2 ⊔ f 3) := by
  apply le_antisymm
  · rw [Finset.fold_max_le]
    refine ⟨bot_le, fun k _ => ?_⟩
    fin_cases k
    · exact le_sup_of_le_left le_sup_left
    · exact le_sup_of_le_left le_sup_right
    · exact le_sup_of_le_right le_sup_left
    · exact le_sup_of_le_right le_sup_right
  · have h : ∀ k : Fin 4, f k ≤ (Finset.univ : Finset (Fin 4)).fold max ⊥ f := fun k =>
      Finset.le_fold_max (f k) |>.2 (Or.inr ⟨k, Finset.mem_univ k, le_rfl⟩)
    exact sup_le (sup_le (h 0) (h 1)) (sup_le (h 2) (h 3))

/-- One effective weight from the reference's parts: `d` the logits over the temperature, `m` their largest,
    `e` the shifted exponentials, `s` their sum, `p` the softmax weights, `a` the four atoms. -/
theorem weff_of_parts (w : EReal) (l d e p a : Fin 4 → EReal) (m s : EReal)
    (hd : ∀ k, d k = Ideal.div (l k) 1)
    (hm : m = max ⊥ ((Finset.univ : Finset (Fin 4)).fold max ⊥ d))
    (he : ∀ k, e k = Ideal.exp (d k - m))
    (hs : s = 0 + ∑ k : Fin 4, e k)
    (hp : ∀ k, p k = Ideal.div (e k) s)
    (ha0 : a 0 = w) (ha1 : a 1 = 0) (ha2 : a 2 = Ideal.tanh w) (ha3 : a 3 = Ideal.sin w) :
    0 + ∑ k : Fin 4, p k * a k = weff w l := by
  have hd' : d = l := funext fun k => (hd k).trans (div_one' _)
  subst hd'
  have hm' : m = mx d := by rw [hm, fold_max_four, bot_sup_eq]; rfl
  have he' : ∀ k, e k = ex d k := fun k => by rw [he k, hm']; rfl
  have hs' : s = den d := by
    rw [hs, zero_add, Fin.sum_univ_four, he' 0, he' 1, he' 2, he' 3]; rfl
  have hp' : ∀ k, p k = sm d k := fun k => by rw [hp k, he' k, hs']; rfl
  rw [zero_add, Fin.sum_univ_four, ha0, ha1, ha2, ha3, hp' 0, hp' 2, hp' 3, mul_zero, add_zero]
  rfl

end Cert.RefSide

end
-- ==== Proof.LibLastAxisMax.lean ====
/-
  The host's one-operand reduce with a maximum body over the LAST axis, read at an index given by coordinates, over
  arbitrary extents and at the ideal values:
  • of an `[a, b, n]` array at `(p, q)`, and
  • of an `[a, n]` matrix at `p`:
  the fold of `max` along that axis from the initial value. (The middle-axis form is in LibColumnReads; the kernel-side
  row maximum in LibRowReads.)
-/
import Idealize.ShloMosaic.Lib.ValueIdx
import Idealize.ShloMosaic.PureOps.Ideal.Laws

namespace Cert.LibLastAxisMax

open Idealize.ShloMosaic Idealize.ShloMosaic.ValueIdx

/-- Position `(p, q)` of an `[a, b, n]` array with last coordinate `k` put back is `(p, q, k)`. -/
theorem lift_last3 {a b n : ℕ} (h : (⟨3, ![a, b, n]⟩ : Shape).Reduces [2] (⟨2, ![a, b]⟩ : Shape)) (p : Fin a) (q : Fin b)
    (k : Fin n) : h.lift (ix2 p q) k = ix3 p q k := by
  funext c; apply Fin.ext
  fin_cases c <;> rfl

/-- Row `p` of an `[a, n]` matrix with column `k` put back is `(p, k)`. -/
theorem lift_last2 {a n : ℕ} (h : (⟨2, ![a, n]⟩ : Shape).Reduces [1] (⟨1, ![a]⟩ : Shape)) (p : Fin a) (k : Fin n) :
    h.lift (ix1 p) k = ix2 p k := by
  funext c; apply Fin.ext
  fin_cases c <;> rfl

/-- The host's reduce with a maximum body over the last axis of an `[a, b, n]` array, at `(p, q)`, is the fold of
    `max` over that axis from the initial value. -/
theorem hostLastMax3_apply {φ : FTy} {a b n : ℕ} {u : Shape} (x : FVec Ideal ⟨3, ![a, b, n]⟩ φ) (init : FVec Ideal u φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last3 h p q k))

/-- The host's reduce with a maximum body over the last axis of an `[a, n]` matrix, at `p`, is the fold of `max`
    along row `p` from the initial value. -/
theorem hostLastMax2_apply {φ : FTy} {a n : ℕ} {u : Shape} (x : FVec Ideal ⟨2, ![a, n]⟩ φ) (init : FVec Ideal u φ)
    (h' : (⟨2, ![a, n]⟩ : Shape).ReducesTo [1] (⟨1, ![a]⟩ : Shape))
    (h : (⟨2, ![a, n]⟩ : Shape).Reduces [1] (⟨1, ![a]⟩ : Shape)) (hu : 0 < u.numel) (p : Fin a) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last2 h p k))

end Cert.LibLastAxisMax
-- ==== Proof.RefValue.lean ====
/-
  The reference program computes the network of the specification.

  Read one operation at a time, the reference's last stage at an index `(p, q)` is a sum from 0 over the 1024 hidden
  units of (hidden activation) · (effective weight of layer 1), plus the bias; the hidden activation at `(p, o)` is a sum
  from 0 over the 1024 inputs of `tanh` of (input) · (effective weight of layer 0), plus the bias; and an effective
  weight at `(o, i)` is built from the four logits at `(o, i, ·)` exactly as the pure arithmetic module describes: the
  logits over the temperature 1, their maximum as a fold from −∞, the shifted exponentials, their sum from 0, the
  quotients, the products with the four stacked atoms `w, 0, tanh w, sin w`, and the sum of the products from 0.
  Every layout operation (a broadcast along a new or a unit axis, the stack of the atoms) only moves coordinates, and
  the index functions composed along the way are the coordinate triples and pairs written here with `ix3`, `ix2`, `ix1`.
-/
import proofs.«132863_j44813688767075_2_alg».proof.Proof.Gen.ReferenceIdeal.Run
import proofs.«132863_j44813688767075_2_alg».proof.Proof.Gen.ReferenceIdeal.Read
import proofs.«132863_j44813688767075_2_alg».proof.Proof.NetSpec
import proofs.«132863_j44813688767075_2_alg».proof.Proof.RefLaws
import proofs.«132863_j44813688767075_2_alg».proof.Proof.LibLastAxisMax

noncomputable section

open scoped BigOperators

namespace Cert.RefSide

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.NetSpec

/-! ## Layer 0: the effective weight at `(o, i)` -/

section Layer0

variable (x : (⟨S128x1024, .f32⟩ : BufTy).Contents (Elt Ideal)) (W : (⟨S1024x1024, .f32⟩ : BufTy).Contents (Elt Ideal))
  (b : (⟨S1024, .f32⟩ : BufTy).Contents (Elt Ideal)) (lg : (⟨S1024x1024x4, .f32⟩ : BufTy).Contents (Elt Ideal))
  (p : Fin 128) (o i : Fin 1024) (k : Fin 4)

/-- The logit over the temperature. -/
theorem l0_quot : val_main_v1 (F := Ideal) lg (ix3 o i k) = Ideal.div (lg (ix3 o i k)) 1 := by
  rw [val_main_v1_apply, val_main_v0_apply, val_main_cst_apply, Ideal.hostDivf_def, Ideal.ofBits_def, ofBits_one_f32]

/-- The largest quotient: the fold of `max` along the atom axis from −∞, once more against −∞. -/
theorem l0_max : val_main_v4 (F := Ideal) lg (ix2 o i)
    = max ⊥ ((Finset.univ : Finset (Fin 4)).fold max ⊥ fun k => val_main_v1 (F := Ideal) lg (ix3 o i k)) := by
  rw [val_main_v4_apply, val_main_v3_apply, val_main_cst_1_apply, Ideal.maximumf_def, Ideal.ofBits_def, ofBits_neg_inf_f32]
  unfold val_main_v2
  rw [Cert.LibLastAxisMax.hostLastMax3_apply (val_main_v1 (F := Ideal) lg) (val_main_cst_0 (F := Ideal))
    reducesTo_S1024x1024x4_S1024x1024_d2 (by decide) h_S_ o i, val_main_cst_0_apply, Ideal.ofBits_def, ofBits_neg_inf_f32]

/-- The largest quotient spread back along the atom axis. -/
theorem l0_maxb : val_main_v6 (F := Ideal) lg (ix3 o i k) = val_main_v4 (F := Ideal) lg (ix2 o i) := by
  rw [val_main_v6_apply, val_main_v5_apply]
  exact congrArg _ (funext fun a => Fin.ext (by match a with | ⟨0, _⟩ => rfl | ⟨1, _⟩ => rfl))

/-- The shifted exponential. -/
theorem l0_exp : val_main_v8 (F := Ideal) lg (ix3 o i k)
    = Ideal.exp (val_main_v1 (F := Ideal) lg (ix3 o i k) - val_main_v4 (F := Ideal) lg (ix2 o i)) := by
  rw [val_main_v8_apply, val_main_v7_apply, l0_maxb, Ideal.hostUnary_exp_def, Ideal.subf_def]

/-- The sum of the four shifted exponentials, from 0. -/
theorem l0_sum : val_main_v9 (F := Ideal) lg (ix2 o i) = 0 + ∑ k : Fin 4, val_main_v8 (F := Ideal) lg (ix3 o i k) := by
  rw [val_main_v9_apply, val_main_cst_2_apply, Ideal.ofBits_def, Ideal.ofBits_zero_f32]
  refine congrArg (0 + ·) (Finset.sum_congr rfl fun k _ => congrArg _ ?_)
  exact funext fun a => Fin.ext (by match a with | ⟨0, _⟩ => rfl | ⟨1, _⟩ => rfl | ⟨2, _⟩ => rfl)

/-- That sum spread back along the atom axis. -/
theorem l0_sumb : val_main_v11 (F := Ideal) lg (ix3 o i k) = val_main_v9 (F := Ideal) lg (ix2 o i) := by
  rw [val_main_v11_apply, val_main_v10_apply]
  exact congrArg _ (funext fun a => Fin.ext (by match a with | ⟨0, _⟩ => rfl | ⟨1, _⟩ => rfl))

/-- The softmax weight. -/
theorem l0_soft : val_main_v12 (F := Ideal) lg (ix3 o i k)
    = Ideal.div (val_main_v8 (F := Ideal) lg (ix3 o i k)) (val_main_v9 (F := Ideal) lg (ix2 o i)) := by
  rw [val_main_v12_apply, l0_sumb, Ideal.hostDivf_def]

/-- Atom 0 of the stack is the weight itself. -/
theorem l0_atom0 : val_main_v20 (F := Ideal) W (ix3 o i (0 : Fin 4)) = W (ix2 o i) := by
  unfold val_main_v20
  refine (concatenate_apply_piece (2 : Fin S1024x1024x4.rank) _ _ (ix3 o i (0 : Fin 4)) 0 (by show (0 : Nat) < 4; decide) S1024x1024x1
    (val_main_v16 (F := Ideal) W) rfl rfl 0 rfl (ix3 o i (0 : Fin 1))
    (fun b hb => match b, hb with | ⟨0, _⟩, _ => rfl | ⟨1, _⟩, _ => rfl | ⟨2, _⟩, h => absurd rfl h) rfl).trans ?_
  rw [val_main_v16_apply]
  exact congrArg W (funext fun a => Fin.ext (by match a with | ⟨0, _⟩ => rfl | ⟨1, _⟩ => rfl))

/-- Atom 1 of the stack is zero. -/
theorem l0_atom1 : val_main_v20 (F := Ideal) W (ix3 o i (1 : Fin 4)) = 0 := by
  unfold val_main_v20
  refine (concatenate_apply_piece (2 : Fin S1024x1024x4.rank) _ _ (ix3 o i (1 : Fin 4)) 1 (by show (1 : Nat) < 4; decide) S1024x1024x1
    (val_main_v17 (F := Ideal)) rfl rfl 1 rfl (ix3 o i (0 : Fin 1))
    (fun b hb => match b, hb with | ⟨0, _⟩, _ => rfl | ⟨1, _⟩, _ => rfl | ⟨2, _⟩, h => absurd rfl h) rfl).trans ?_
  rw [val_main_v17_apply, val_main_v13_apply, val_main_cst_3_apply, Ideal.ofBits_def, Ideal.ofBits_zero_f32]

/-- Atom 2 of the stack is the hyperbolic tangent of the weight. -/
theorem l0_atom2 : val_main_v20 (F := Ideal) W (ix3 o i (2 : Fin 4)) = Ideal.tanh (W (ix2 o i)) := by
  unfold val_main_v20
  refine (concatenate_apply_piece (2 : Fin S1024x1024x4.rank) _ _ (ix3 o i (2 : Fin 4)) 2 (by show (2 : Nat) < 4; decide) S1024x1024x1
    (val_main_v18 (F := Ideal) W) rfl rfl 2 rfl (ix3 o i (0 : Fin 1))
    (fun b hb => match b, hb with | ⟨0, _⟩, _ => rfl | ⟨1, _⟩, _ => rfl | ⟨2, _⟩, h => absurd rfl h) rfl).trans ?_
  rw [val_main_v18_apply, val_main_v14_apply, Ideal.hostUnary_tanh_def]
  exact congrArg (fun y => Ideal.tanh (W y)) (funext fun a => Fin.ext (by match a with | ⟨0, _⟩ => rfl | ⟨1, _⟩ => rfl))

/-- Atom 3 of the stack is the sine of the weight. -/
theorem l0_atom3 : val_main_v20 (F := Ideal) W (ix3 o i (3 : Fin 4)) = Ideal.sin (W (ix2 o i)) := by
  unfold val_main_v20
  refine (concatenate_apply_piece (2 : Fin S1024x1024x4.rank) _ _ (ix3 o i (3 : Fin 4)) 3 (by show (3 : Nat) < 4; decide) S1024x1024x1
    (val_main_v19 (F := Ideal) W) rfl rfl 3 rfl (ix3 o i (0 : Fin 1))
    (fun b hb => match b, hb with | ⟨0, _⟩, _ => rfl | ⟨1, _⟩, _ => rfl | ⟨2, _⟩, h => absurd rfl h) rfl).trans ?_
  rw [val_main_v19_apply, val_main_v15_apply, Ideal.hostUnary_sin_def]
  exact congrArg (fun y => Ideal.sin (W y)) (funext fun a => Fin.ext (by match a with | ⟨0, _⟩ => rfl | ⟨1, _⟩ => rfl))

/-- The weighted atoms summed from 0. -/
theorem l0_prodsum : val_main_v22 (F := Ideal) W lg (ix2 o i)
    = 0 + ∑ k : Fin 4, val_main_v12 (F := Ideal) lg (ix3 o i k) * val_main_v20 (F := Ideal) W (ix3 o i k) := by
  rw [val_main_v22_apply, val_main_cst_4_apply, Ideal.ofBits_def, Ideal.ofBits_zero_f32]
  refine congrArg (0 + ·) (Finset.sum_congr rfl fun k _ => ?_)
  have e : idx_main_v22 (ix2 o i) k = ix3 o i k :=
    funext fun a => Fin.ext (by match a with | ⟨0, _⟩ => rfl | ⟨1, _⟩ => rfl | ⟨2, _⟩ => rfl)
  rw [e, val_main_v21_apply, Ideal.mulf_def]

/-- The reference's effective weight of layer 0 at `(o, i)` is the specification's. -/
theorem l0_weff : val_main_v22 (F := Ideal) W lg (ix2 o i) = weff (W (ix2 o i)) (fun k => lg (ix3 o i k)) := by
  rw [l0_prodsum]
  exact weff_of_parts _ _ (fun k => val_main_v1 (F := Ideal) lg (ix3 o i k)) (fun k => val_main_v8 (F := Ideal) lg (ix3 o i k))
    (fun k => val_main_v12 (F := Ideal) lg (ix3 o i k)) (fun k => val_main_v20 (F := Ideal) W (ix3 o i k))
    (val_main_v4 (F := Ideal) lg (ix2 o i)) (val_main_v9 (F := Ideal) lg (ix2 o i))
    (fun k => l0_quot lg o i k) (l0_max lg o i) (fun k => l0_exp lg o i k) (l0_sum lg o i) (fun k => l0_soft lg o i k)
    (l0_atom0 W o i) (l0_atom1 W o i) (l0_atom2 W o i) (l0_atom3 W o i)

/-- Layer 0's result at `(p, o)` is the specification's hidden activation. -/
theorem l0_hidden : val_main_v32 (F := Ideal) x W b lg (ix2 p o) = hidden x W b lg p o := by
  rw [val_main_v32_apply, val_main_v29_apply, val_main_v31_apply, val_main_v30_apply, val_main_cst_5_apply,
    Ideal.addf_def, Ideal.ofBits_def, Ideal.ofBits_zero_f32, zero_add]
  show _ = (∑ k : Fin 1024, Ideal.tanh (x (ix2 p k) * weff (W (ix2 o k)) (fun c => lg (ix3 o k c)))) + b (ix1 o)
  refine congrArg₂ (· + ·) (Finset.sum_congr rfl fun k _ => ?_) (congrArg b ?_)
  · have e : idx_main_v29 (ix2 p o) k = ix3 p o k :=
      funext fun a => Fin.ext (by match a with | ⟨0, _⟩ => rfl | ⟨1, _⟩ => rfl | ⟨2, _⟩ => rfl)
    have e1 : idx_main_v23 (idx_main_v25 (ix3 p o k)) = ix2 p k :=
      funext fun a => Fin.ext (by match a with | ⟨0, _⟩ => rfl | ⟨1, _⟩ => rfl)
    have e2 : idx_main_v24 (idx_main_v26 (ix3 p o k)) = ix2 o k :=
      funext fun a => Fin.ext (by match a with | ⟨0, _⟩ => rfl | ⟨1, _⟩ => rfl)
    rw [e, val_main_v28_apply, val_main_v27_apply, val_main_v25_apply, val_main_v23_apply, val_main_v26_apply,
      val_main_v24_apply, Ideal.hostUnary_tanh_def, Ideal.mulf_def, e1, e2, l0_weff]
  · exact funext fun a => Fin.ext (by match a with | ⟨0, _⟩ => rfl)

end Layer0

/-! ## Layer 1: the effective weight at `(o, i)` -/

section Layer1

variable (W : (⟨S512x1024, .f32⟩ : BufTy).Contents (Elt Ideal)) (lg : (⟨S512x1024x4, .f32⟩ : BufTy).Contents (Elt Ideal))
  (o : Fin 512) (i : Fin 1024) (k : Fin 4)

/-- The logit over the temperature. -/
theorem l1_quot : val_main_v34 (F := Ideal) lg (ix3 o i k) = Ideal.div (lg (ix3 o i k)) 1 := by
  rw [val_main_v34_apply, val_main_v33_apply, val_main_cst_6_apply, Ideal.hostDivf_def, Ideal.ofBits_def, ofBits_one_f32]

/-- The largest quotient: the fold of `max` along the atom axis from −∞, once more against −∞. -/
theorem l1_max : val_main_v37 (F := Ideal) lg (ix2 o i)
    = max ⊥ ((Finset.univ : Finset (Fin 4)).fold max ⊥ fun k => val_main_v34 (F := Ideal) lg (ix3 o i k)) := by
  rw [val_main_v37_apply, val_main_v36_apply, val_main_cst_8_apply, Ideal.maximumf_def, Ideal.ofBits_def, ofBits_neg_inf_f32]
  unfold val_main_v35
  rw [Cert.LibLastAxisMax.hostLastMax3_apply (val_main_v34 (F := Ideal) lg) (val_main_cst_7 (F := Ideal))
    reducesTo_S512x1024x4_S512x1024_d2 (by decide) h_S_ o i, val_main_cst_7_apply, Ideal.ofBits_def, ofBits_neg_inf_f32]

/-- The largest quotient spread back along the atom axis. -/
theorem l1_maxb : val_main_v39 (F := Ideal) lg (ix3 o i k) = val_main_v37 (F := Ideal) lg (ix2 o i) := by
  rw [val_main_v39_apply, val_main_v38_apply]
  exact congrArg _ (funext fun a => Fin.ext (by match a with | ⟨0, _⟩ => rfl | ⟨1, _⟩ => rfl))

/-- The shifted exponential. -/
theorem l1_exp : val_main_v41 (F := Ideal) lg (ix3 o i k)
    = Ideal.exp (val_main_v34 (F := Ideal) lg (ix3 o i k) - val_main_v37 (F := Ideal) lg (ix2 o i)) := by
  rw [val_main_v41_apply, val_main_v40_apply, l1_maxb, Ideal.hostUnary_exp_def, Ideal.subf_def]

/-- The sum of the four shifted exponentials, from 0. -/
theorem l1_sum : val_main_v42 (F := Ideal) lg (ix2 o i) = 0 + ∑ k : Fin 4, val_main_v41 (F := Ideal) lg (ix3 o i k) := by
  rw [val_main_v42_apply, val_main_cst_9_apply, Ideal.ofBits_def, Ideal.ofBits_zero_f32]
  refine congrArg (0 + ·) (Finset.sum_congr rfl fun k _ => congrArg _ ?_)
  exact funext fun a => Fin.ext (by match a with | ⟨0, _⟩ => rfl | ⟨1, _⟩ => rfl | ⟨2, _⟩ => rfl)

/-- That sum spread back along the atom axis. -/
theorem l1_sumb : val_main_v44 (F := Ideal) lg (ix3 o i k) = val_main_v42 (F := Ideal) lg (ix2 o i) := by
  rw [val_main_v44_apply, val_main_v43_apply]
  exact congrArg _ (funext fun a => Fin.ext (by match a with | ⟨0, _⟩ => rfl | ⟨1, _⟩ => rfl))

/-- The softmax weight. -/
theorem l1_soft : val_main_v45 (F := Ideal) lg (ix3 o i k)
    = Ideal.div (val_main_v41 (F := Ideal) lg (ix3 o i k)) (val_main_v42 (F := Ideal) lg (ix2 o i)) := by
  rw [val_main_v45_apply, l1_sumb, Ideal.hostDivf_def]

/-- Atom 0 of the stack is the weight itself. -/
theorem l1_atom0 : val_main_v53 (F := Ideal) W (ix3 o i (0 : Fin 4)) = W (ix2 o i) := by
  unfold val_main_v53
  refine (concatenate_apply_piece (2 : Fin S512x1024x4.rank) _ _ (ix3 o i (0 : Fin 4)) 0 (by show (0 : Nat) < 4; decide) S512x1024x1
    (val_main_v49 (F := Ideal) W) rfl rfl 0 rfl (ix3 o i (0 : Fin 1))
    (fun b hb => match b, hb with | ⟨0, _⟩, _ => rfl | ⟨1, _⟩, _ => rfl | ⟨2, _⟩, h => absurd rfl h) rfl).trans ?_
  rw [val_main_v49_apply]
  exact congrArg W (funext fun a => Fin.ext (by match a with | ⟨0, _⟩ => rfl | ⟨1, _⟩ => rfl))

/-- Atom 1 of the stack is zero. -/
theorem l1_atom1 : val_main_v53 (F := Ideal) W (ix3 o i (1 : Fin 4)) = 0 := by
  unfold val_main_v53
  refine (concatenate_apply_piece (2 : Fin S512x1024x4.rank) _ _ (ix3 o i (1 : Fin 4)) 1 (by show (1 : Nat) < 4; decide) S512x1024x1
    (val_main_v50 (F := Ideal)) rfl rfl 1 rfl (ix3 o i (0 : Fin 1))
    (fun b hb => match b, hb with | ⟨0, _⟩, _ => rfl | ⟨1, _⟩, _ => rfl | ⟨2, _⟩, h => absurd rfl h) rfl).trans ?_
  rw [val_main_v50_apply, val_main_v46_apply, val_main_cst_10_apply, Ideal.ofBits_def, Ideal.ofBits_zero_f32]

/-- Atom 2 of the stack is the hyperbolic tangent of the weight. -/
theorem l1_atom2 : val_main_v53 (F := Ideal) W (ix3 o i (2 : Fin 4)) = Ideal.tanh (W (ix2 o i)) := by
  unfold val_main_v53
  refine (concatenate_apply_piece (2 : Fin S512x1024x4.rank) _ _ (ix3 o i (2 : Fin 4)) 2 (by show (2 : Nat) < 4; decide) S512x1024x1
    (val_main_v51 (F := Ideal) W) rfl rfl 2 rfl (ix3 o i (0 : Fin 1))
    (fun b hb => match b, hb with | ⟨0, _⟩, _ => rfl | ⟨1, _⟩, _ => rfl | ⟨2, _⟩, h => absurd rfl h) rfl).trans ?_
  rw [val_main_v51_apply, val_main_v47_apply, Ideal.hostUnary_tanh_def]
  exact congrArg (fun y => Ideal.tanh (W y)) (funext fun a => Fin.ext (by match a with | ⟨0, _⟩ => rfl | ⟨1, _⟩ => rfl))

/-- Atom 3 of the stack is the sine of the weight. -/
theorem l1_atom3 : val_main_v53 (F := Ideal) W (ix3 o i (3 : Fin 4)) = Ideal.sin (W (ix2 o i)) := by
  unfold val_main_v53
  refine (concatenate_apply_piece (2 : Fin S512x1024x4.rank) _ _ (ix3 o i (3 : Fin 4)) 3 (by show (3 : Nat) < 4; decide) S512x1024x1
    (val_main_v52 (F := Ideal) W) rfl rfl 3 rfl (ix3 o i (0 : Fin 1))
    (fun b hb => match b, hb with | ⟨0, _⟩, _ => rfl | ⟨1, _⟩, _ => rfl | ⟨2, _⟩, h => absurd rfl h) rfl).trans ?_
  rw [val_main_v52_apply, val_main_v48_apply, Ideal.hostUnary_sin_def]
  exact congrArg (fun y => Ideal.sin (W y)) (funext fun a => Fin.ext (by match a with | ⟨0, _⟩ => rfl | ⟨1, _⟩ => rfl))

/-- The weighted atoms summed from 0. -/
theorem l1_prodsum : val_main_v55 (F := Ideal) W lg (ix2 o i)
    = 0 + ∑ k : Fin 4, val_main_v45 (F := Ideal) lg (ix3 o i k) * val_main_v53 (F := Ideal) W (ix3 o i k) := by
  rw [val_main_v55_apply, val_main_cst_11_apply, Ideal.ofBits_def, Ideal.ofBits_zero_f32]
  refine congrArg (0 + ·) (Finset.sum_congr rfl fun k _ => ?_)
  have e : idx_main_v55 (ix2 o i) k = ix3 o i k :=
    funext fun a => Fin.ext (by match a with | ⟨0, _⟩ => rfl | ⟨1, _⟩ => rfl | ⟨2, _⟩ => rfl)
  rw [e, val_main_v54_apply, Ideal.mulf_def]

/-- The reference's effective weight of layer 1 at `(o, i)` is the specification's. -/
theorem l1_weff : val_main_v55 (F := Ideal) W lg (ix2 o i) = weff (W (ix2 o i)) (fun k => lg (ix3 o i k)) := by
  rw [l1_prodsum]
  exact weff_of_parts _ _ (fun k => val_main_v34 (F := Ideal) lg (ix3 o i k)) (fun k => val_main_v41 (F := Ideal) lg (ix3 o i k))
    (fun k => val_main_v45 (F := Ideal) lg (ix3 o i k)) (fun k => val_main_v53 (F := Ideal) W (ix3 o i k))
    (val_main_v37 (F := Ideal) lg (ix2 o i)) (val_main_v42 (F := Ideal) lg (ix2 o i))
    (fun k => l1_quot lg o i k) (l1_max lg o i) (fun k => l1_exp lg o i k) (l1_sum lg o i) (fun k => l1_soft lg o i k)
    (l1_atom0 W o i) (l1_atom1 W o i) (l1_atom2 W o i) (l1_atom3 W o i)

end Layer1

/-! ## The whole reference -/

/-- The reference's last stage, as a function of the seven argument arrays, is the network of the specification. -/
theorem ref_is_out
    (x : (⟨S128x1024, .f32⟩ : BufTy).Contents (Elt Ideal)) (W0 : (⟨S1024x1024, .f32⟩ : BufTy).Contents (Elt Ideal))
    (b0 : (⟨S1024, .f32⟩ : BufTy).Contents (Elt Ideal)) (lg0 : (⟨S1024x1024x4, .f32⟩ : BufTy).Contents (Elt Ideal))
    (W1 : (⟨S512x1024, .f32⟩ : BufTy).Contents (Elt Ideal)) (b1 : (⟨S512, .f32⟩ : BufTy).Contents (Elt Ideal))
    (lg1 : (⟨S512x1024x4, .f32⟩ : BufTy).Contents (Elt Ideal)) :
    val_main_v64 (F := Ideal) x W0 b0 lg0 W1 b1 lg1 = Cert.NetSpec.out x W0 b0 lg0 W1 b1 lg1 := by
  funext j
  obtain ⟨p, q, rfl⟩ : ∃ (p : Fin 128) (q : Fin 512), j = ix2 p q := ⟨j 0, j 1, eq_ix2 j⟩
  rw [val_main_v64_apply, val_main_v61_apply, val_main_v63_apply, val_main_v62_apply, val_main_cst_12_apply,
    Ideal.addf_def, Ideal.ofBits_def, Ideal.ofBits_zero_f32, zero_add]
  show _ = (∑ k : Fin 1024, hidden x W0 b0 lg0 p k * weff (W1 (ix2 q k)) (fun c => lg1 (ix3 q k c))) + b1 (ix1 q)
  refine congrArg₂ (· + ·) (Finset.sum_congr rfl fun k _ => ?_) (congrArg b1 ?_)
  · have e : idx_main_v61 (ix2 p q) k = ix3 p q k :=
      funext fun a => Fin.ext (by match a with | ⟨0, _⟩ => rfl | ⟨1, _⟩ => rfl | ⟨2, _⟩ => rfl)
    have e1 : idx_main_v56 (idx_main_v58 (ix3 p q k)) = ix2 p k :=
      funext fun a => Fin.ext (by match a with | ⟨0, _⟩ => rfl | ⟨1, _⟩ => rfl)
    have e2 : idx_main_v57 (idx_main_v59 (ix3 p q k)) = ix2 q k :=
      funext fun a => Fin.ext (by match a with | ⟨0, _⟩ => rfl | ⟨1, _⟩ => rfl)
    rw [e, val_main_v60_apply, val_main_v58_apply, val_main_v56_apply, val_main_v59_apply, val_main_v57_apply,
      Ideal.mulf_def, e1, e2, l0_hidden, l1_weff]
  · exact funext fun a => Fin.ext (by match a with | ⟨0, _⟩ => rfl)

/-- The same for the term the reference's run leaves in its result buffer. -/
theorem res_is_out (m : (ℓ : Loc nD τ sig) → Buf (Elt Ideal) ℓ) (c : Dev nD) :
    Cert.ReferenceIdeal.Value.res_main_v64 (F := Ideal) m c
      = Cert.NetSpec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v64_eq (F := Ideal) m c).trans (ref_is_out _ _ _ _ _ _ _)

end Cert.RefSide

end
-- ==== Proof.lean ====
/-
  The certificate. Both kernel programs (as printed, read at the words; and idealized, read at the extended reals) are
  the same text: three host operations, the first layer's region, one host operation, the second layer's region. Each
  region's kernel carries an accumulator across the reduction axis of its grid; the frame of each program is the run of
  its segments with the accumulator's contents tracked between grid points. At the extended reals the idealized kernel's
  result array is the two-layer network of its arguments (the softmax-weighted atoms with the zero atom dropped, the
  sum over the inputs in two blocks of 512), and so is the reference's (the four atoms summed, one sum over 1024): the
  same function, by commutativity and associativity of + on the extended reals and 0 · p = 0; no finiteness is used.
  The ideal pass rewrote nothing, so the idealization claim is the trivial one.
-/
import proofs.«132863_j44813688767075_2_alg».proof.Defs
import proofs.«132863_j44813688767075_2_alg».proof.Proof.Gen.Kernel
import proofs.«132863_j44813688767075_2_alg».proof.Proof.Gen.KernelIdeal
import proofs.«132863_j44813688767075_2_alg».proof.Proof.Gen.ReferenceIdeal
import proofs.«132863_j44813688767075_2_alg».proof.Proof.Gen.Pre_finite_inputs
import proofs.«132863_j44813688767075_2_alg».proof.Proof.Gen.ReferenceIdeal.Run
import proofs.«132863_j44813688767075_2_alg».proof.Proof.Gen.ReferenceIdeal.Read
import proofs.«132863_j44813688767075_2_alg».proof.Proof.KbRun
import proofs.«132863_j44813688767075_2_alg».proof.Proof.KiValue
import proofs.«132863_j44813688767075_2_alg».proof.Proof.RefValue
import Idealize.ShloMosaic.Adequacy
import Idealize.ShloMosaic.Init

noncomputable section

namespace Cert.Proof

open Idealize.ShloMosaic Idealize.SL.Sem

/-- The printed kernel runs and leaves its arguments alone. -/
theorem frame_p [Cert.Kernel.Facts] [Cert.Pre_finite_inputs.Facts] : Cert.frame_Kernel :=
  fun m ρ _ => Cert.Kernel.Hand.frame (F := Bits) m ρ

/-- So does the idealized kernel. -/
theorem frame_pi [Cert.KernelIdeal.Facts] [Cert.Pre_finite_inputs.Facts] : Cert.frame_KernelIdeal :=
  fun m ρ _ => Cert.KernelIdeal.Hand.frame (F := Ideal) m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both idealized programs end at the network of their (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.HandValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.RefSide.res_is_out m' c, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    @frame_p Cert.Kernel.Gen.facts Cert.Pre_finite_inputs.Gen.facts,
    @frame_pi Cert.KernelIdeal.Gen.facts Cert.Pre_finite_inputs.Gen.facts,
    @frame_ri Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
